-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S3072x1024 .f32) (main_arg2 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S16384x1024 : Shape := ⟨2, ![16384, 1024]⟩
abbrev S512x1024 : Shape := ⟨2, ![512, 1024]⟩
abbrev S1x512x1024 : Shape := ⟨3, ![1, 512, 1024]⟩
abbrev S1x512x1 : Shape := ⟨3, ![1, 512, 1]⟩
abbrev S1x512x512 : Shape := ⟨3, ![1, 512, 512]⟩
abbrev S1x512 : Shape := ⟨2, ![1, 512]⟩

abbrev nBuf : Space → Nat
  | .hbm => 13
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S3072x1024, .bf16⟩
  | .hbm, ⟨4, _⟩ => ⟨S1024x1024, .bf16⟩
  | .hbm, ⟨5, _⟩ => ⟨S16384x1024, .f32⟩
  | .hbm, ⟨6, _⟩ => ⟨S16384x1024, .bf16⟩
  | .hbm, ⟨7, _⟩ => ⟨S16384x1024, .bf16⟩
  | .hbm, ⟨8, _⟩ => ⟨S16384x1024, .bf16⟩
  | .hbm, ⟨9, _⟩ => ⟨S4x4096x1024, .bf16⟩
  | .hbm, ⟨10, _⟩ => ⟨S4x4096x1024, .bf16⟩
  | .hbm, ⟨11, _⟩ => ⟨S4x4096x1024, .bf16⟩
  | .hbm, ⟨12, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1, .f32⟩
  | .local _ .vmem, ⟨19, _⟩ => ⟨S1x512x1, .f32⟩
  | .local _ .vmem, ⟨20, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S1024x1024_0_0 : ∀ a, (![0, 0] : Fin 2 → Nat) a + S1024x1024.size a ≤ S3072x1024.size a
  h_S1024x1024 : 0 < S1024x1024.numel
  shapeCasts_S1024x1024_S1024x1024 : S1024x1024.ShapeCasts S1024x1024
  inb_S3072x1024_S1024x1024_1024_0 : ∀ a, (![1024, 0] : Fin 2 → Nat) a + S1024x1024.size a ≤ S3072x1024.size a
  inb_S3072x1024_S1024x1024_2048_0 : ∀ a, (![2048, 0] : Fin 2 → Nat) a + S1024x1024.size a ≤ S3072x1024.size a
  packedbf16_S512x1024_S512x1024_0_0 : (Rect.unit (s := S512x1024) ![0, 0] S512x1024.size inb_S512x1024_S512x1024_0_0).PackedRows (EltTy.packing .bf16)
  shapeCasts_S16384x1024_S4x4096x1024 : S16384x1024.ShapeCasts S4x4096x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x512x512_S1x512 : S1x512x512.Reduces [2] S1x512
  shapeCasts_S1x512_S1x512x1 : S1x512.ShapeCasts S1x512x1
  broadcasts_S1x512x1_S1x512x512 : S1x512x1.Broadcasts S1x512x512
  broadcasts_S1x512x1_S1x512x1024 : S1x512x1.Broadcasts S1x512x1024
  shapeCasts_S1x512x1024_S512x1024 : S1x512x1024.ShapeCasts S512x1024
  inb_S1024x1024_S1024x1024_0_0 : ∀ a, (![0, 0] : Fin 2 → Nat) a + S1024x1024.size a ≤ S1024x1024.size a
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S1x512x1024_S1x512x1024_S1x512x512_2_2_1_1_0_0_wf : DotDims.WF S1x512x1024 S1x512x1024 S1x512x512 [2] [2] [1] [1] [0] [0]
  dot_S1x512x512_S1x512x1024_S1x512x1024_2_1_1_2_0_0_wf : DotDims.WF S1x512x512 S1x512x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .bf16 = 32 ∨ (Rect.block (s := S16384x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x4096x1024.size a
  hwx1_4 : ∀ i : grid1.Coords, EltTy.bits .f32 = 32 ∨ (Rect.block (s := S4x4096x1024) S1x512x1024.size (cc1_transform_4 i) (hinb1_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1x512x1024_S1x512x1024_S1x512x512_2_2_1_1_0_0 : DotDims S1x512x1024 S1x512x1024 S1x512x512 where
  lhsContracting := [2]
  rhsContracting := [2]
  lhsNonContracting := [1]
  rhsNonContracting := [1]
  lhsBatch := [0]
  rhsBatch := [0]
  wf := dot_S1x512x1024_S1x512x1024_S1x512x512_2_2_1_1_0_0_wf
def dot_S1x512x512_S1x512x1024_S1x512x1024_2_1_1_2_0_0 : DotDims S1x512x512 S1x512x1024 S1x512x1024 where
  lhsContracting := [2]
  rhsContracting := [1]
  lhsNonContracting := [1]
  rhsNonContracting := [2]
  lhsBatch := [0]
  rhsBatch := [0]
  wf := dot_S1x512x512_S1x512x1024_S1x512x1024_2_1_1_2_0_0_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S4x4096x3072 : Shape := ⟨3, ![4, 4096, 3072]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S4x4096x3072, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x1024, .f32⟩
  | .hbm, ⟨29, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S3072x1024_S4x4096x3072_2_1_01_0_n_n_wf : DotDims.WF S4x4096x1024 S3072x1024 S4x4096x3072 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.QkvRun.lean ====
/-
  The projection kernel's body as one run. On whole staging buffers — the row block of the flattened input and the
  stacked weight matrix at given contents, the three outputs at anything — the body runs to the end and leaves each
  output buffer overwritten by one whole-block store: the row block times the transpose of one third of the weight
  rows (the query, key and value weights in that order). The statement exhibits what the three stores hold, as lists of written pieces.
-/
import proofs.«164876_j87514253623735_2_alg».proof.Proof.Gen.KernelIdeal.Launch
import proofs.«164876_j87514253623735_2_alg».proof.Proof.Gen.KernelIdeal.Skeleton
import proofs.«164876_j87514253623735_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the query, key and value blocks (last store first), with the proof that
    the body runs: the input block and the weights are read and handed back unchanged, each output buffer ends as
    its old contents overwritten by its pieces. -/
noncomputable def qkvRun (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole)
    (x0 : Vec F S512x1024 .f32) (x1 : Vec F S3072x1024 .bf16) :
    Σ' (L2 : List (View.Piece (Elt F) S512x1024 .bf16)) (L3 : List (View.Piece (Elt F) S512x1024 .bf16)), { L4 : List (View.Piece (Elt F) S512x1024 .bf16) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__qkv_kernel i arg1 harg1 arg2 harg2 arg3 harg3 arg4 harg4 arg5 harg5) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.KernelIdeal.Frm

end
-- ==== Proof.QkvFrame.lean ====
/-
  The projection region's half of the frame, at given region-entry contents `V`: what each of its three output
  blocks holds after the body at a grid point (the point's 512 rows of the flattened input times the transposed
  query, key or value weights), the proof data of its pipeline, and the body obligation at every point. The region's
  invariant is the plain one: the scoped buffers no window stages and the generator register ride along untouched.
-/
import proofs.«164876_j87514253623735_2_alg».proof.Proof.QkvRun
import Idealize.ShloMosaic.Lib.Pipeline.RegionsLoop
import Idealize.ShloMosaic.Lib.Pipeline.FrameSuffix

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The memrefs the body is called with -/

abbrev VO0_2 : View sig .tc .vmem S512x1024 .bf16 := (Memref.whole cc0_stg2_0 : Memref sig .tc .vmem S512x1024 .bf16).view
abbrev VO0_3 : View sig .tc .vmem S512x1024 .bf16 := (Memref.whole cc0_stg3_0 : Memref sig .tc .vmem S512x1024 .bf16).view
abbrev VO0_4 : View sig .tc .vmem S512x1024 .bf16 := (Memref.whole cc0_stg4_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)

/-! ## What the body leaves in each output block -/

/-- Each output's one whole-block store covers the block. -/
theorem qcover_2 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) (y : S512x1024.Idx) :
    ∃ pc ∈ (qkvRun c i arg1 harg1 arg2 harg2 arg3 harg3 arg4 harg4 arg5 harg5 x0 x1).1, y ∈ pc.1.set :=
  View.cover_of_tiledL (qkvRun c i arg1 harg1 arg2 harg2 arg3 harg3 arg4 harg4 arg5 harg5 x0 x1).1 S512x1024.size (by sl_kernel_rfl) y
theorem qcover_3 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) (y : S512x1024.Idx) :
    ∃ pc ∈ (qkvRun c i arg1 harg1 arg2 harg2 arg3 harg3 arg4 harg4 arg5 harg5 x0 x1).2.1, y ∈ pc.1.set :=
  View.cover_of_tiledL (qkvRun c i arg1 harg1 arg2 harg2 arg3 harg3 arg4 harg4 arg5 harg5 x0 x1).2.1 S512x1024.size (by sl_kernel_rfl) y
theorem qcover_4 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) (y : S512x1024.Idx) :
    ∃ pc ∈ (qkvRun c i arg1 harg1 arg2 harg2 arg3 harg3 arg4 harg4 arg5 harg5 x0 x1).2.2.1, y ∈ pc.1.set :=
  View.cover_of_tiledL (qkvRun c i arg1 harg1 arg2 harg2 arg3 harg3 arg4 harg4 arg5 harg5 x0 x1).2.2.1 S512x1024.size (by sl_kernel_rfl) y

/-- The query, key and value blocks the body leaves: its pieces read back. -/
def qout_2 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) : Vec F S512x1024 .bf16 :=
  VO0_2.read (Elt F) (VO0_2.writes (Elt F) VO0_2.junk (qkvRun c i arg1 harg1 arg2 harg2 arg3 harg3 arg4 harg4 arg5 harg5 x0 x1).1)
def qout_3 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) : Vec F S512x1024 .bf16 :=
  VO0_3.read (Elt F) (VO0_3.writes (Elt F) VO0_3.junk (qkvRun c i arg1 harg1 arg2 harg2 arg3 harg3 arg4 harg4 arg5 harg5 x0 x1).2.1)
def qout_4 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) : Vec F S512x1024 .bf16 :=
  VO0_4.read (Elt F) (VO0_4.writes (Elt F) VO0_4.junk (qkvRun c i arg1 harg1 arg2 harg2 arg3 harg3 arg4 harg4 arg5 harg5 x0 x1).2.2.1)

section
variable (V : (c : Dev nD) → (b : Ref sig .tc) → Buf (Elt F) ((c : Thread nD τ).loc b))

/-! ## The pipeline's proof data -/

/-- The proof data of the projection pipeline on core `c`: the arrays as the region finds them; after the body at
    point `t` each input's buffer at its block and each output's at what the body stores there; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => qout_2 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t)
    | ⟨3, _⟩ => qout_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t)
    | ⟨4, _⟩ => qout_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = qout_2 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) := by dsimp only [dat0]
theorem after0_3 (c : Dev nD) (t : Fin cfg0.N) : (dat0 V c).after 3 t = qout_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) := by dsimp only [dat0]
theorem after0_4 (c : Dev nD) (t : Fin cfg0.N) : (dat0 V c).after 4 t = qout_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point: the inputs' buffers hold their blocks, so the run applies; each output buffer ends at
    its pieces read back (they cover it); the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  unfold qout_2 qout_3 qout_4
  iintro ⟨HΦ, Ho, ⟨%d0, H0⟩, ⟨%d1, H1⟩, ⟨%d2, H2⟩, ⟨%d3, H3⟩, ⟨%d4, H4⟩⟩
  iapply ((qkvRun c (grid0.coords t) _ _ _ _ _ _ _ _ _ _ (iblk0 V c 0 t) (iblk0 V c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (qcover_2 c _ _ _ _ _ _ _ _ _ _ _ _ _)
  isplitl [H3]
  · unfold owns; iexists _; isplitr
    swap; · iexact H3
    ipureintro; exact View.read_writes_of_cover _ _ _ _ _ (qcover_3 c _ _ _ _ _ _ _ _ _ _ _ _ _)
  unfold owns; iexists _; isplitr
  swap; · iexact H4
  ipureintro; exact View.read_writes_of_cover _ _ _ _ _ (qcover_4 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frm

end
-- ==== Proof.FlashShared.lean ====
/-
  What the three runs of the attention kernel's body share. The grid is (batch, query tile, key tile) = 4 x 8 x 8,
  the key tile innermost: a point's position modulo 8 is its key tile. The body starts the running maximum, the
  running denominator and the running numerator afresh at key tile 0, folds one key tile into them at every point,
  and at key tile 7 divides, projects and stores the output block. So there are three kinds of point: the first key
  tile, a middle one, the last one; the output block is stored, and written back, at the last only.
-/
import proofs.«164876_j87514253623735_2_alg».proof.Proof.Gen.KernelIdeal.Launch
import proofs.«164876_j87514253623735_2_alg».proof.Proof.Gen.KernelIdeal.Skeleton
import proofs.«164876_j87514253623735_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- "This is the first key tile": the condition under which the running quantities are started afresh. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the condition under which the output block is computed and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile nothing is stored into the output block and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile the output block is stored. -/
theorem liveAt1_4 : ∀ t : Fin cfg1.N, cond1_1 (grid1.coords t) → cfg1.idle 4 (grid1.coords t) = false := by decide +kernel

/-! ## The memrefs the body is called with -/

abbrev VO1_4 : View sig .tc .vmem S1x512x1024 .f32 := (Memref.whole cc1_stg4_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The running maximum, the running denominator and the running numerator: whole scoped buffers of the kernel's own. -/
abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
abbrev VS1_0 : View sig .tc .vmem S1x512x1 .f32 := scM1_0.view
abbrev VS1_1 : View sig .tc .vmem S1x512x1 .f32 := scM1_1.view
abbrev VS1_2 : View sig .tc .vmem S1x512x1024 .f32 := scM1_2.view

/-- The other scoped buffers of the core: the first region's staging buffers, which this region never touches. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

end Cert.KernelIdeal.Frm

end
-- ==== Proof.FlashRunA.lean ====
/-
  The attention body at a point of the FIRST key tile: the running maximum, denominator and numerator are started afresh (whatever they held), one key tile is folded in, nothing is stored into the output block, which is handed back as found.
-/
import proofs.«164876_j87514253623735_2_alg».proof.Proof.FlashShared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the three running buffers (last store first) at a first key tile, with the
    proof that the body runs there. -/
noncomputable def flashRunA (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i)
    (x0 x1 x2 : Vec F S1x512x1024 .bf16) (x3 : Vec F S1024x1024 .bf16) :
    Σ' (LS0 : List (View.Piece (Elt F) S1x512x1 .f32)) (LS1 : List (View.Piece (Elt F) S1x512x1 .f32)), { LS2 : List (View.Piece (Elt F) S1x512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_proj_kernel i arg3 harg3 arg4 harg4 arg5 harg5 arg6 harg6 arg7 harg7 arg8 harg8 arg9 harg9 arg10 harg10) K } := by
  refine ⟨?_, ?_, ?_, fun xi4 E K => ?run⟩
  case run =>
    haveI : Fact (cond1_0 i) := ⟨hc0⟩
    haveI : Fact (¬cond1_1 i) := ⟨hc1⟩
    simp only [cc1__flash_proj_kernel_eq_skeleton]; unfold cc1__flash_proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Frm

end
-- ==== Proof.FlashRunB.lean ====
/-
  The attention body at a point of a MIDDLE key tile: one key tile is folded into the running maximum, denominator and numerator the point before left; nothing is stored into the output block, which is handed back as found.
-/
import proofs.«164876_j87514253623735_2_alg».proof.Proof.FlashRunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the three running buffers (last store first) at a middle key tile, with the
    proof that the body runs there. -/
noncomputable def flashRunB (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i)
    (x0 x1 x2 : Vec F S1x512x1024 .bf16) (x3 : Vec F S1024x1024 .bf16) (xs0 xs1 : Vec F S1x512x1 .f32) (xs2 : Vec F S1x512x1024 .f32) :
    Σ' (LS0 : List (View.Piece (Elt F) S1x512x1 .f32)) (LS1 : List (View.Piece (Elt F) S1x512x1 .f32)), { LS2 : List (View.Piece (Elt F) S1x512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_proj_kernel i arg3 harg3 arg4 harg4 arg5 harg5 arg6 harg6 arg7 harg7 arg8 harg8 arg9 harg9 arg10 harg10) K } := by
  refine ⟨?_, ?_, ?_, fun xi4 E K => ?run⟩
  case run =>
    haveI : Fact (¬cond1_0 i) := ⟨hc0⟩
    haveI : Fact (¬cond1_1 i) := ⟨hc1⟩
    simp only [cc1__flash_proj_kernel_eq_skeleton]; unfold cc1__flash_proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Frm

end
-- ==== Proof.FlashRunC.lean ====
/-
  The attention body at a point of the LAST key tile: the last key tile is folded into the running quantities the point before left, then the numerator is divided by the denominator, multiplied by the transposed output weights and stored as the output block.
-/
import proofs.«164876_j87514253623735_2_alg».proof.Proof.FlashRunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the output block and in the three running buffers (last store first) at a
    last key tile, with the proof that the body runs there. -/
noncomputable def flashRunC (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i)
    (x0 x1 x2 : Vec F S1x512x1024 .bf16) (x3 : Vec F S1024x1024 .bf16) (xs0 xs1 : Vec F S1x512x1 .f32) (xs2 : Vec F S1x512x1024 .f32) :
    Σ' (L4 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_proj_kernel i arg3 harg3 arg4 harg4 arg5 harg5 arg6 harg6 arg7 harg7 arg8 harg8 arg9 harg9 arg10 harg10) K } := by
  refine ⟨?_, ?_, ?_, ?_, fun E K => ?run⟩
  case run =>
    haveI : Fact (¬cond1_0 i) := ⟨hc0⟩
    haveI : Fact (cond1_1 i) := ⟨hc1⟩
    simp only [cc1__flash_proj_kernel_eq_skeleton]; unfold cc1__flash_proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Frm

end
-- ==== Proof.FlashFrame.lean ====
/-
  The attention region's half of the frame, at given region-entry contents `V`. What the output block and the three
  running buffers (maximum, denominator, numerator) hold after the body at each grid point is an accumulation along the
  points: at a first key tile the running buffers are started afresh and one tile is folded in; at any later key tile
  one more tile is folded into what the point before left; at the last key tile the output block is also stored. The
  region's invariant carries the running buffers at these contents from each point to the next.
-/
import proofs.«164876_j87514253623735_2_alg».proof.Proof.FlashRunC
import Idealize.ShloMosaic.Lib.Pipeline.RegionsLoop
import Idealize.ShloMosaic.Lib.Pipeline.FrameSuffix

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each kind of point leaves -/

/-- Where nothing is stored into the output block its "contents after the body" are a placeholder nothing consults:
    the block is neither written back there nor read at the next point. -/
def outIdle_4 : Vec F S1x512x1024 .f32 :=
  VO1_4.read (Elt F) (VO1_4.writes (Elt F) VO1_4.junk [])

theorem scoverA_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) (y : S1x512x1.Idx) :
    ∃ pc ∈ (flashRunA c i arg3 harg3 arg4 harg4 arg5 harg5 arg6 harg6 arg7 harg7 arg8 harg8 arg9 harg9 arg10 harg10 hc0 hc1 x0 x1 x2 x3).1, y ∈ pc.1.set :=
  View.cover_of_tiledL (flashRunA c i arg3 harg3 arg4 harg4 arg5 harg5 arg6 harg6 arg7 harg7 arg8 harg8 arg9 harg9 arg10 harg10 hc0 hc1 x0 x1 x2 x3).1 S1x512x1.size (by sl_kernel_rfl) y
def soutA_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) : Vec F S1x512x1 .f32 :=
  VS1_0.read (Elt F) (VS1_0.writes (Elt F) VS1_0.junk (flashRunA c i arg3 harg3 arg4 harg4 arg5 harg5 arg6 harg6 arg7 harg7 arg8 harg8 arg9 harg9 arg10 harg10 hc0 hc1 x0 x1 x2 x3).1)
theorem scoverA_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) (y : S1x512x1.Idx) :
    ∃ pc ∈ (flashRunA c i arg3 harg3 arg4 harg4 arg5 harg5 arg6 harg6 arg7 harg7 arg8 harg8 arg9 harg9 arg10 harg10 hc0 hc1 x0 x1 x2 x3).2.1, y ∈ pc.1.set :=
  View.cover_of_tiledL (flashRunA c i arg3 harg3 arg4 harg4 arg5 harg5 arg6 harg6 arg7 harg7 arg8 harg8 arg9 harg9 arg10 harg10 hc0 hc1 x0 x1 x2 x3).2.1 S1x512x1.size (by sl_kernel_rfl) y
def soutA_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) : Vec F S1x512x1 .f32 :=
  VS1_1.read (Elt F) (VS1_1.writes (Elt F) VS1_1.junk (flashRunA c i arg3 harg3 arg4 harg4 arg5 harg5 arg6 harg6 arg7 harg7 arg8 harg8 arg9 harg9 arg10 harg10 hc0 hc1 x0 x1 x2 x3).2.1)
theorem scoverA_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) (y : S1x512x1024.Idx) :
    ∃ pc ∈ (flashRunA c i arg3 harg3 arg4 harg4 arg5 harg5 arg6 harg6 arg7 harg7 arg8 harg8 arg9 harg9 arg10 harg10 hc0 hc1 x0 x1 x2 x3).2.2.1, y ∈ pc.1.set :=
  View.cover_of_tiledL (flashRunA c i arg3 harg3 arg4 harg4 arg5 harg5 arg6 harg6 arg7 harg7 arg8 harg8 arg9 harg9 arg10 harg10 hc0 hc1 x0 x1 x2 x3).2.2.1 S1x512x1024.size (by sl_kernel_rfl) y
def soutA_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) : Vec F S1x512x1024 .f32 :=
  VS1_2.read (Elt F) (VS1_2.writes (Elt F) VS1_2.junk (flashRunA c i arg3 harg3 arg4 harg4 arg5 harg5 arg6 harg6 arg7 harg7 arg8 harg8 arg9 harg9 arg10 harg10 hc0 hc1 x0 x1 x2 x3).2.2.1)

theorem scoverB_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunB c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (flashRunB c i arg3 harg3 arg4 harg4 arg5 harg5 arg6 harg6 arg7 harg7 arg8 harg8 arg9 harg9 arg10 harg10 hc0 hc1 x0 x1 x2 x3 xs0 xs1 xs2).1 S1x512x1.size (by sl_kernel_rfl) y
def soutB_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_0.read (Elt F) (VS1_0.writes (Elt F) VS1_0.junk (flashRunB c i arg3 harg3 arg4 harg4 arg5 harg5 arg6 harg6 arg7 harg7 arg8 harg8 arg9 harg9 arg10 harg10 hc0 hc1 x0 x1 x2 x3 xs0 xs1 xs2).1)
theorem scoverB_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunB c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRunB c i arg3 harg3 arg4 harg4 arg5 harg5 arg6 harg6 arg7 harg7 arg8 harg8 arg9 harg9 arg10 harg10 hc0 hc1 x0 x1 x2 x3 xs0 xs1 xs2).2.1 S1x512x1.size (by sl_kernel_rfl) y
def soutB_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_1.read (Elt F) (VS1_1.writes (Elt F) VS1_1.junk (flashRunB c i arg3 harg3 arg4 harg4 arg5 harg5 arg6 harg6 arg7 harg7 arg8 harg8 arg9 harg9 arg10 harg10 hc0 hc1 x0 x1 x2 x3 xs0 xs1 xs2).2.1)
theorem scoverB_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) (y : S1x512x1024.Idx) :
    ∃ pc ∈ (flashRunB c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRunB c i arg3 harg3 arg4 harg4 arg5 harg5 arg6 harg6 arg7 harg7 arg8 harg8 arg9 harg9 arg10 harg10 hc0 hc1 x0 x1 x2 x3 xs0 xs1 xs2).2.2.1 S1x512x1024.size (by sl_kernel_rfl) y
def soutB_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) : Vec F S1x512x1024 .f32 :=
  VS1_2.read (Elt F) (VS1_2.writes (Elt F) VS1_2.junk (flashRunB c i arg3 harg3 arg4 harg4 arg5 harg5 arg6 harg6 arg7 harg7 arg8 harg8 arg9 harg9 arg10 harg10 hc0 hc1 x0 x1 x2 x3 xs0 xs1 xs2).2.2.1)

theorem coverC_4 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1024.Idx) :
    ∃ pc ∈ (flashRunC c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).1 S1x512x1024.size (by sl_kernel_rfl) y
def outC_4 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1024 .f32 :=
  VO1_4.read (Elt F) (VO1_4.writes (Elt F) VO1_4.junk (flashRunC c i arg3 harg3 arg4 harg4 arg5 harg5 arg6 harg6 arg7 harg7 arg8 harg8 arg9 harg9 arg10 harg10 hc0 hc1 x0 x1 x2 x3 xs0 xs1 xs2).1)
theorem scoverC_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunC c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).2.1 S1x512x1.size (by sl_kernel_rfl) y
def soutC_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_0.read (Elt F) (VS1_0.writes (Elt F) VS1_0.junk (flashRunC c i arg3 harg3 arg4 harg4 arg5 harg5 arg6 harg6 arg7 harg7 arg8 harg8 arg9 harg9 arg10 harg10 hc0 hc1 x0 x1 x2 x3 xs0 xs1 xs2).2.1)
theorem scoverC_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunC c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).2.2.1 S1x512x1.size (by sl_kernel_rfl) y
def soutC_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_1.read (Elt F) (VS1_1.writes (Elt F) VS1_1.junk (flashRunC c i arg3 harg3 arg4 harg4 arg5 harg5 arg6 harg6 arg7 harg7 arg8 harg8 arg9 harg9 arg10 harg10 hc0 hc1 x0 x1 x2 x3 xs0 xs1 xs2).2.2.1)
theorem scoverC_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1024.Idx) :
    ∃ pc ∈ (flashRunC c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).2.2.2.1 S1x512x1024.size (by sl_kernel_rfl) y
def soutC_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1024 .f32 :=
  VS1_2.read (Elt F) (VS1_2.writes (Elt F) VS1_2.junk (flashRunC c i arg3 harg3 arg4 harg4 arg5 harg5 arg6 harg6 arg7 harg7 arg8 harg8 arg9 harg9 arg10 harg10 hc0 hc1 x0 x1 x2 x3 xs0 xs1 xs2).2.2.2.1)

/-! ## The scoped buffers of the core that are no staging buffer of this region -/

/-- The first region's nine staging buffers at anything, and the three running buffers each under a given assertion. -/
def scopedWith (c : Dev nD) (X0 X1 X2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ X0 ∗ X1 ∗ X2)

theorem scopedWith_open (c : Dev nD) (X0 X1 X2 : sProp 𝕄) :
    scopedWith (F := F) c X0 X1 X2 ⊢ iprop(otherScoped (F := F) c ∗ X0 ∗ X1 ∗ X2) := by
  unfold scopedWith otherScoped
  iintro ⟨H1, H2, H3, H4, H5, H6, H7, H8, H9, HX0, HX1, HX2⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HX0]; · iexact HX0
  isplitl [HX1]; · iexact HX1
  iexact HX2

theorem scopedWith_close (c : Dev nD) (X0 X1 X2 : sProp 𝕄) :
    iprop(otherScoped (F := F) c ∗ X0 ∗ X1 ∗ X2) ⊢ scopedWith (F := F) c X0 X1 X2 := by
  unfold scopedWith otherScoped
  iintro ⟨⟨H1, H2, H3, H4, H5, H6, H7, H8, H9⟩, HX0, HX1, HX2⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX0]; · iexact HX0
  isplitl [HX1]; · iexact HX1
  iexact HX2

/-- The plain invariant of the class, with the running buffers named: each at some contents. -/
theorem PhiA1_eq (c : Dev nD) :
    (Pipeline.ΦA spec1 c : sProp 𝕄)
      = iprop(scopedWith (F := F) c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA scopedWith; rw [scopedRest1_eq]; simp only [scM1_0, scM1_1, scM1_2, owns_whole]; try rfl

section
variable (V : (c : Dev nD) → (b : Ref sig .tc) → Buf (Elt F) ((c : Thread nD τ).loc b))

/-! ## What the buffers hold after each point -/

/-- A first key tile: nothing into the output block; the running buffers from scratch. -/
def stepA (c : Dev nD) (t : Fin cfg1.N) (h0 : t.val % 8 = 0) (h1 : ¬t.val % 8 = 7) : Vec F S1x512x1024 .f32 × Vec F S1x512x1 .f32 × Vec F S1x512x1 .f32 × Vec F S1x512x1024 .f32 :=
  (outIdle_4,
   soutA_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   soutA_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   soutA_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
/-- A middle key tile: nothing into the output block; the running buffers over what the point before left. -/
def stepB (c : Dev nD) (t : Fin cfg1.N) (h0 : ¬t.val % 8 = 0) (h1 : ¬t.val % 8 = 7) (p : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outIdle_4,
   soutB_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2,
   soutB_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2,
   soutB_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2)
/-- The last key tile: the output block stored; the running buffers over what the point before left. -/
def stepC (c : Dev nD) (t : Fin cfg1.N) (h0 : ¬t.val % 8 = 0) (h1 : t.val % 8 = 7) (p : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outC_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2)

/-- THE ACCUMULATION: the output block and the three running buffers after the body at position `n`. -/
def outsAt1 (c : Dev nD) : (n : ℕ) → n < cfg1.N → Vec F S1x512x1024 .f32 × Vec F S1x512x1 .f32 × Vec F S1x512x1 .f32 × Vec F S1x512x1024 .f32
  | 0, hn => stepA V c ⟨0, hn⟩ (Nat.zero_mod _) (by show ¬(0 % 8 = 7); decide)
  | n + 1, hn =>
    if h0 : (n + 1) % 8 = 0 then
      if h1 : (n + 1) % 8 = 7 then False.elim (by omega)
      else stepA V c ⟨n + 1, hn⟩ h0 h1
    else
      if h1 : (n + 1) % 8 = 7 then stepC V c ⟨n + 1, hn⟩ h0 h1 (outsAt1 c n (Nat.lt_of_succ_lt hn))
      else stepB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stepA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- Before position `n`: at the region's entry the plain invariant (the running buffers at anything); afterwards
    the running buffers at what the point before left, the other scoped buffers and the generator register along. -/
def PhiS (c : Dev nD) : (n : ℕ) → n ≤ cfg1.N → sProp 𝕄
  | 0, _ => Pipeline.ΦA spec1 c
  | n + 1, hn => iprop(scopedWith (F := F) c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith (F := F) c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(scopedWith (F := F) c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.KernelIdeal.Frm

end
-- ==== Proof.FlashBody.lean ====
/-
  The attention body meets the pipeline's obligation at every grid point. A point is a first, a middle or the last key
  tile; in each case the matching run applies: the invariant hands over the three running buffers (at anything at the
  region's first point, else at what the point before left) and takes them back at this point's contents; the output
  block is handed back untouched except at a last key tile, where it ends at the stored block.
-/
import proofs.«164876_j87514253623735_2_alg».proof.Proof.FlashFrame

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 8 = 0
  · by_cases h1 : t.val % 8 = 7
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold stepA soutA_0 soutA_1 soutA_2; (try dsimp only)
      by_cases hz : t.val = 0
      · skip
        rw [PhiS_castSucc V c t, PhiS_zero V c _ _ hz, PhiA1_eq]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverA_0 c _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · skip
        rw [PhiS_castSucc V c t, PhiS_pos V c _ _ hz]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverA_0 c _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold stepC outC_4 soutC_0 soutC_1 soutC_2; (try dsimp only)
      · skip
        rw [PhiS_castSucc V c t, PhiS_pos V c _ _ hz]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunC c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverC_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverC_1 c _ _ _ _ _ _ _ _ _ _ _ _ _ _ _ _ _ _ _ _ _ _ _ _ _ _)
            unfold owns; iexists _; isplitr
            swap; · iexact HS2
            ipureintro; exact View.read_writes_of_cover _ _ _ _ _ (scoverC_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold stepB soutB_0 soutB_1 soutB_2; (try dsimp only)
      · skip
        rw [PhiS_castSucc V c t, PhiS_pos V c _ _ hz]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunB c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverB_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverB_1 c _ _ _ _ _ _ _ _ _ _ _ _ _ _ _ _ _ _ _ _ _ _ _ _ _ _)
            unfold owns; iexists _; isplitr
            swap; · iexact HS2
            ipureintro; exact View.read_writes_of_cover _ _ _ _ _ (scoverB_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the running buffers' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HSW, Hg⟩
  isplitl [HSW]
  · ihave HSW' := (scopedWith_open c _ _ _) $$ HSW
    icases HSW' with ⟨Hoth, HS0, HS1, HS2⟩
    iapply (scopedWith_close c _ _ _)
    isplitl [Hoth]; · iexact Hoth
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end

end Cert.KernelIdeal.Frm

end
-- ==== Proof.FrameRun.lean ====
/-
  The kernel program's run, whole. The program is: three host operations (the two weight matrices brought to the
  matrix unit's input format, the input flattened to 16384 rows), the projection region, three host reshapes of its
  outputs back to (batch, position, feature), and the attention region. The buffers' contents at each of the five
  boundaries are named; each region is entered from every unscoped buffer at its boundary's contents and left at the
  next one's, its arrays at what its write-backs leave. The run ends with the result array and the three arguments
  read off the last boundary; the arguments are never written, so they read back as launched.
-/
import proofs.«164876_j87514253623735_2_alg».proof.Proof.QkvFrame
import proofs.«164876_j87514253623735_2_alg».proof.Proof.FlashBody

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first three host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one and no region stages one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The result array ends at what the attention pipeline's write-backs leave in it. -/
theorem W4_main_v7 (c : Dev nD) : W4 m ρ c (Proc.devRef .tc main_v7) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. Its invariant starts as the
    plain one and ends as the plain one again, the running buffers' last contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has the result array at what the attention pipeline's write-backs leave and the
    three argument arrays as launched. -/
theorem run_main : θ_run defs (onTc (τ := τ) (main (F := F))) ⟨m, fun _ => 0, ρ⟩ (fun r => ∀ c : Dev nD,
      r.2.mem ((c.tc : Thread nD τ).loc main_v7) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- THE FRAME: the run with the result array dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Frm

end
-- ==== Proof.QkvRunK.lean ====
/-
  The projection kernel's body as one run. On whole staging buffers — the row block of the flattened input and the
  stacked weight matrix at given contents, the three outputs at anything — the body runs to the end and leaves each
  output buffer overwritten by one whole-block store: the row block times the transpose of one third of the weight
  rows (the query, key and value weights in that order). The statement exhibits what the three stores hold, as lists of written pieces.
-/
import proofs.«164876_j87514253623735_2_alg».proof.Proof.Gen.Kernel.Launch
import proofs.«164876_j87514253623735_2_alg».proof.Proof.Gen.Kernel.Skeleton
import proofs.«164876_j87514253623735_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the query, key and value blocks (last store first), with the proof that
    the body runs: the input block and the weights are read and handed back unchanged, each output buffer ends as
    its old contents overwritten by its pieces. -/
noncomputable def qkvRun (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole)
    (x0 : Vec F S512x1024 .f32) (x1 : Vec F S3072x1024 .bf16) :
    Σ' (L2 : List (View.Piece (Elt F) S512x1024 .bf16)) (L3 : List (View.Piece (Elt F) S512x1024 .bf16)), { L4 : List (View.Piece (Elt F) S512x1024 .bf16) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__qkv_kernel i arg1 harg1 arg2 harg2 arg3 harg3 arg4 harg4 arg5 harg5) K } := by
  refine ⟨?_, ?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

end Cert.Kernel.Frm

end
-- ==== Proof.QkvFrameK.lean ====
/-
  The projection region's half of the frame, at given region-entry contents `V`: what each of its three output
  blocks holds after the body at a grid point (the point's 512 rows of the flattened input times the transposed
  query, key or value weights), the proof data of its pipeline, and the body obligation at every point. The region's
  invariant is the plain one: the scoped buffers no window stages and the generator register ride along untouched.
-/
import proofs.«164876_j87514253623735_2_alg».proof.Proof.QkvRunK
import Idealize.ShloMosaic.Lib.Pipeline.RegionsLoop
import Idealize.ShloMosaic.Lib.Pipeline.FrameSuffix

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The memrefs the body is called with -/

abbrev VO0_2 : View sig .tc .vmem S512x1024 .bf16 := (Memref.whole cc0_stg2_0 : Memref sig .tc .vmem S512x1024 .bf16).view
abbrev VO0_3 : View sig .tc .vmem S512x1024 .bf16 := (Memref.whole cc0_stg3_0 : Memref sig .tc .vmem S512x1024 .bf16).view
abbrev VO0_4 : View sig .tc .vmem S512x1024 .bf16 := (Memref.whole cc0_stg4_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)

/-! ## What the body leaves in each output block -/

/-- Each output's one whole-block store covers the block. -/
theorem qcover_2 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) (y : S512x1024.Idx) :
    ∃ pc ∈ (qkvRun c i arg1 harg1 arg2 harg2 arg3 harg3 arg4 harg4 arg5 harg5 x0 x1).1, y ∈ pc.1.set :=
  View.cover_of_tiledL (qkvRun c i arg1 harg1 arg2 harg2 arg3 harg3 arg4 harg4 arg5 harg5 x0 x1).1 S512x1024.size (by sl_kernel_rfl) y
theorem qcover_3 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) (y : S512x1024.Idx) :
    ∃ pc ∈ (qkvRun c i arg1 harg1 arg2 harg2 arg3 harg3 arg4 harg4 arg5 harg5 x0 x1).2.1, y ∈ pc.1.set :=
  View.cover_of_tiledL (qkvRun c i arg1 harg1 arg2 harg2 arg3 harg3 arg4 harg4 arg5 harg5 x0 x1).2.1 S512x1024.size (by sl_kernel_rfl) y
theorem qcover_4 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) (y : S512x1024.Idx) :
    ∃ pc ∈ (qkvRun c i arg1 harg1 arg2 harg2 arg3 harg3 arg4 harg4 arg5 harg5 x0 x1).2.2.1, y ∈ pc.1.set :=
  View.cover_of_tiledL (qkvRun c i arg1 harg1 arg2 harg2 arg3 harg3 arg4 harg4 arg5 harg5 x0 x1).2.2.1 S512x1024.size (by sl_kernel_rfl) y

/-- The query, key and value blocks the body leaves: its pieces read back. -/
def qout_2 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) : Vec F S512x1024 .bf16 :=
  VO0_2.read (Elt F) (VO0_2.writes (Elt F) VO0_2.junk (qkvRun c i arg1 harg1 arg2 harg2 arg3 harg3 arg4 harg4 arg5 harg5 x0 x1).1)
def qout_3 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) : Vec F S512x1024 .bf16 :=
  VO0_3.read (Elt F) (VO0_3.writes (Elt F) VO0_3.junk (qkvRun c i arg1 harg1 arg2 harg2 arg3 harg3 arg4 harg4 arg5 harg5 x0 x1).2.1)
def qout_4 (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) : Vec F S512x1024 .bf16 :=
  VO0_4.read (Elt F) (VO0_4.writes (Elt F) VO0_4.junk (qkvRun c i arg1 harg1 arg2 harg2 arg3 harg3 arg4 harg4 arg5 harg5 x0 x1).2.2.1)

section
variable (V : (c : Dev nD) → (b : Ref sig .tc) → Buf (Elt F) ((c : Thread nD τ).loc b))

/-! ## The pipeline's proof data -/

/-- The proof data of the projection pipeline on core `c`: the arrays as the region finds them; after the body at
    point `t` each input's buffer at its block and each output's at what the body stores there; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => qout_2 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t)
    | ⟨3, _⟩ => qout_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t)
    | ⟨4, _⟩ => qout_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = qout_2 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) := by dsimp only [dat0]
theorem after0_3 (c : Dev nD) (t : Fin cfg0.N) : (dat0 V c).after 3 t = qout_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) := by dsimp only [dat0]
theorem after0_4 (c : Dev nD) (t : Fin cfg0.N) : (dat0 V c).after 4 t = qout_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 4000000 in
/-- The body at any point: the inputs' buffers hold their blocks, so the run applies; each output buffer ends at
    its pieces read back (they cover it); the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  unfold qout_2 qout_3 qout_4
  iintro ⟨HΦ, Ho, ⟨%d0, H0⟩, ⟨%d1, H1⟩, ⟨%d2, H2⟩, ⟨%d3, H3⟩, ⟨%d4, H4⟩⟩
  iapply ((qkvRun c (grid0.coords t) _ _ _ _ _ _ _ _ _ _ (iblk0 V c 0 t) (iblk0 V c 1 t)).2.2.2 Set.univ _)
  isplitl [H0]; · iexact H0
  isplitl [H1]; · iexact H1
  isplitl [H2]; · iexists _; iexact H2
  isplitl [H3]; · iexists _; iexact H3
  isplitl [H4]; · iexists _; iexact H4
  iintro ⟨H0, H1, ⟨%e2, H2⟩, ⟨%e3, H3⟩, ⟨%e4, H4⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (qcover_2 c _ _ _ _ _ _ _ _ _ _ _ _ _)
  isplitl [H3]
  · unfold owns; iexists _; isplitr
    swap; · iexact H3
    ipureintro; exact View.read_writes_of_cover _ _ _ _ _ (qcover_3 c _ _ _ _ _ _ _ _ _ _ _ _ _)
  unfold owns; iexists _; isplitr
  swap; · iexact H4
  ipureintro; exact View.read_writes_of_cover _ _ _ _ _ (qcover_4 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frm

end
-- ==== Proof.FlashSharedK.lean ====
/-
  What the three runs of the attention kernel's body share. The grid is (batch, query tile, key tile) = 4 x 8 x 8,
  the key tile innermost: a point's position modulo 8 is its key tile. The body starts the running maximum, the
  running denominator and the running numerator afresh at key tile 0, folds one key tile into them at every point,
  and at key tile 7 divides, projects and stores the output block. So there are three kinds of point: the first key
  tile, a middle one, the last one; the output block is stored, and written back, at the last only.
-/
import proofs.«164876_j87514253623735_2_alg».proof.Proof.Gen.Kernel.Launch
import proofs.«164876_j87514253623735_2_alg».proof.Proof.Gen.Kernel.Skeleton
import proofs.«164876_j87514253623735_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions -/

/-- "This is the first key tile": the condition under which the running quantities are started afresh. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile": the condition under which the output block is computed and stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last key tile nothing is stored into the output block and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile the output block is stored. -/
theorem liveAt1_4 : ∀ t : Fin cfg1.N, cond1_1 (grid1.coords t) → cfg1.idle 4 (grid1.coords t) = false := by decide +kernel

/-! ## The memrefs the body is called with -/

abbrev VO1_4 : View sig .tc .vmem S1x512x1024 .f32 := (Memref.whole cc1_stg4_0 : Memref sig .tc .vmem S1x512x1024 .f32).view
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The running maximum, the running denominator and the running numerator: whole scoped buffers of the kernel's own. -/
abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
abbrev VS1_0 : View sig .tc .vmem S1x512x1 .f32 := scM1_0.view
abbrev VS1_1 : View sig .tc .vmem S1x512x1 .f32 := scM1_1.view
abbrev VS1_2 : View sig .tc .vmem S1x512x1024 .f32 := scM1_2.view

/-- The other scoped buffers of the core: the first region's staging buffers, which this region never touches. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

end Cert.Kernel.Frm

end
-- ==== Proof.FlashRunAK.lean ====
/-
  The attention body at a point of the FIRST key tile: the running maximum, denominator and numerator are started afresh (whatever they held), one key tile is folded in, nothing is stored into the output block, which is handed back as found.
-/
import proofs.«164876_j87514253623735_2_alg».proof.Proof.FlashSharedK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the three running buffers (last store first) at a first key tile, with the
    proof that the body runs there. -/
noncomputable def flashRunA (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i)
    (x0 x1 x2 : Vec F S1x512x1024 .bf16) (x3 : Vec F S1024x1024 .bf16) :
    Σ' (LS0 : List (View.Piece (Elt F) S1x512x1 .f32)) (LS1 : List (View.Piece (Elt F) S1x512x1 .f32)), { LS2 : List (View.Piece (Elt F) S1x512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_proj_kernel i arg3 harg3 arg4 harg4 arg5 harg5 arg6 harg6 arg7 harg7 arg8 harg8 arg9 harg9 arg10 harg10) K } := by
  refine ⟨?_, ?_, ?_, fun xi4 E K => ?run⟩
  case run =>
    haveI : Fact (cond1_0 i) := ⟨hc0⟩
    haveI : Fact (¬cond1_1 i) := ⟨hc1⟩
    simp only [cc1__flash_proj_kernel_eq_skeleton]; unfold cc1__flash_proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Frm

end
-- ==== Proof.FlashRunBK.lean ====
/-
  The attention body at a point of a MIDDLE key tile: one key tile is folded into the running maximum, denominator and numerator the point before left; nothing is stored into the output block, which is handed back as found.
-/
import proofs.«164876_j87514253623735_2_alg».proof.Proof.FlashRunAK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the three running buffers (last store first) at a middle key tile, with the
    proof that the body runs there. -/
noncomputable def flashRunB (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i)
    (x0 x1 x2 : Vec F S1x512x1024 .bf16) (x3 : Vec F S1024x1024 .bf16) (xs0 xs1 : Vec F S1x512x1 .f32) (xs2 : Vec F S1x512x1024 .f32) :
    Σ' (LS0 : List (View.Piece (Elt F) S1x512x1 .f32)) (LS1 : List (View.Piece (Elt F) S1x512x1 .f32)), { LS2 : List (View.Piece (Elt F) S1x512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_proj_kernel i arg3 harg3 arg4 harg4 arg5 harg5 arg6 harg6 arg7 harg7 arg8 harg8 arg9 harg9 arg10 harg10) K } := by
  refine ⟨?_, ?_, ?_, fun xi4 E K => ?run⟩
  case run =>
    haveI : Fact (¬cond1_0 i) := ⟨hc0⟩
    haveI : Fact (¬cond1_1 i) := ⟨hc1⟩
    simp only [cc1__flash_proj_kernel_eq_skeleton]; unfold cc1__flash_proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Frm

end
-- ==== Proof.FlashRunCK.lean ====
/-
  The attention body at a point of the LAST key tile: the last key tile is folded into the running quantities the point before left, then the numerator is divided by the denominator, multiplied by the transposed output weights and stored as the output block.
-/
import proofs.«164876_j87514253623735_2_alg».proof.Proof.FlashRunBK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the output block and in the three running buffers (last store first) at a
    last key tile, with the proof that the body runs there. -/
noncomputable def flashRunC (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i)
    (x0 x1 x2 : Vec F S1x512x1024 .bf16) (x3 : Vec F S1024x1024 .bf16) (xs0 xs1 : Vec F S1x512x1 .f32) (xs2 : Vec F S1x512x1024 .f32) :
    Σ' (L4 : List (View.Piece (Elt F) S1x512x1024 .f32)) (LS0 : List (View.Piece (Elt F) S1x512x1 .f32)) (LS1 : List (View.Piece (Elt F) S1x512x1 .f32)), { LS2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_proj_kernel i arg3 harg3 arg4 harg4 arg5 harg5 arg6 harg6 arg7 harg7 arg8 harg8 arg9 harg9 arg10 harg10) K } := by
  refine ⟨?_, ?_, ?_, ?_, fun E K => ?run⟩
  case run =>
    haveI : Fact (¬cond1_0 i) := ⟨hc0⟩
    haveI : Fact (cond1_1 i) := ⟨hc1⟩
    simp only [cc1__flash_proj_kernel_eq_skeleton]; unfold cc1__flash_proj_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Frm

end
-- ==== Proof.FlashFrameK.lean ====
/-
  The attention region's half of the frame, at given region-entry contents `V`. What the output block and the three
  running buffers (maximum, denominator, numerator) hold after the body at each grid point is an accumulation along the
  points: at a first key tile the running buffers are started afresh and one tile is folded in; at any later key tile
  one more tile is folded into what the point before left; at the last key tile the output block is also stored. The
  region's invariant carries the running buffers at these contents from each point to the next.
-/
import proofs.«164876_j87514253623735_2_alg».proof.Proof.FlashRunCK
import Idealize.ShloMosaic.Lib.Pipeline.RegionsLoop
import Idealize.ShloMosaic.Lib.Pipeline.FrameSuffix

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each kind of point leaves -/

/-- Where nothing is stored into the output block its "contents after the body" are a placeholder nothing consults:
    the block is neither written back there nor read at the next point. -/
def outIdle_4 : Vec F S1x512x1024 .f32 :=
  VO1_4.read (Elt F) (VO1_4.writes (Elt F) VO1_4.junk [])

theorem scoverA_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) (y : S1x512x1.Idx) :
    ∃ pc ∈ (flashRunA c i arg3 harg3 arg4 harg4 arg5 harg5 arg6 harg6 arg7 harg7 arg8 harg8 arg9 harg9 arg10 harg10 hc0 hc1 x0 x1 x2 x3).1, y ∈ pc.1.set :=
  View.cover_of_tiledL (flashRunA c i arg3 harg3 arg4 harg4 arg5 harg5 arg6 harg6 arg7 harg7 arg8 harg8 arg9 harg9 arg10 harg10 hc0 hc1 x0 x1 x2 x3).1 S1x512x1.size (by sl_kernel_rfl) y
def soutA_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) : Vec F S1x512x1 .f32 :=
  VS1_0.read (Elt F) (VS1_0.writes (Elt F) VS1_0.junk (flashRunA c i arg3 harg3 arg4 harg4 arg5 harg5 arg6 harg6 arg7 harg7 arg8 harg8 arg9 harg9 arg10 harg10 hc0 hc1 x0 x1 x2 x3).1)
theorem scoverA_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) (y : S1x512x1.Idx) :
    ∃ pc ∈ (flashRunA c i arg3 harg3 arg4 harg4 arg5 harg5 arg6 harg6 arg7 harg7 arg8 harg8 arg9 harg9 arg10 harg10 hc0 hc1 x0 x1 x2 x3).2.1, y ∈ pc.1.set :=
  View.cover_of_tiledL (flashRunA c i arg3 harg3 arg4 harg4 arg5 harg5 arg6 harg6 arg7 harg7 arg8 harg8 arg9 harg9 arg10 harg10 hc0 hc1 x0 x1 x2 x3).2.1 S1x512x1.size (by sl_kernel_rfl) y
def soutA_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) : Vec F S1x512x1 .f32 :=
  VS1_1.read (Elt F) (VS1_1.writes (Elt F) VS1_1.junk (flashRunA c i arg3 harg3 arg4 harg4 arg5 harg5 arg6 harg6 arg7 harg7 arg8 harg8 arg9 harg9 arg10 harg10 hc0 hc1 x0 x1 x2 x3).2.1)
theorem scoverA_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) (y : S1x512x1024.Idx) :
    ∃ pc ∈ (flashRunA c i arg3 harg3 arg4 harg4 arg5 harg5 arg6 harg6 arg7 harg7 arg8 harg8 arg9 harg9 arg10 harg10 hc0 hc1 x0 x1 x2 x3).2.2.1, y ∈ pc.1.set :=
  View.cover_of_tiledL (flashRunA c i arg3 harg3 arg4 harg4 arg5 harg5 arg6 harg6 arg7 harg7 arg8 harg8 arg9 harg9 arg10 harg10 hc0 hc1 x0 x1 x2 x3).2.2.1 S1x512x1024.size (by sl_kernel_rfl) y
def soutA_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) : Vec F S1x512x1024 .f32 :=
  VS1_2.read (Elt F) (VS1_2.writes (Elt F) VS1_2.junk (flashRunA c i arg3 harg3 arg4 harg4 arg5 harg5 arg6 harg6 arg7 harg7 arg8 harg8 arg9 harg9 arg10 harg10 hc0 hc1 x0 x1 x2 x3).2.2.1)

theorem scoverB_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunB c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (flashRunB c i arg3 harg3 arg4 harg4 arg5 harg5 arg6 harg6 arg7 harg7 arg8 harg8 arg9 harg9 arg10 harg10 hc0 hc1 x0 x1 x2 x3 xs0 xs1 xs2).1 S1x512x1.size (by sl_kernel_rfl) y
def soutB_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_0.read (Elt F) (VS1_0.writes (Elt F) VS1_0.junk (flashRunB c i arg3 harg3 arg4 harg4 arg5 harg5 arg6 harg6 arg7 harg7 arg8 harg8 arg9 harg9 arg10 harg10 hc0 hc1 x0 x1 x2 x3 xs0 xs1 xs2).1)
theorem scoverB_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunB c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRunB c i arg3 harg3 arg4 harg4 arg5 harg5 arg6 harg6 arg7 harg7 arg8 harg8 arg9 harg9 arg10 harg10 hc0 hc1 x0 x1 x2 x3 xs0 xs1 xs2).2.1 S1x512x1.size (by sl_kernel_rfl) y
def soutB_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_1.read (Elt F) (VS1_1.writes (Elt F) VS1_1.junk (flashRunB c i arg3 harg3 arg4 harg4 arg5 harg5 arg6 harg6 arg7 harg7 arg8 harg8 arg9 harg9 arg10 harg10 hc0 hc1 x0 x1 x2 x3 xs0 xs1 xs2).2.1)
theorem scoverB_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) (y : S1x512x1024.Idx) :
    ∃ pc ∈ (flashRunB c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRunB c i arg3 harg3 arg4 harg4 arg5 harg5 arg6 harg6 arg7 harg7 arg8 harg8 arg9 harg9 arg10 harg10 hc0 hc1 x0 x1 x2 x3 xs0 xs1 xs2).2.2.1 S1x512x1024.size (by sl_kernel_rfl) y
def soutB_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) : Vec F S1x512x1024 .f32 :=
  VS1_2.read (Elt F) (VS1_2.writes (Elt F) VS1_2.junk (flashRunB c i arg3 harg3 arg4 harg4 arg5 harg5 arg6 harg6 arg7 harg7 arg8 harg8 arg9 harg9 arg10 harg10 hc0 hc1 x0 x1 x2 x3 xs0 xs1 xs2).2.2.1)

theorem coverC_4 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1024.Idx) :
    ∃ pc ∈ (flashRunC c i arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).1 S1x512x1024.size (by sl_kernel_rfl) y
def outC_4 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1024 .f32 :=
  VO1_4.read (Elt F) (VO1_4.writes (Elt F) VO1_4.junk (flashRunC c i arg3 harg3 arg4 harg4 arg5 harg5 arg6 harg6 arg7 harg7 arg8 harg8 arg9 harg9 arg10 harg10 hc0 hc1 x0 x1 x2 x3 xs0 xs1 xs2).1)
theorem scoverC_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunC c i arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).2.1 S1x512x1.size (by sl_kernel_rfl) y
def soutC_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_0.read (Elt F) (VS1_0.writes (Elt F) VS1_0.junk (flashRunC c i arg3 harg3 arg4 harg4 arg5 harg5 arg6 harg6 arg7 harg7 arg8 harg8 arg9 harg9 arg10 harg10 hc0 hc1 x0 x1 x2 x3 xs0 xs1 xs2).2.1)
theorem scoverC_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1.Idx) :
    ∃ pc ∈ (flashRunC c i arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).2.2.1 S1x512x1.size (by sl_kernel_rfl) y
def soutC_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1 .f32 :=
  VS1_1.read (Elt F) (VS1_1.writes (Elt F) VS1_1.junk (flashRunC c i arg3 harg3 arg4 harg4 arg5 harg5 arg6 harg6 arg7 harg7 arg8 harg8 arg9 harg9 arg10 harg10 hc0 hc1 x0 x1 x2 x3 xs0 xs1 xs2).2.2.1)
theorem scoverC_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) (y : S1x512x1024.Idx) :
    ∃ pc ∈ (flashRunC c i arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (flashRunC c i arg3 harg3 arg4 harg4 arg5 harg5 arg6 harg6 arg7 harg7 arg8 harg8 arg9 harg9 arg10 harg10 hc0 hc1 x0 x1 x2 x3 xs0 xs1 xs2).2.2.2.1 S1x512x1024.size (by sl_kernel_rfl) y
def soutC_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) : Vec F S1x512x1024 .f32 :=
  VS1_2.read (Elt F) (VS1_2.writes (Elt F) VS1_2.junk (flashRunC c i arg3 harg3 arg4 harg4 arg5 harg5 arg6 harg6 arg7 harg7 arg8 harg8 arg9 harg9 arg10 harg10 hc0 hc1 x0 x1 x2 x3 xs0 xs1 xs2).2.2.2.1)

/-! ## The scoped buffers of the core that are no staging buffer of this region -/

/-- The first region's nine staging buffers at anything, and the three running buffers each under a given assertion. -/
def scopedWith (c : Dev nD) (X0 X1 X2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ X0 ∗ X1 ∗ X2)

theorem scopedWith_open (c : Dev nD) (X0 X1 X2 : sProp 𝕄) :
    scopedWith (F := F) c X0 X1 X2 ⊢ iprop(otherScoped (F := F) c ∗ X0 ∗ X1 ∗ X2) := by
  unfold scopedWith otherScoped
  iintro ⟨H1, H2, H3, H4, H5, H6, H7, H8, H9, HX0, HX1, HX2⟩
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HX0]; · iexact HX0
  isplitl [HX1]; · iexact HX1
  iexact HX2

theorem scopedWith_close (c : Dev nD) (X0 X1 X2 : sProp 𝕄) :
    iprop(otherScoped (F := F) c ∗ X0 ∗ X1 ∗ X2) ⊢ scopedWith (F := F) c X0 X1 X2 := by
  unfold scopedWith otherScoped
  iintro ⟨⟨H1, H2, H3, H4, H5, H6, H7, H8, H9⟩, HX0, HX1, HX2⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX0]; · iexact HX0
  isplitl [HX1]; · iexact HX1
  iexact HX2

/-- The plain invariant of the class, with the running buffers named: each at some contents. -/
theorem PhiA1_eq (c : Dev nD) :
    (Pipeline.ΦA spec1 c : sProp 𝕄)
      = iprop(scopedWith (F := F) c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA scopedWith; rw [scopedRest1_eq]; simp only [scM1_0, scM1_1, scM1_2, owns_whole]; try rfl

section
variable (V : (c : Dev nD) → (b : Ref sig .tc) → Buf (Elt F) ((c : Thread nD τ).loc b))

/-! ## What the buffers hold after each point -/

/-- A first key tile: nothing into the output block; the running buffers from scratch. -/
def stepA (c : Dev nD) (t : Fin cfg1.N) (h0 : t.val % 8 = 0) (h1 : ¬t.val % 8 = 7) : Vec F S1x512x1024 .f32 × Vec F S1x512x1 .f32 × Vec F S1x512x1 .f32 × Vec F S1x512x1024 .f32 :=
  (outIdle_4,
   soutA_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   soutA_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t),
   soutA_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t))
/-- A middle key tile: nothing into the output block; the running buffers over what the point before left. -/
def stepB (c : Dev nD) (t : Fin cfg1.N) (h0 : ¬t.val % 8 = 0) (h1 : ¬t.val % 8 = 7) (p : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outIdle_4,
   soutB_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2,
   soutB_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2,
   soutB_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2)
/-- The last key tile: the output block stored; the running buffers over what the point before left. -/
def stepC (c : Dev nD) (t : Fin cfg1.N) (h0 : ¬t.val % 8 = 0) (h1 : t.val % 8 = 7) (p : Vec F S1x512x1024 .f32 × Vec F S1x512x1 .f32 × Vec F S1x512x1 .f32 × Vec F S1x512x1024 .f32) : Vec F S1x512x1024 .f32 × Vec F S1x512x1 .f32 × Vec F S1x512x1 .f32 × Vec F S1x512x1024 .f32 :=
  (outC_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2,
   soutC_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2)

/-- THE ACCUMULATION: the output block and the three running buffers after the body at position `n`. -/
def outsAt1 (c : Dev nD) : (n : ℕ) → n < cfg1.N → Vec F S1x512x1024 .f32 × Vec F S1x512x1 .f32 × Vec F S1x512x1 .f32 × Vec F S1x512x1024 .f32
  | 0, hn => stepA V c ⟨0, hn⟩ (Nat.zero_mod _) (by show ¬(0 % 8 = 7); decide)
  | n + 1, hn =>
    if h0 : (n + 1) % 8 = 0 then
      if h1 : (n + 1) % 8 = 7 then False.elim (by omega)
      else stepA V c ⟨n + 1, hn⟩ h0 h1
    else
      if h1 : (n + 1) % 8 = 7 then stepC V c ⟨n + 1, hn⟩ h0 h1 (outsAt1 c n (Nat.lt_of_succ_lt hn))
      else stepB V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = stepA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The region's invariant -/

/-- Before position `n`: at the region's entry the plain invariant (the running buffers at anything); afterwards
    the running buffers at what the point before left, the other scoped buffers and the generator register along. -/
def PhiS (c : Dev nD) : (n : ℕ) → n ≤ cfg1.N → sProp 𝕄
  | 0, _ => Pipeline.ΦA spec1 c
  | n + 1, hn => iprop(scopedWith (F := F) c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scopedWith (F := F) c (owns (c : Thread nD τ) scM1_0 fullShare (outsAt1 V c n hn).2.1) (owns (c : Thread nD τ) scM1_1 fullShare (outsAt1 V c n hn).2.2.1) (owns (c : Thread nD τ) scM1_2 fullShare (outsAt1 V c n hn).2.2.2) ∗ (∃ r, prngReg c r)) := rfl

theorem PhiS_pos (c : Dev nD) (n : ℕ) (h : n ≤ cfg1.N) (hz : n ≠ 0) :
    PhiS V c n h = iprop(scopedWith (F := F) c (owns (c : Thread nD τ) scM1_0 fullShare (outsAt1 V c (n - 1) (by omega)).2.1) (owns (c : Thread nD τ) scM1_1 fullShare (outsAt1 V c (n - 1) (by omega)).2.2.1) (owns (c : Thread nD τ) scM1_2 fullShare (outsAt1 V c (n - 1) (by omega)).2.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.Kernel.Frm

end
-- ==== Proof.FlashBodyK.lean ====
/-
  The attention body meets the pipeline's obligation at every grid point. A point is a first, a middle or the last key
  tile; in each case the matching run applies: the invariant hands over the three running buffers (at anything at the
  region's first point, else at what the point before left) and takes them back at this point's contents; the output
  block is handed back untouched except at a last key tile, where it ends at the stored block.
-/
import proofs.«164876_j87514253623735_2_alg».proof.Proof.FlashFrameK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 8 = 0
  · by_cases h1 : t.val % 8 = 7
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold stepA soutA_0 soutA_1 soutA_2; (try dsimp only)
      by_cases hz : t.val = 0
      · skip
        rw [PhiS_castSucc V c t, PhiS_zero V c _ _ hz, PhiA1_eq]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverA_0 c _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · skip
        rw [PhiS_castSucc V c t, PhiS_pos V c _ _ hz]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunA c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverA_0 c _ _ _ _ _ _ _ _ _ _ _ _ _ _ _ _ _ _ _ _ _ _ _)
            isplitl [HS1]
            · unfold owns; iexists _; isplitr
              swap; · iexact HS1
              ipureintro; exact View.read_writes_of_cover _ _ _ _ _ (scoverA_1 c _ _ _ _ _ _ _ _ _ _ _ _ _ _ _ _ _ _ _ _ _ _ _)
            unfold owns; iexists _; isplitr
            swap; · iexact HS2
            ipureintro; exact View.read_writes_of_cover _ _ _ _ _ (scoverA_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold stepC outC_4 soutC_0 soutC_1 soutC_2; (try dsimp only)
      · skip
        rw [PhiS_castSucc V c t, PhiS_pos V c _ _ hz]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunC c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverC_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverC_1 c _ _ _ _ _ _ _ _ _ _ _ _ _ _ _ _ _ _ _ _ _ _ _ _ _ _)
            unfold owns; iexists _; isplitr
            swap; · iexact HS2
            ipureintro; exact View.read_writes_of_cover _ _ _ _ _ (scoverC_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverC_4 c _ _ _ _ _ _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold stepB soutB_0 soutB_1 soutB_2; (try dsimp only)
      · skip
        rw [PhiS_castSucc V c t, PhiS_pos V c _ _ hz]
        iintro ⟨⟨HSW, Hg⟩, Ho, ⟨%d0, H0⟩, ⟨%d1, H1⟩, ⟨%d2, H2⟩, ⟨%d3, H3⟩, ⟨%d4, H4⟩⟩
        ihave HSW' := (scopedWith_open c _ _ _) $$ HSW
        icases HSW' with ⟨Hoth, HS0, HS1, HS2⟩
        iapply ((flashRunB c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [Hoth HS0 HS1 HS2 Hg]
        · isplitl [Hoth HS0 HS1 HS2]
          · iapply (scopedWith_close c _ _ _)
            isplitl [Hoth]; · iexact Hoth
            isplitl [HS0]
            · unfold owns; iexists _; isplitr
              swap; · iexact HS0
              ipureintro; exact View.read_writes_of_cover _ _ _ _ _ (scoverB_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scoverB_1 c _ _ _ _ _ _ _ _ _ _ _ _ _ _ _ _ _ _ _ _ _ _ _ _ _ _)
            unfold owns; iexists _; isplitr
            swap; · iexact HS2
            ipureintro; exact View.read_writes_of_cover _ _ _ _ _ (scoverB_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the running buffers' contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HSW, Hg⟩
  isplitl [HSW]
  · ihave HSW' := (scopedWith_open c _ _ _) $$ HSW
    icases HSW' with ⟨Hoth, HS0, HS1, HS2⟩
    iapply (scopedWith_close c _ _ _)
    isplitl [Hoth]; · iexact Hoth
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end

end Cert.Kernel.Frm

end
-- ==== Proof.FrameRunK.lean ====
/-
  The kernel program's run, whole. The program is: three host operations (the two weight matrices brought to the
  matrix unit's input format, the input flattened to 16384 rows), the projection region, three host reshapes of its
  outputs back to (batch, position, feature), and the attention region. The buffers' contents at each of the five
  boundaries are named; each region is entered from every unscoped buffer at its boundary's contents and left at the
  next one's, its arrays at what its write-backs leave. The run ends with the result array and the three arguments
  read off the last boundary; the arguments are never written, so they read back as launched.
-/
import proofs.«164876_j87514253623735_2_alg».proof.Proof.QkvFrameK
import proofs.«164876_j87514253623735_2_alg».proof.Proof.FlashBodyK

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first three host operations (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation writes one and no region stages one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The result array ends at what the attention pipeline's write-backs leave in it. -/
theorem W4_main_v7 (c : Dev nD) : W4 m ρ c (Proc.devRef .tc main_v7) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. Its invariant starts as the
    plain one and ends as the plain one again, the running buffers' last contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (V3 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has the result array at what the attention pipeline's write-backs leave and the
    three argument arrays as launched. -/
theorem run_main : θ_run defs (onTc (τ := τ) (main (F := F))) ⟨m, fun _ => 0, ρ⟩ (fun r => ∀ c : Dev nD,
      r.2.mem ((c.tc : Thread nD τ).loc main_v7) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_main_v7 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- THE FRAME: the run with the result array dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Frm

end
-- ==== Proof.LibTileOps.lean ====
/-
  Three vector operations read at one entry, at the ideal values, beside those of the column-reduction file:
  a matrix product whose right factor is given transposed (both operands contracted along their columns),
  accumulated into the zero splat, as the sum over the contracted coordinate; the sum along the one row of a
  1 x n matrix; and a 1 x 1 matrix broadcast to a x b.  Each lemma is stated at an index written by its coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.TileOps

open Idealize.ShloMosaic Idealize.ShloMosaic.ValueIdx

/-- A product of an m×k matrix with the transpose of an n×k matrix (both contracted along their second coordinate),
    accumulated into the zero splat, read at entry (a, b): the sum over the contracted coordinate. -/
theorem matmul_nt_apply {m k n : ℕ} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims ⟨2, ![m, k]⟩ ⟨2, ![n, k]⟩ ⟨2, ![m, n]⟩) none A B
        (constant ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The source index over the one row with column `c` inserted is (0, c). -/
theorem lift_row {n : ℕ} (h : Shape.Reduces ⟨2, ![1, n]⟩ [1] ⟨1, ![1]⟩) (u : Fin 1) (c : Fin n) :
    h.lift (ix1 u) c = ix2 (0 : Fin 1) c := by
  funext ax; apply Fin.ext
  match ax with
  | ⟨0, _⟩ => show u.val = 0; omega
  | ⟨1, _⟩ => rfl

/-- The sum along the one row of a 1×n matrix, accumulated from the zero word. -/
theorem rowSum_apply {n : ℕ} (src : FVec Ideal ⟨2, ![1, n]⟩ .f32) (h : Shape.Reduces ⟨2, ![1, n]⟩ [1] ⟨1, ![1]⟩)
    (hφ : FKind.Formats .f32) (hacc : (0x00000000#32 : BitVec 32) = 0x00000000#32) (u : Fin 1) :
    multiReduction .add [1] ⟨1, ![1]⟩ src 0x00000000#32 h hφ hacc (ix1 u) = ∑ c : Fin n, src (ix2 (0 : Fin 1) c) := by
  refine (Ideal.multiReduction_add_single src 0x00000000#32 h hφ hacc (ix1 u)).trans ?_
  exact Finset.sum_congr rfl fun c _ => congrArg src (lift_row h u c)

/-- A `[1, 1]` array broadcast to `[a, b]` reads, everywhere, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.TileOps

end
-- ==== Proof.QkvValue.lean ====
/-
  What the projection region leaves in its three output arrays, at the ideal values: entry (R, e) of the query, key
  or value array is the sum over the 1024 input features d of the flattened input at (R, d) times the stacked weight
  matrix at (e, d), (1024 + e, d) or (2048 + e, d). Each grid point writes 512 consecutive rows; the 32 points' blocks
  tile the 16384 rows.
-/
import proofs.«164876_j87514253623735_2_alg».proof.Proof.QkvFrame
import proofs.«164876_j87514253623735_2_alg».proof.Proof.LibTileOps
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Frm

theorem hz2 : (![0, 0] : Fin 2 → Nat) = fun _ => 0 := funext fun a => by fin_cases a <;> rfl

/-- The three thirds of the stacked weight matrix, as the body loads them. -/
abbrev rW0 : Rect S3072x1024 := Rect.unit (s := S3072x1024) ![0, 0] S1024x1024.size inb_S3072x1024_S1024x1024_0_0
abbrev rW1 : Rect S3072x1024 := Rect.unit (s := S3072x1024) ![1024, 0] S1024x1024.size inb_S3072x1024_S1024x1024_1024_0
abbrev rW2 : Rect S3072x1024 := Rect.unit (s := S3072x1024) ![2048, 0] S1024x1024.size inb_S3072x1024_S1024x1024_2048_0

/-- Row `e` of third `k` of the stacked weight matrix. -/
def wrow (k : Fin 3) (e : Fin 1024) : Fin 3072 := ⟨k.val * 1024 + e.val, by have := k.isLt; have := e.isLt; omega⟩

section Generic
variable {F : FTy → Type} [FloatOps F]

theorem qout_2_eq (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) :
    qout_2 c i arg1 harg1 arg2 harg2 arg3 harg3 arg4 harg4 arg5 harg5 x0 x1 = k0_pay2 x0 (View.ld x1 rW0) := by
  unfold qout_2
  rw [View.read_writes_eq_canon _ _ _ (qcover_2 c i arg1 harg1 arg2 harg2 arg3 harg3 arg4 harg4 arg5 harg5 x0 x1)]
  unfold qkvRun
  dsimp only
  rw [View.canon_unit_zero hz2]
  simp only [View.readAt_eq_ld, harg1.read_unread, harg2.read_unread, View.ld_unit_zero (S := S512x1024) hz2]

theorem qout_3_eq (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) :
    qout_3 c i arg1 harg1 arg2 harg2 arg3 harg3 arg4 harg4 arg5 harg5 x0 x1 = k0_pay3 x0 (View.ld x1 rW1) := by
  unfold qout_3
  rw [View.read_writes_eq_canon _ _ _ (qcover_3 c i arg1 harg1 arg2 harg2 arg3 harg3 arg4 harg4 arg5 harg5 x0 x1)]
  unfold qkvRun
  dsimp only
  rw [View.canon_unit_zero hz2]
  simp only [View.readAt_eq_ld, harg1.read_unread, harg2.read_unread, View.ld_unit_zero (S := S512x1024) hz2]

theorem qout_4_eq (c : Dev nD) (i : grid0.Coords) (arg1 : Memref sig .tc .vmem S512x1024 .f32) (harg1 : arg1.IsWhole) (arg2 : Memref sig .tc .vmem S3072x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (x0 : Vec F S512x1024 .f32) (x1 : Vec F S3072x1024 .bf16) :
    qout_4 c i arg1 harg1 arg2 harg2 arg3 harg3 arg4 harg4 arg5 harg5 x0 x1 = k0_pay4 x0 (View.ld x1 rW2) := by
  unfold qout_4
  rw [View.read_writes_eq_canon _ _ _ (qcover_4 c i arg1 harg1 arg2 harg2 arg3 harg3 arg4 harg4 arg5 harg5 x0 x1)]
  unfold qkvRun
  dsimp only
  rw [View.canon_unit_zero hz2]
  simp only [View.readAt_eq_ld, harg1.read_unread, harg2.read_unread, View.ld_unit_zero (S := S512x1024) hz2]

end Generic

/-! ## At the ideal values -/

theorem pay2_apply (x0 : Vec Ideal S512x1024 .f32) (w : Vec Ideal S1024x1024 .bf16) (r : Fin 512) (e : Fin 1024) :
    (k0_pay2 (F := Ideal) x0 w : S512x1024.Idx → EReal) (ix2 r e) = ∑ d : Fin 1024, x0 (ix2 r d) * w (ix2 e d) := by
  unfold k0_pay2 k0_pay1 dot_S512x1024_S1024x1024_S512x1024_1_1_0_0_n_n
  refine (Cert.TileOps.matmul_nt_apply _ _ _ r e).trans ?_
  refine Finset.sum_congr rfl fun d _ => ?_
  simp only [truncf_apply, shapeCast_self]

theorem pay3_apply (x0 : Vec Ideal S512x1024 .f32) (w : Vec Ideal S1024x1024 .bf16) (r : Fin 512) (e : Fin 1024) :
    (k0_pay3 (F := Ideal) x0 w : S512x1024.Idx → EReal) (ix2 r e) = ∑ d : Fin 1024, x0 (ix2 r d) * w (ix2 e d) := by
  unfold k0_pay3 k0_pay1 dot_S512x1024_S1024x1024_S512x1024_1_1_0_0_n_n
  refine (Cert.TileOps.matmul_nt_apply _ _ _ r e).trans ?_
  refine Finset.sum_congr rfl fun d _ => ?_
  simp only [truncf_apply, shapeCast_self]

theorem pay4_apply (x0 : Vec Ideal S512x1024 .f32) (w : Vec Ideal S1024x1024 .bf16) (r : Fin 512) (e : Fin 1024) :
    (k0_pay4 (F := Ideal) x0 w : S512x1024.Idx → EReal) (ix2 r e) = ∑ d : Fin 1024, x0 (ix2 r d) * w (ix2 e d) := by
  unfold k0_pay4 k0_pay1 dot_S512x1024_S1024x1024_S512x1024_1_1_0_0_n_n
  refine (Cert.TileOps.matmul_nt_apply _ _ _ r e).trans ?_
  refine Finset.sum_congr rfl fun d _ => ?_
  simp only [truncf_apply, shapeCast_self]

theorem ld_W0_apply (x1 : Vec Ideal S3072x1024 .bf16) (e d : Fin 1024) :
    (View.ld x1 rW0 : S1024x1024.Idx → EReal) (ix2 e d) = x1 (ix2 (wrow 0 e) d) := by
  show x1 (rW0.idx (ix2 e d)) = x1 (ix2 (wrow 0 e) d)
  congr 1; funext a; apply Fin.ext
  match a with
  | ⟨0, _⟩ => show 0 + 1 * e.val = 0 * 1024 + e.val; omega
  | ⟨1, _⟩ => show 0 + 1 * d.val = d.val; omega
theorem ld_W1_apply (x1 : Vec Ideal S3072x1024 .bf16) (e d : Fin 1024) :
    (View.ld x1 rW1 : S1024x1024.Idx → EReal) (ix2 e d) = x1 (ix2 (wrow 1 e) d) := by
  show x1 (rW1.idx (ix2 e d)) = x1 (ix2 (wrow 1 e) d)
  congr 1; funext a; apply Fin.ext
  match a with
  | ⟨0, _⟩ => show 1024 + 1 * e.val = 1 * 1024 + e.val; omega
  | ⟨1, _⟩ => show 0 + 1 * d.val = d.val; omega
theorem ld_W2_apply (x1 : Vec Ideal S3072x1024 .bf16) (e d : Fin 1024) :
    (View.ld x1 rW2 : S1024x1024.Idx → EReal) (ix2 e d) = x1 (ix2 (wrow 2 e) d) := by
  show x1 (rW2.idx (ix2 e d)) = x1 (ix2 (wrow 2 e) d)
  congr 1; funext a; apply Fin.ext
  match a with
  | ⟨0, _⟩ => show 2048 + 1 * e.val = 2 * 1024 + e.val; omega
  | ⟨1, _⟩ => show 0 + 1 * d.val = d.val; omega

/-- The product the region computes: rows of `X` against rows `1024 k …` of `W`. -/
def Gq (k : Fin 3) (X : S16384x1024.Idx → EReal) (W : S3072x1024.Idx → EReal) : S16384x1024.Idx → EReal :=
  fun i => ∑ d : Fin 1024, X (ix2 (i 0) d) * W (ix2 (wrow k (i 1)) d)

section
variable (V : (c : Dev nD) → (b : Ref sig .tc) → Buf (Elt Ideal) ((c : Thread nD τ).loc b))

/-- The printed index maps over the grid: every window but the weights' moves one row block per point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input window's block at point `t` is rows `512 t … 512 t + 511` of the flattened input. -/
theorem iblk0_0_apply (c : Dev nD) (t : Fin cfg0.N) (r : Fin 512) (d : Fin 1024) (R : Fin 16384) (hR : R.val = t.val * 512 + r.val) :
    (iblk0 V c 0 t : Vec Ideal S512x1024 .f32) (ix2 r d) = (V c main_v2 : S16384x1024.Idx → EReal) (ix2 R d) := by
  obtain ⟨e0, e1, -⟩ := idx_facts0 t
  unfold iblk0
  rw [View.read_apply]
  show V c main_v2 _ = V c main_v2 _
  congr 1
  funext a; apply Fin.ext
  match a with
  | ⟨0, _⟩ => show win0_0.index t (0 : Fin 2) * 512 + 1 * r.val = R.val; rw [e0, hR]; omega
  | ⟨1, _⟩ => show win0_0.index t (1 : Fin 2) * 1024 + 1 * d.val = d.val; rw [e1]; omega

/-- The weights' window holds the whole stacked matrix at every point. -/
theorem iblk0_1_apply (c : Dev nD) (t : Fin cfg0.N) (k : Fin 3072) (d : Fin 1024) :
    (iblk0 V c 1 t : Vec Ideal S3072x1024 .bf16) (ix2 k d) = (V c main_v0 : S3072x1024.Idx → EReal) (ix2 k d) := by
  obtain ⟨-, -, e2, e3, -⟩ := idx_facts0 t
  unfold iblk0
  rw [View.read_apply]
  show V c main_v0 _ = V c main_v0 _
  congr 1
  funext a; apply Fin.ext
  match a with
  | ⟨0, _⟩ => show win0_1.index t (0 : Fin 2) * 3072 + 1 * k.val = k.val; rw [e2]; omega
  | ⟨1, _⟩ => show win0_1.index t (1 : Fin 2) * 1024 + 1 * d.val = d.val; rw [e3]; omega

/-- The block of window 2 at point `t`, read at (r, e), sits at row `512 t + r` of the array. -/
theorem emb2_eq (t : Fin cfg0.N) (r : Fin 512) (e : Fin 1024) (R : Fin 16384) (hR : R.val = t.val * 512 + r.val) :
    ((cfg0.win 2).blk t).view.emb (ix2 r e) = (ix2 R e : S16384x1024.Idx) := by
  obtain ⟨-, -, -, -, e4, e5, e6, e7, e8, e9⟩ := idx_facts0 t
  funext a; apply Fin.ext
  match a with
  | ⟨0, _⟩ => show win0_2.index t (0 : Fin 2) * 512 + 1 * r.val = R.val; rw [hR]; omega
  | ⟨1, _⟩ => show win0_2.index t (1 : Fin 2) * 1024 + 1 * e.val = e.val; omega

/-- What point `t` writes back through window 2: its 512 rows of the input times the transposed weight rows
    `0 … 0+1023`. -/
theorem flushed2_eq (c : Dev nD) (t : Fin cfg0.N) :
    (dat0 V c).flushed 2 t = ((cfg0.win 2).blk t).view.read (Elt Ideal) (Gq 0 (V c main_v2) (V c main_v0)) := by
  show (cfg0.win 2).cut (grid0.coords t) ((dat0 V c).after 2 t) = _
  rw [after0_2, qout_2_eq]
  have hN : t.val < 32 := lt_of_lt_of_eq t.isLt (show cfg0.N = 32 from N_0)
  funext j
  obtain ⟨r, e, rfl⟩ : ∃ (r : Fin 512) (e : Fin 1024), j = ix2 r e := ⟨j 0, j 1, eq_ix2 j⟩
  have hr : r.val < 512 := r.isLt
  rw [View.read_apply, emb2_eq t r e ⟨t.val * 512 + r.val, by omega⟩ rfl]
  show k0_pay2 (iblk0 V c 0 t) (View.ld (iblk0 V c 1 t) rW0) (ix2 r e) = Gq 0 (V c main_v2) (V c main_v0) (ix2 ⟨t.val * 512 + r.val, by omega⟩ e)
  rw [pay2_apply]
  unfold Gq
  refine Finset.sum_congr rfl fun d _ => ?_
  rw [iblk0_0_apply V c t r d ⟨t.val * 512 + r.val, by omega⟩ rfl, ld_W0_apply, iblk0_1_apply V c t]

/-- An index is in point `t`'s block iff each coordinate is in the block's range. -/
theorem mem_blk2 (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3_0).slice (win0_2.rect t)).set ↔ _
  rw [View.set_slice_whole, Rect.mem_set_unit]
  exact Iff.rfl

/-- Every row of the array is in some point's block. -/
theorem cover2 (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  have hT : (i 0).val / 512 < cfg0.N := by rw [show cfg0.N = 32 from N_0]; omega
  obtain ⟨-, -, -, -, e4, e5, e6, e7, e8, e9⟩ := idx_facts0 ⟨(i 0).val / 512, hT⟩
  have f0 : win0_2.index ⟨(i 0).val / 512, hT⟩ (0 : Fin 2) = (i 0).val / 512 := by first | exact e4 | exact e6 | exact e8
  have f1 : win0_2.index ⟨(i 0).val / 512, hT⟩ (1 : Fin 2) = 0 := by first | exact e5 | exact e7 | exact e9
  refine ⟨⟨(i 0).val / 512, hT⟩, flush0_2 _, ?_⟩
  rw [mem_blk2]
  intro a
  match a with
  | ⟨0, _⟩ => show win0_2.index ⟨(i 0).val / 512, hT⟩ (0 : Fin 2) * 512 ≤ (i 0).val ∧ (i 0).val < win0_2.index ⟨(i 0).val / 512, hT⟩ (0 : Fin 2) * 512 + 512
              rw [f0]; omega
  | ⟨1, _⟩ => show win0_2.index ⟨(i 0).val / 512, hT⟩ (1 : Fin 2) * 1024 ≤ (i 1).val ∧ (i 1).val < win0_2.index ⟨(i 0).val / 512, hT⟩ (1 : Fin 2) * 1024 + 1024
              rw [f1]; omega

/-- The array window 2 writes ends as that product, whole. -/
theorem final2 (c : Dev nD) : (dat0 V c).arrAt 2 cfg0.N = Gq 0 (V c main_v2) (V c main_v0) :=
  (dat0 V c).arrAt_eq_of_cover 2 (Gq 0 (V c main_v2) (V c main_v0)) (fun t _ => flushed2_eq V c t) cover2

/-- The block of window 3 at point `t`, read at (r, e), sits at row `512 t + r` of the array. -/
theorem emb3_eq (t : Fin cfg0.N) (r : Fin 512) (e : Fin 1024) (R : Fin 16384) (hR : R.val = t.val * 512 + r.val) :
    ((cfg0.win 3).blk t).view.emb (ix2 r e) = (ix2 R e : S16384x1024.Idx) := by
  obtain ⟨-, -, -, -, e4, e5, e6, e7, e8, e9⟩ := idx_facts0 t
  funext a; apply Fin.ext
  match a with
  | ⟨0, _⟩ => show win0_3.index t (0 : Fin 2) * 512 + 1 * r.val = R.val; rw [hR]; omega
  | ⟨1, _⟩ => show win0_3.index t (1 : Fin 2) * 1024 + 1 * e.val = e.val; omega

/-- What point `t` writes back through window 3: its 512 rows of the input times the transposed weight rows
    `1024 … 1024+1023`. -/
theorem flushed3_eq (c : Dev nD) (t : Fin cfg0.N) :
    (dat0 V c).flushed 3 t = ((cfg0.win 3).blk t).view.read (Elt Ideal) (Gq 1 (V c main_v2) (V c main_v0)) := by
  show (cfg0.win 3).cut (grid0.coords t) ((dat0 V c).after 3 t) = _
  rw [after0_3, qout_3_eq]
  have hN : t.val < 32 := lt_of_lt_of_eq t.isLt (show cfg0.N = 32 from N_0)
  funext j
  obtain ⟨r, e, rfl⟩ : ∃ (r : Fin 512) (e : Fin 1024), j = ix2 r e := ⟨j 0, j 1, eq_ix2 j⟩
  have hr : r.val < 512 := r.isLt
  rw [View.read_apply, emb3_eq t r e ⟨t.val * 512 + r.val, by omega⟩ rfl]
  show k0_pay3 (iblk0 V c 0 t) (View.ld (iblk0 V c 1 t) rW1) (ix2 r e) = Gq 1 (V c main_v2) (V c main_v0) (ix2 ⟨t.val * 512 + r.val, by omega⟩ e)
  rw [pay3_apply]
  unfold Gq
  refine Finset.sum_congr rfl fun d _ => ?_
  rw [iblk0_0_apply V c t r d ⟨t.val * 512 + r.val, by omega⟩ rfl, ld_W1_apply, iblk0_1_apply V c t]

/-- An index is in point `t`'s block iff each coordinate is in the block's range. -/
theorem mem_blk3 (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_1).slice (win0_3.rect t)).set ↔ _
  rw [View.set_slice_whole, Rect.mem_set_unit]
  exact Iff.rfl

/-- Every row of the array is in some point's block. -/
theorem cover3 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hT : (i 0).val / 512 < cfg0.N := by rw [show cfg0.N = 32 from N_0]; omega
  obtain ⟨-, -, -, -, e4, e5, e6, e7, e8, e9⟩ := idx_facts0 ⟨(i 0).val / 512, hT⟩
  have f0 : win0_3.index ⟨(i 0).val / 512, hT⟩ (0 : Fin 2) = (i 0).val / 512 := by first | exact e4 | exact e6 | exact e8
  have f1 : win0_3.index ⟨(i 0).val / 512, hT⟩ (1 : Fin 2) = 0 := by first | exact e5 | exact e7 | exact e9
  refine ⟨⟨(i 0).val / 512, hT⟩, flush0_3 _, ?_⟩
  rw [mem_blk3]
  intro a
  match a with
  | ⟨0, _⟩ => show win0_3.index ⟨(i 0).val / 512, hT⟩ (0 : Fin 2) * 512 ≤ (i 0).val ∧ (i 0).val < win0_3.index ⟨(i 0).val / 512, hT⟩ (0 : Fin 2) * 512 + 512
              rw [f0]; omega
  | ⟨1, _⟩ => show win0_3.index ⟨(i 0).val / 512, hT⟩ (1 : Fin 2) * 1024 ≤ (i 1).val ∧ (i 1).val < win0_3.index ⟨(i 0).val / 512, hT⟩ (1 : Fin 2) * 1024 + 1024
              rw [f1]; omega

/-- The array window 3 writes ends as that product, whole. -/
theorem final3 (c : Dev nD) : (dat0 V c).arrAt 3 cfg0.N = Gq 1 (V c main_v2) (V c main_v0) :=
  (dat0 V c).arrAt_eq_of_cover 3 (Gq 1 (V c main_v2) (V c main_v0)) (fun t _ => flushed3_eq V c t) cover3

/-- The block of window 4 at point `t`, read at (r, e), sits at row `512 t + r` of the array. -/
theorem emb4_eq (t : Fin cfg0.N) (r : Fin 512) (e : Fin 1024) (R : Fin 16384) (hR : R.val = t.val * 512 + r.val) :
    ((cfg0.win 4).blk t).view.emb (ix2 r e) = (ix2 R e : S16384x1024.Idx) := by
  obtain ⟨-, -, -, -, e4, e5, e6, e7, e8, e9⟩ := idx_facts0 t
  funext a; apply Fin.ext
  match a with
  | ⟨0, _⟩ => show win0_4.index t (0 : Fin 2) * 512 + 1 * r.val = R.val; rw [hR]; omega
  | ⟨1, _⟩ => show win0_4.index t (1 : Fin 2) * 1024 + 1 * e.val = e.val; omega

/-- What point `t` writes back through window 4: its 512 rows of the input times the transposed weight rows
    `2048 … 2048+1023`. -/
theorem flushed4_eq (c : Dev nD) (t : Fin cfg0.N) :
    (dat0 V c).flushed 4 t = ((cfg0.win 4).blk t).view.read (Elt Ideal) (Gq 2 (V c main_v2) (V c main_v0)) := by
  show (cfg0.win 4).cut (grid0.coords t) ((dat0 V c).after 4 t) = _
  rw [after0_4, qout_4_eq]
  have hN : t.val < 32 := lt_of_lt_of_eq t.isLt (show cfg0.N = 32 from N_0)
  funext j
  obtain ⟨r, e, rfl⟩ : ∃ (r : Fin 512) (e : Fin 1024), j = ix2 r e := ⟨j 0, j 1, eq_ix2 j⟩
  have hr : r.val < 512 := r.isLt
  rw [View.read_apply, emb4_eq t r e ⟨t.val * 512 + r.val, by omega⟩ rfl]
  show k0_pay4 (iblk0 V c 0 t) (View.ld (iblk0 V c 1 t) rW2) (ix2 r e) = Gq 2 (V c main_v2) (V c main_v0) (ix2 ⟨t.val * 512 + r.val, by omega⟩ e)
  rw [pay4_apply]
  unfold Gq
  refine Finset.sum_congr rfl fun d _ => ?_
  rw [iblk0_0_apply V c t r d ⟨t.val * 512 + r.val, by omega⟩ rfl, ld_W2_apply, iblk0_1_apply V c t]

/-- An index is in point `t`'s block iff each coordinate is in the block's range. -/
theorem mem_blk4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_2).slice (win0_4.rect t)).set ↔ _
  rw [View.set_slice_whole, Rect.mem_set_unit]
  exact Iff.rfl

/-- Every row of the array is in some point's block. -/
theorem cover4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have hT : (i 0).val / 512 < cfg0.N := by rw [show cfg0.N = 32 from N_0]; omega
  obtain ⟨-, -, -, -, e4, e5, e6, e7, e8, e9⟩ := idx_facts0 ⟨(i 0).val / 512, hT⟩
  have f0 : win0_4.index ⟨(i 0).val / 512, hT⟩ (0 : Fin 2) = (i 0).val / 512 := by first | exact e4 | exact e6 | exact e8
  have f1 : win0_4.index ⟨(i 0).val / 512, hT⟩ (1 : Fin 2) = 0 := by first | exact e5 | exact e7 | exact e9
  refine ⟨⟨(i 0).val / 512, hT⟩, flush0_4 _, ?_⟩
  rw [mem_blk4]
  intro a
  match a with
  | ⟨0, _⟩ => show win0_4.index ⟨(i 0).val / 512, hT⟩ (0 : Fin 2) * 512 ≤ (i 0).val ∧ (i 0).val < win0_4.index ⟨(i 0).val / 512, hT⟩ (0 : Fin 2) * 512 + 512
              rw [f0]; omega
  | ⟨1, _⟩ => show win0_4.index ⟨(i 0).val / 512, hT⟩ (1 : Fin 2) * 1024 ≤ (i 1).val ∧ (i 1).val < win0_4.index ⟨(i 0).val / 512, hT⟩ (1 : Fin 2) * 1024 + 1024
              rw [f1]; omega

/-- The array window 4 writes ends as that product, whole. -/
theorem final4 (c : Dev nD) : (dat0 V c).arrAt 4 cfg0.N = Gq 2 (V c main_v2) (V c main_v0) :=
  (dat0 V c).arrAt_eq_of_cover 4 (Gq 2 (V c main_v2) (V c main_v0)) (fun t _ => flushed4_eq V c t) cover4

end

end Cert.KernelIdeal.Val

end
-- ==== Proof.FlashPieces.lean ====
/-
  What each kind of grid point leaves in the attention kernel's buffers, as the body's arithmetic of what it found
  there: the new running maximum, the new denominator and the new numerator of the point's tiles and the old running
  values (at a first key tile the old values are the ones the body has just written: −∞, 0 and 0), and at a last key
  tile the output block of the just-stored numerator and denominator and the output weights.
-/
import proofs.«164876_j87514253623735_2_alg».proof.Proof.FlashFrame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Val

open Cert.KernelIdeal Cert.KernelIdeal.Gen Cert.KernelIdeal.Frm

variable {F : FTy → Type} [FloatOps F]

theorem hz3 : (![0, 0, 0] : Fin 3 → Nat) = fun _ => 0 := funext fun a => by fin_cases a <;> rfl
theorem hz2' : (![0, 0] : Fin 2 → Nat) = fun _ => 0 := funext fun a => by fin_cases a <;> rfl

/-! ## A middle key tile -/

theorem soutB_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) :
    soutB_0 c i arg3 harg3 arg4 harg4 arg5 harg5 arg6 harg6 arg7 harg7 arg8 harg8 arg9 harg9 arg10 harg10 hc0 hc1 x0 x1 x2 x3 xs0 xs1 xs2 = k1_pay3 (k1_pay10 x0 x1 xs0) := by
  unfold soutB_0
  rw [View.read_writes_eq_canon _ _ _ (scoverB_0 c i arg3 harg3 arg4 harg4 arg5 harg5 arg6 harg6 arg7 harg7 arg8 harg8 arg9 harg9 arg10 harg10 hc0 hc1 x0 x1 x2 x3 xs0 xs1 xs2)]
  unfold flashRunB
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

theorem soutB_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) :
    soutB_1 c i arg3 harg3 arg4 harg4 arg5 harg5 arg6 harg6 arg7 harg7 arg8 harg8 arg9 harg9 arg10 harg10 hc0 hc1 x0 x1 x2 x3 xs0 xs1 xs2 = (k1_pay1 (k1_pay13 x0 x1 xs0 xs0 xs1)) := by
  unfold soutB_1
  rw [View.read_writes_eq_canon _ _ _ (scoverB_1 c i arg3 harg3 arg4 harg4 arg5 harg5 arg6 harg6 arg7 harg7 arg8 harg8 arg9 harg9 arg10 harg10 hc0 hc1 x0 x1 x2 x3 xs0 xs1 xs2)]
  unfold flashRunB
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

theorem soutB_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : ¬cond1_1 i) (x0 x1 x2 : Vec F S1x512x1024 .bf16) (x3 : Vec F S1024x1024 .bf16) (xs0 xs1 : Vec F S1x512x1 .f32) (xs2 : Vec F S1x512x1024 .f32) :
    soutB_2 c i arg3 harg3 arg4 harg4 arg5 harg5 arg6 harg6 arg7 harg7 arg8 harg8 arg9 harg9 arg10 harg10 hc0 hc1 x0 x1 x2 x3 xs0 xs1 xs2 = (k1_pay2 (k1_pay8 x2) (k1_pay11 x0 x1 xs0 xs0) (k1_pay12 x0 x1 xs0) xs2) := by
  unfold soutB_2
  rw [View.read_writes_eq_canon _ _ _ (scoverB_2 c i arg3 harg3 arg4 harg4 arg5 harg5 arg6 harg6 arg7 harg7 arg8 harg8 arg9 harg9 arg10 harg10 hc0 hc1 x0 x1 x2 x3 xs0 xs1 xs2)]
  unfold flashRunB
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

/-! ## The last key tile -/

theorem soutC_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) :
    soutC_0 c i arg3 harg3 arg4 harg4 arg5 harg5 arg6 harg6 arg7 harg7 arg8 harg8 arg9 harg9 arg10 harg10 hc0 hc1 x0 x1 x2 x3 xs0 xs1 xs2 = k1_pay3 (k1_pay10 x0 x1 xs0) := by
  unfold soutC_0
  rw [View.read_writes_eq_canon _ _ _ (scoverC_0 c i arg3 harg3 arg4 harg4 arg5 harg5 arg6 harg6 arg7 harg7 arg8 harg8 arg9 harg9 arg10 harg10 hc0 hc1 x0 x1 x2 x3 xs0 xs1 xs2)]
  unfold flashRunC
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

theorem soutC_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) :
    soutC_1 c i arg3 harg3 arg4 harg4 arg5 harg5 arg6 harg6 arg7 harg7 arg8 harg8 arg9 harg9 arg10 harg10 hc0 hc1 x0 x1 x2 x3 xs0 xs1 xs2 = (k1_pay1 (k1_pay13 x0 x1 xs0 xs0 xs1)) := by
  unfold soutC_1
  rw [View.read_writes_eq_canon _ _ _ (scoverC_1 c i arg3 harg3 arg4 harg4 arg5 harg5 arg6 harg6 arg7 harg7 arg8 harg8 arg9 harg9 arg10 harg10 hc0 hc1 x0 x1 x2 x3 xs0 xs1 xs2)]
  unfold flashRunC
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

theorem soutC_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) :
    soutC_2 c i arg3 harg3 arg4 harg4 arg5 harg5 arg6 harg6 arg7 harg7 arg8 harg8 arg9 harg9 arg10 harg10 hc0 hc1 x0 x1 x2 x3 xs0 xs1 xs2 = (k1_pay2 (k1_pay8 x2) (k1_pay11 x0 x1 xs0 xs0) (k1_pay12 x0 x1 xs0) xs2) := by
  unfold soutC_2
  rw [View.read_writes_eq_canon _ _ _ (scoverC_2 c i arg3 harg3 arg4 harg4 arg5 harg5 arg6 harg6 arg7 harg7 arg8 harg8 arg9 harg9 arg10 harg10 hc0 hc1 x0 x1 x2 x3 xs0 xs1 xs2)]
  unfold flashRunC
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

theorem outC_4_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : ¬cond1_0 i) (hc1 : cond1_1 i) (x0 x1 x2 : Vec F S1x512x1024 .bf16) (x3 : Vec F S1024x1024 .bf16) (xs0 xs1 : Vec F S1x512x1 .f32) (xs2 : Vec F S1x512x1024 .f32) :
    outC_4 c i arg3 harg3 arg4 harg4 arg5 harg5 arg6 harg6 arg7 harg7 arg8 harg8 arg9 harg9 arg10 harg10 hc0 hc1 x0 x1 x2 x3 xs0 xs1 xs2 = k1_pay4 (k1_pay2 (k1_pay8 x2) (k1_pay11 x0 x1 xs0 xs0) (k1_pay12 x0 x1 xs0) xs2) (k1_pay1 (k1_pay13 x0 x1 xs0 xs0 xs1)) x3 := by
  unfold outC_4
  rw [View.read_writes_eq_canon _ _ _ (coverC_4 c i arg3 harg3 arg4 harg4 arg5 harg5 arg6 harg6 arg7 harg7 arg8 harg8 arg9 harg9 arg10 harg10 hc0 hc1 x0 x1 x2 x3 xs0 xs1 xs2)]
  unfold flashRunC
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

/-! ## A first key tile -/

theorem soutA_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) :
    soutA_0 c i arg3 harg3 arg4 harg4 arg5 harg5 arg6 harg6 arg7 harg7 arg8 harg8 arg9 harg9 arg10 harg10 hc0 hc1 x0 x1 x2 x3 = k1_pay3 (k1_pay10 x0 x1 (k1_pay5 (F := F))) := by
  unfold soutA_0
  rw [View.read_writes_eq_canon _ _ _ (scoverA_0 c i arg3 harg3 arg4 harg4 arg5 harg5 arg6 harg6 arg7 harg7 arg8 harg8 arg9 harg9 arg10 harg10 hc0 hc1 x0 x1 x2 x3)]
  unfold flashRunA
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

theorem soutA_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) :
    soutA_1 c i arg3 harg3 arg4 harg4 arg5 harg5 arg6 harg6 arg7 harg7 arg8 harg8 arg9 harg9 arg10 harg10 hc0 hc1 x0 x1 x2 x3 = k1_pay1 (k1_pay13 x0 x1 (k1_pay5 (F := F)) (k1_pay5 (F := F)) (k1_pay6 (F := F))) := by
  unfold soutA_1
  rw [View.read_writes_eq_canon _ _ _ (scoverA_1 c i arg3 harg3 arg4 harg4 arg5 harg5 arg6 harg6 arg7 harg7 arg8 harg8 arg9 harg9 arg10 harg10 hc0 hc1 x0 x1 x2 x3)]
  unfold flashRunA
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

theorem soutA_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x512x1 .f32) (harg8 : arg8.IsWhole) (arg9 : Memref sig .tc .vmem S1x512x1 .f32) (harg9 : arg9.IsWhole) (arg10 : Memref sig .tc .vmem S1x512x1024 .f32) (harg10 : arg10.IsWhole) (hc0 : cond1_0 i) (hc1 : ¬cond1_1 i) (x0 x1 x2 : Vec F S1x512x1024 .bf16) (x3 : Vec F S1024x1024 .bf16) :
    soutA_2 c i arg3 harg3 arg4 harg4 arg5 harg5 arg6 harg6 arg7 harg7 arg8 harg8 arg9 harg9 arg10 harg10 hc0 hc1 x0 x1 x2 x3 = k1_pay2 (k1_pay8 x2) (k1_pay11 x0 x1 (k1_pay5 (F := F)) (k1_pay5 (F := F))) (k1_pay12 x0 x1 (k1_pay5 (F := F))) (k1_pay7 (F := F)) := by
  unfold soutA_2
  rw [View.read_writes_eq_canon _ _ _ (scoverA_2 c i arg3 harg3 arg4 harg4 arg5 harg5 arg6 harg6 arg7 harg7 arg8 harg8 arg9 harg9 arg10 harg10 hc0 hc1 x0 x1 x2 x3)]
  unfold flashRunA
  dsimp only
  sl_unfold_words
  (try dsimp only)
  simp only [View.canon_unit_zero (S := S1x512x1024) hz3, View.canon_unit_zero (S := S1x512x1) hz3, View.canon_cons_unit_zero (S := S1x512x1024) hz3, View.canon_cons_unit_zero (S := S1x512x1) hz3, View.readAt_eq_ld, harg3.read_unread, harg4.read_unread, harg5.read_unread, harg6.read_unread, harg8.read_unread, harg9.read_unread, harg10.read_unread, View.ld_unit_zero (S := S1x512x1024) hz3, View.ld_unit_zero (S := S1x512x1) hz3, View.ld_unit_zero (S := S1024x1024) hz2', View.readCov_unit_zero (S := S1x512x1024) _ hz3, View.readCov_unit_zero (S := S1x512x1) _ hz3]
  try rfl

end Cert.KernelIdeal.Val

end
-- ==== Proof.LibCasts3.lean ====
/-
  Rank-3 re-layouts read at an index written by its coordinates, generic in the extents and the element type:
  the two leading axes of an [a, b, c] array merged into one of extent n = a·b and split back (a row-major reshape
  keeps the position (r·b + u)·c + q), and the three ways a rank-3 array with unit axes is repeated over [a, b, c]:
  along the middle axis, along the leading axis, and along both.
-/
import Idealize.ShloMosaic.Lib.ValueIdx
import Idealize.ShloMosaic.Lib.ValueLayout
import Idealize.ShloMosaic.Lib.Pipeline.Value

noncomputable section

namespace Cert.Casts3

open Idealize.ShloMosaic Idealize.ShloMosaic.ValueIdx

variable {α : Type}

/-- An [a, b, c] array cast to [n, c] with n = a·b reads, at row k = r·b + u and column q, the operand at (r, u, q). -/
theorem merge_apply {a b c n : ℕ} (x : (⟨3, ![a, b, c]⟩ : Shape).Idx → α)
    (h : (⟨3, ![a, b, c]⟩ : Shape).ShapeCasts ⟨2, ![n, c]⟩) (r : Fin a) (u : Fin b) (k : Fin n)
    (hk : k.val = r.val * b + u.val) (q : Fin c) :
    shapeCast ⟨2, ![n, c]⟩ x h (ix2 k q) = x (ix3 r u q) :=
  shapeCast_apply x h _ _ (by
    rw [Shape.rowMajor_val_three, Shape.rowMajor_val_two]
    show (r.val * b + u.val) * c + q.val = k.val * c + q.val
    rw [hk])

/-- An [n, c] array with n = a·b cast to [a, b, c] reads, at (r, u, q), the operand at row k = r·b + u and column q. -/
theorem split_apply {a b c n : ℕ} (x : (⟨2, ![n, c]⟩ : Shape).Idx → α)
    (h : (⟨2, ![n, c]⟩ : Shape).ShapeCasts ⟨3, ![a, b, c]⟩) (r : Fin a) (u : Fin b) (k : Fin n)
    (hk : k.val = r.val * b + u.val) (q : Fin c) :
    shapeCast ⟨3, ![a, b, c]⟩ x h (ix3 r u q) = x (ix2 k q) :=
  shapeCast_apply x h _ _ (by
    rw [Shape.rowMajor_val_two, Shape.rowMajor_val_three]
    show k.val * c + q.val = (r.val * b + u.val) * c + q.val
    rw [hk])

/-- An [a, 1, c] array repeated along its middle axis reads, at (r, u, q), the operand at (r, 0, q). -/
theorem spreadMid_apply {a b c : ℕ} (v : (⟨3, ![a, 1, c]⟩ : Shape).Idx → α)
    (h : (⟨3, ![a, 1, c]⟩ : Shape).Broadcasts ⟨3, ![a, b, c]⟩) (r : Fin a) (u : Fin b) (q : Fin c) :
    broadcastTo ⟨3, ![a, b, c]⟩ v h (ix3 r u q) = v (ix3 r (0 : Fin 1) q) := by
  refine broadcastTo_apply v h (ix3 r u q) (ix3 r (0 : Fin 1) q) fun ax => ?_
  match ax with
  | ⟨0, _⟩ =>
    show r.val = if a = 1 then 0 else r.val
    split
    · have := r.isLt; omega
    · rfl
  | ⟨1, _⟩ => rfl
  | ⟨2, _⟩ =>
    show q.val = if c = 1 then 0 else q.val
    split
    · have := q.isLt; omega
    · rfl

/-- A [1, b, c] array repeated along its leading axis reads, at (r, u, q), the operand at (0, u, q). -/
theorem spreadLead_apply {a b c : ℕ} (v : (⟨3, ![1, b, c]⟩ : Shape).Idx → α)
    (h : (⟨3, ![1, b, c]⟩ : Shape).Broadcasts ⟨3, ![a, b, c]⟩) (r : Fin a) (u : Fin b) (q : Fin c) :
    broadcastTo ⟨3, ![a, b, c]⟩ v h (ix3 r u q) = v (ix3 (0 : Fin 1) u q) := by
  refine broadcastTo_apply v h (ix3 r u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-- A [1, 1, c] array repeated along both leading axes reads, at (r, u, q), the operand at (0, 0, q). -/
theorem spreadBoth_apply {a b c : ℕ} (v : (⟨3, ![1, 1, c]⟩ : Shape).Idx → α)
    (h : (⟨3, ![1, 1, c]⟩ : Shape).Broadcasts ⟨3, ![a, b, c]⟩) (r : Fin a) (u : Fin b) (q : Fin c) :
    broadcastTo ⟨3, ![a, b, c]⟩ v h (ix3 r u q) = v (ix3 (0 : Fin 1) (0 : Fin 1) q) := by
  refine broadcastTo_apply v h (ix3 r u q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

end Cert.Casts3

end
-- ==== Proof.LibOnlineSoftmax.lean ====
/-
  A sum of exponentials shifted by the maximum, accumulated chunk by chunk, on the extended reals.

  For finitely many real scores `x j`, a pass over pairwise disjoint chunks keeps two numbers:
    `m` — the maximum of the scores seen so far, `−∞` before the first chunk;
    `l` — the sum over the scores seen so far of `exp (x j − m)`, `0` before the first chunk;
  and at a new, non-empty chunk `T` it replaces them by
    `m' = max m (max over T of x j)`,   `l' = l · exp (m − m') + Σ over T of exp (x j − m')`.
  The update keeps both descriptions: `m'` is the maximum over the scores seen including `T`, and `l'` the sum
  over them of `exp (x j − m')`. Before the first chunk `l = 0`, so the rescaled old sum vanishes whatever
  `exp (−∞ − m')` is; afterwards every quantity is a real number and the identity is
  `exp (x − m) · exp (m − m') = exp (x − m')`, summed. After the last chunk `l` is therefore the two-pass value
  `Σ over all j of exp (x j − max over all j of x j)`.
-/
import Idealize.ShloMosaic.PureOps.Ideal

noncomputable section

namespace OnlineSoftmax

open Idealize.ShloMosaic

variable {ι : Type} [DecidableEq ι]

/-- The maximum of the scores over `S` as an extended real; `−∞` over the empty set. -/
def runMax (x : ι → ℝ) (S : Finset ι) : EReal := S.sup fun j => (x j : EReal)

/-- The sum over `S` of `exp (x j − m)`. -/
def runSum (x : ι → ℝ) (S : Finset ι) (m : EReal) : EReal := ∑ j ∈ S, Ideal.exp ((x j : EReal) - m)

theorem runMax_empty (x : ι → ℝ) : runMax x ∅ = ⊥ := Finset.sup_empty

theorem runSum_empty (x : ι → ℝ) (m : EReal) : runSum x ∅ m = 0 := Finset.sum_empty

/-- The maximum over a union is the larger of the two maxima. -/
theorem runMax_union (x : ι → ℝ) (S T : Finset ι) : max (runMax x S) (runMax x T) = runMax x (S ∪ T) := by
  unfold runMax
  rw [Finset.sup_union]

/-- Over a non-empty set the maximum of real scores is a real number. -/
theorem runMax_real (x : ι → ℝ) {S : Finset ι} (hS : S.Nonempty) : ∃ a : ℝ, runMax x S = (a : EReal) := by
  obtain ⟨j, hj⟩ := hS
  have hbot : runMax x S ≠ ⊥ := by
    intro h
    have hle : ((x j : ℝ) : EReal) ≤ runMax x S := Finset.le_sup (f := fun j => (x j : EReal)) hj
    rw [h] at hle
    exact EReal.coe_ne_bot _ (le_bot_iff.mp hle)
  have htop : runMax x S ≠ ⊤ := by
    apply ne_of_lt
    unfold runMax
    rw [Finset.sup_lt_iff (by exact bot_lt_top)]
    intro b _
    exact EReal.coe_lt_top _
  exact ⟨(runMax x S).toReal, (EReal.coe_toReal htop hbot).symm⟩

/-- A real sum read as an extended real is the sum of the terms read as extended reals. -/
theorem coe_sum (S : Finset ι) (f : ι → ℝ) : ((∑ j ∈ S, f j : ℝ) : EReal) = ∑ j ∈ S, (f j : EReal) := by
  induction S using Finset.induction_on with
  | empty => simp
  | insert j S hj ih => rw [Finset.sum_insert hj, Finset.sum_insert hj, EReal.coe_add, ih]

/-- With a real shift, the shifted sum of exponentials is a real number. -/
theorem runSum_coe (x : ι → ℝ) (S : Finset ι) (a : ℝ) :
    runSum x S (a : EReal) = ((∑ j ∈ S, Real.exp (x j - a) : ℝ) : EReal) := by
  unfold runSum
  rw [coe_sum]
  refine Finset.sum_congr rfl fun j _ => ?_
  rw [← EReal.coe_sub]
  rfl

/-- The update at a new non-empty chunk `T` disjoint from the scores `S` seen so far: the old sum rescaled from
    the old maximum to the new one, plus the chunk's terms at the new maximum, is the sum over `S ∪ T` at the new
    maximum. `S` may be empty: then the old maximum is `−∞`, the old sum `0`, and the product is `0`. -/
theorem step (x : ι → ℝ) (S T : Finset ι) (hd : Disjoint S T) (hT : T.Nonempty) :
    runSum x S (runMax x S) * Ideal.exp (runMax x S - runMax x (S ∪ T)) + runSum x T (runMax x (S ∪ T))
      = runSum x (S ∪ T) (runMax x (S ∪ T)) := by
  obtain ⟨b, hb⟩ := runMax_real x (hT.mono (Finset.subset_union_right (s₁ := S)))
  rcases S.eq_empty_or_nonempty with rfl | hS
  · rw [runSum_empty, zero_mul, zero_add, Finset.empty_union]
  · obtain ⟨a, ha⟩ := runMax_real x hS
    rw [hb, ha, runSum_coe, runSum_coe, runSum_coe, ← EReal.coe_sub]
    show ((_ : ℝ) : EReal) * ((Real.exp (a - b) : ℝ) : EReal) + _ = _
    rw [← EReal.coe_mul, ← EReal.coe_add, Finset.sum_union hd, Finset.sum_mul]
    congr 2
    refine Finset.sum_congr rfl fun j _ => ?_
    rw [← Real.exp_add]
    congr 1
    ring

end OnlineSoftmax

end
-- ==== Proof.LibAttnLaw.lean ====
/-
  The algebra behind the attention kernel, on the extended reals with real data.

  For real scores `x j` and real weights `w j` over a finite set of keys, the kernel keeps, besides the running
  maximum `m` and the running sum `l = Σ exp (x j − m)`, the running weighted sum `acc = Σ exp (x j − m) · w j`. At a new
  non-empty chunk `T` of keys it rescales the old value by `exp (m − m')` and adds the chunk's terms at the new maximum
  `m'`: the result is the weighted sum over the keys seen including `T`, at `m'` — the identity
  `exp (m − m') · exp (x − m) = exp (x − m')`, summed. Before the first chunk the old value is `0`.
  At the end `acc / l`, a quotient of two real numbers with `l > 0`, is the sum of the normalised weights
  `exp (x j − m) / l` times `w j`: a positive real factor distributes over a finite real sum.
  The scale: the square root of 1024 is 32, so `1 / sqrt 1024` is the power of two `2⁻⁵` the kernel multiplies by.
-/
import proofs.«164876_j87514253623735_2_alg».proof.Proof.LibOnlineSoftmax
import Idealize.ShloMosaic.PureOps.Ideal.Laws

noncomputable section

namespace AttnLaw

open Idealize.ShloMosaic OnlineSoftmax

variable {ι : Type} [DecidableEq ι]

/-- The sum over `S` of `exp (x j − m) · w j`. -/
def runW (x w : ι → ℝ) (S : Finset ι) (m : EReal) : EReal := ∑ j ∈ S, Ideal.exp ((x j : EReal) - m) * (w j : EReal)

theorem runW_empty (x w : ι → ℝ) (m : EReal) : runW x w ∅ m = 0 := Finset.sum_empty

/-- With a real shift the weighted sum is a real number. -/
theorem runW_coe (x w : ι → ℝ) (S : Finset ι) (a : ℝ) :
    runW x w S (a : EReal) = ((∑ j ∈ S, Real.exp (x j - a) * w j : ℝ) : EReal) := by
  unfold runW
  rw [coe_sum]
  refine Finset.sum_congr rfl fun j _ => ?_
  rw [← EReal.coe_sub, EReal.coe_mul]
  rfl

/-- The weighted update at a new non-empty chunk `T` disjoint from the keys `S` seen so far. -/
theorem wstep (x w : ι → ℝ) (S T : Finset ι) (hd : Disjoint S T) (hT : T.Nonempty) :
    Ideal.exp (runMax x S - runMax x (S ∪ T)) * runW x w S (runMax x S) + runW x w T (runMax x (S ∪ T))
      = runW x w (S ∪ T) (runMax x (S ∪ T)) := by
  obtain ⟨b, hb⟩ := runMax_real x (hT.mono (Finset.subset_union_right (s₁ := S)))
  rcases S.eq_empty_or_nonempty with rfl | hS
  · rw [runW_empty, mul_zero, zero_add, Finset.empty_union]
  · obtain ⟨a, ha⟩ := runMax_real x hS
    rw [hb, ha, runW_coe, runW_coe, runW_coe, ← EReal.coe_sub]
    show ((Real.exp (a - b) : ℝ) : EReal) * ((_ : ℝ) : EReal) + _ = _
    rw [← EReal.coe_mul, ← EReal.coe_add, Finset.sum_union hd, Finset.mul_sum]
    congr 2
    refine Finset.sum_congr rfl fun j _ => ?_
    rw [← mul_assoc, ← Real.exp_add]
    congr 2
    ring

/-- The running sum's update with the rescaling factor on the left, as the kernel multiplies. -/
theorem lstep (x : ι → ℝ) (S T : Finset ι) (hd : Disjoint S T) (hT : T.Nonempty) :
    Ideal.exp (runMax x S - runMax x (S ∪ T)) * runSum x S (runMax x S) + runSum x T (runMax x (S ∪ T))
      = runSum x (S ∪ T) (runMax x (S ∪ T)) := by
  rw [mul_comm]; exact step x S T hd hT

/-- Over a non-empty set the shifted sum of exponentials is a positive real. -/
theorem runSum_pos_real (x : ι → ℝ) {S : Finset ι} (hS : S.Nonempty) (a : ℝ) :
    ∃ L : ℝ, 0 < L ∧ runSum x S (a : EReal) = (L : EReal) :=
  ⟨∑ j ∈ S, Real.exp (x j - a), Finset.sum_pos (fun j _ => Real.exp_pos _) hS, runSum_coe x S a⟩

/-- The quotient of the weighted sum by the sum is the sum of the normalised weights times `w`. -/
theorem normalize (x w : ι → ℝ) {S : Finset ι} (hS : S.Nonempty) :
    Ideal.div (runW x w S (runMax x S)) (runSum x S (runMax x S))
      = ∑ j ∈ S, Ideal.div (Ideal.exp ((x j : EReal) - runMax x S)) (runSum x S (runMax x S)) * (w j : EReal) := by
  obtain ⟨a, ha⟩ := runMax_real x hS
  obtain ⟨L, hL, hLe⟩ := runSum_pos_real x hS a
  rw [ha, hLe, runW_coe, Ideal.div_coe hL.ne', ← EReal.coe_mul]
  have hterm : ∀ j ∈ S, Ideal.div (Ideal.exp ((x j : EReal) - (a : EReal))) (L : EReal) * (w j : EReal)
      = ((Real.exp (x j - a) * (1 / L) * w j : ℝ) : EReal) := by
    intro j _
    rw [Ideal.div_coe hL.ne', ← EReal.coe_sub]
    show ((Real.exp (x j - a) : ℝ) : EReal) * _ * _ = _
    rw [← EReal.coe_mul, ← EReal.coe_mul]
  rw [Finset.sum_congr rfl hterm, ← coe_sum, Finset.sum_mul]
  congr 1
  exact Finset.sum_congr rfl fun j _ => by ring

/-- The fold of `max` from −∞ over a finite set is the supremum over it. -/
theorem fold_max_eq_sup (s : Finset ι) (f : ι → EReal) : s.fold max ⊥ f = s.sup f := by
  induction s using Finset.induction_on with
  | empty => simp
  | insert a s ha ih =>
    rw [Finset.fold_insert ha, Finset.sup_insert, ih]

/-- The maximum of two extended reals, as the float operation spells it, is commutative and associative. -/
instance maximumf_comm : Std.Commutative (FloatOps.maximumf (F := Ideal) (φ := .f32)) := ⟨fun a b => max_comm a b⟩
instance maximumf_assoc : Std.Associative (FloatOps.maximumf (F := Ideal) (φ := .f32)) := ⟨fun a b c => max_assoc a b c⟩

/-- The same fold with the maximum spelt as the float operation. -/
theorem fold_maximumf_eq_sup (s : Finset ι) (f : ι → EReal) :
    s.fold (FloatOps.maximumf (F := Ideal) (φ := .f32)) ⊥ f = s.sup f := by
  induction s using Finset.induction_on with
  | empty => simp
  | insert a s ha ih =>
    rw [Finset.fold_insert ha, Finset.sup_insert, ih]
    try (show max (f a) (s.sup f) = f a ⊔ s.sup f; rfl)

/-! ## The constants -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem sqrt_1024 : Real.sqrt 1024 = 32 := by
  rw [show (1024 : ℝ) = 32 ^ 2 by norm_num]
  exact Real.sqrt_sq (by norm_num)

/-- The reference's scale `1 / sqrt 1024` is the kernel's literal `2⁻⁵`. -/
theorem scale_eq :
    Ideal.div (Ideal.ofBits .f32 0x3F800000#32) (Ideal.sqrt (Ideal.ofBits .f32 0x44800000#32)) = Ideal.ofBits .f32 0x3D000000#32 := by
  rw [ofBits_one, ofBits_1024, ofBits_inv32, Ideal.sqrt_coe, if_neg (by norm_num), sqrt_1024,
    Ideal.div_coe (by norm_num : (32 : ℝ) ≠ 0), ← EReal.coe_mul]
  congr 1
  norm_num

end AttnLaw

end
-- ==== Proof.LibRank3Ops.lean ====
/-
  Rank-3 vector and host operations read at one entry, at the ideal values, generic in the extents [g, m, n]:
  a batched matrix product into the zero splat with both operands contracted along their last axis (scores: queries
  against keys) or with the left operand's last axis against the right operand's middle axis (weights against
  values), each as the sum over the contracted coordinate; the maximum and the sum along the last axis; the host's
  maximum along the last axis from −∞ as a supremum; a [g, m] array cast to [g, m, 1]; and a [g, m, 1] array
  repeated along its last axis.
-/
import proofs.«164876_j87514253623735_2_alg».proof.Proof.LibAttnLaw
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.ValueIdx AttnLaw

namespace Cert.Rank3Ops

/-- A batched product contracting both operands' last axis, into the zero splat, at (b, a, c). -/
theorem bmm_nt_apply {g m k n : ℕ} {φ₁ φ₂ : FTy}
    (w : DotDims.WF ⟨3, ![g, m, k]⟩ ⟨3, ![g, n, k]⟩ ⟨3, ![g, m, n]⟩ [2] [2] [1] [1] [0] [0])
    (A : FVec Ideal ⟨3, ![g, m, k]⟩ φ₁) (B : FVec Ideal ⟨3, ![g, n, k]⟩ φ₂) (b : Fin g) (a : Fin m) (c : Fin n) :
    matmul (⟨[2], [2], [1], [1], [0], [0], w⟩ : DotDims ⟨3, ![g, m, k]⟩ ⟨3, ![g, n, k]⟩ ⟨3, ![g, m, n]⟩) none A B
        (constant ⟨3, ![g, m, n]⟩ .f32 0x00000000#32) (ix3 b a c)
      = ∑ d : Fin k, A (ix3 b a d) * B (ix3 b c d) := by
  show FloatOps.matmul _ none A B _ (ix3 b a c) = _
  rw [Ideal.matmul_constant_zero_apply,
    ← Equiv.sum_comp (contrEquiv1 (⟨[2], [2], [1], [1], [0], [0], w⟩ : DotDims _ _ _) k rfl rfl).symm]
  refine Finset.sum_congr rfl fun d _ => ?_
  have c2 := contrEquiv1_symm_val
    (⟨[2], [2], [1], [1], [0], [0], w⟩ : DotDims ⟨3, ![g, m, k]⟩ ⟨3, ![g, n, k]⟩ ⟨3, ![g, m, n]⟩) k rfl rfl d
  have l2 : (⟨[2], [2], [1], [1], [0], [0], w⟩ : DotDims ⟨3, ![g, m, k]⟩ ⟨3, ![g, n, k]⟩ ⟨3, ![g, m, n]⟩).lhsIdx (ix3 b a c)
      ((contrEquiv1 _ k rfl rfl).symm d) = ix3 b a d := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [2], [1], [1], [0], [0], w⟩ : DotDims ⟨3, ![g, m, k]⟩ ⟨3, ![g, n, k]⟩ ⟨3, ![g, m, n]⟩).rhsIdx (ix3 b a c)
      ((contrEquiv1 _ k rfl rfl).symm d) = ix3 b c d := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c2
  rw [l2, r2]

/-- A batched product contracting the left operand's last axis with the right operand's middle axis, at (b, a, c). -/
theorem bmm_nn_apply {g m k n : ℕ} {φ₁ φ₂ : FTy}
    (w : DotDims.WF ⟨3, ![g, m, k]⟩ ⟨3, ![g, k, n]⟩ ⟨3, ![g, m, n]⟩ [2] [1] [1] [2] [0] [0])
    (A : FVec Ideal ⟨3, ![g, m, k]⟩ φ₁) (B : FVec Ideal ⟨3, ![g, k, n]⟩ φ₂) (b : Fin g) (a : Fin m) (c : Fin n) :
    matmul (⟨[2], [1], [1], [2], [0], [0], w⟩ : DotDims ⟨3, ![g, m, k]⟩ ⟨3, ![g, k, n]⟩ ⟨3, ![g, m, n]⟩) none A B
        (constant ⟨3, ![g, m, n]⟩ .f32 0x00000000#32) (ix3 b a c)
      = ∑ j : Fin k, A (ix3 b a j) * B (ix3 b j c) := by
  show FloatOps.matmul _ none A B _ (ix3 b a c) = _
  rw [Ideal.matmul_constant_zero_apply,
    ← Equiv.sum_comp (contrEquiv1 (⟨[2], [1], [1], [2], [0], [0], w⟩ : DotDims _ _ _) k rfl rfl).symm]
  refine Finset.sum_congr rfl fun d _ => ?_
  have c2 := contrEquiv1_symm_val
    (⟨[2], [1], [1], [2], [0], [0], w⟩ : DotDims ⟨3, ![g, m, k]⟩ ⟨3, ![g, k, n]⟩ ⟨3, ![g, m, n]⟩) k rfl rfl d
  have l2 : (⟨[2], [1], [1], [2], [0], [0], w⟩ : DotDims ⟨3, ![g, m, k]⟩ ⟨3, ![g, k, n]⟩ ⟨3, ![g, m, n]⟩).lhsIdx (ix3 b a c)
      ((contrEquiv1 _ k rfl rfl).symm d) = ix3 b a d := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [1], [2], [0], [0], w⟩ : DotDims ⟨3, ![g, m, k]⟩ ⟨3, ![g, k, n]⟩ ⟨3, ![g, m, n]⟩).rhsIdx (ix3 b a c)
      ((contrEquiv1 _ k rfl rfl).symm d) = ix3 b d c := by
    funext ax; apply Fin.ext
    match ax with
    | ⟨0, _⟩ => simp [DotDims.rhsIdx]; rfl
    | ⟨1, _⟩ => simp [DotDims.rhsIdx]; exact c2
    | ⟨2, _⟩ => simp [DotDims.rhsIdx]; rfl
  rw [l2, r2]

/-- The source index over row (u, r) with the last coordinate inserted. -/
theorem lift_last {g m n : ℕ} (h : Shape.Reduces ⟨3, ![g, m, n]⟩ [2] ⟨2, ![g, m]⟩) (u : Fin g) (r : Fin m) (k : Fin n) :
    h.lift (ix2 u r) k = ix3 u r k := by
  funext ax; apply Fin.ext
  match ax with
  | ⟨0, _⟩ => rfl
  | ⟨1, _⟩ => rfl
  | ⟨2, _⟩ => rfl

/-- The maximum along the last axis, from the accumulator's value. -/
theorem laneMax3_apply {g m n : ℕ} (src : FVec Ideal ⟨3, ![g, m, n]⟩ .f32)
    (h : Shape.Reduces ⟨3, ![g, m, n]⟩ [2] ⟨2, ![g, m]⟩) (hφ : FKind.Formats .f32) (hacc : (0xFF800000#32 : BitVec 32) = 0xFF800000#32)
    (u : Fin g) (r : Fin m) :
    multiReduction .maximumf [2] ⟨2, ![g, m]⟩ src 0xFF800000#32 h hφ hacc (ix2 u r)
      = (Finset.univ : Finset (Fin n)).fold max (Ideal.ofBits .f32 0xFF800000#32) (fun k => src (ix3 u r k)) := by
  refine (Ideal.multiReduction_maximumf_single src 0xFF800000#32 h hφ hacc (ix2 u r)).trans ?_
  congr 1
  funext k
  exact congrArg src (lift_last h u r k)

/-- The sum along the last axis. -/
theorem laneSum3_apply {g m n : ℕ} (src : FVec Ideal ⟨3, ![g, m, n]⟩ .f32)
    (h : Shape.Reduces ⟨3, ![g, m, n]⟩ [2] ⟨2, ![g, m]⟩) (hφ : FKind.Formats .f32) (hacc : (0x00000000#32 : BitVec 32) = 0x00000000#32)
    (u : Fin g) (r : Fin m) :
    multiReduction .add [2] ⟨2, ![g, m]⟩ src 0x00000000#32 h hφ hacc (ix2 u r) = ∑ k : Fin n, src (ix3 u r k) := by
  refine (Ideal.multiReduction_add_single src 0x00000000#32 h hφ hacc (ix2 u r)).trans ?_
  exact Finset.sum_congr rfl fun k _ => congrArg src (lift_last h u r k)

/-- A [g, m] array cast to [g, m, 1] reads, at (u, r, 0), the operand at (u, r). -/
theorem castCol_apply {α : Type} {g m : ℕ} (x : (⟨2, ![g, m]⟩ : Shape).Idx → α)
    (h : (⟨2, ![g, m]⟩ : Shape).ShapeCasts ⟨3, ![g, m, 1]⟩) (u : Fin g) (r : Fin m) (z : Fin 1) :
    shapeCast ⟨3, ![g, m, 1]⟩ x h (ix3 u r z) = x (ix2 u r) :=
  shapeCast_apply x h _ _ (by
    rw [Shape.rowMajor_val_two, Shape.rowMajor_val_three]
    show u.val * m + r.val = (u.val * m + r.val) * 1 + z.val
    have := z.isLt; omega)

/-- A [g, m, 1] array repeated along its last axis reads, at (u, r, k), the operand at (u, r, 0). -/
theorem spreadLast_apply {α : Type} {g m n : ℕ} (v : (⟨3, ![g, m, 1]⟩ : Shape).Idx → α)
    (h : (⟨3, ![g, m, 1]⟩ : Shape).Broadcasts ⟨3, ![g, m, n]⟩) (u : Fin g) (r : Fin m) (k : Fin n) :
    broadcastTo ⟨3, ![g, m, n]⟩ v h (ix3 u r k) = v (ix3 u r (0 : Fin 1)) := by
  refine broadcastTo_apply v h (ix3 u r k) (ix3 u r (0 : Fin 1)) fun ax => ?_
  match ax with
  | ⟨0, _⟩ =>
    show u.val = if g = 1 then 0 else u.val
    split
    · have := u.isLt; omega
    · rfl
  | ⟨1, _⟩ =>
    show r.val = if m = 1 then 0 else r.val
    split
    · have := r.isLt; omega
    · rfl
  | ⟨2, _⟩ => rfl

/-- The host's maximum along the last axis of a rank-3 array, from an initial value that is −∞: at row (u, r) the
    supremum over the last coordinate. Generic in the extents. -/
theorem hostMax3_apply {g m n : ℕ} (y : (⟨3, ![g, m, n]⟩ : Shape).Idx → EReal) (init : (⟨0, ![]⟩ : Shape).Idx → EReal)
    (h' : Shape.ReducesTo (⟨3, ![g, m, n]⟩ : Shape) [2] (⟨2, ![g, m]⟩ : Shape)) (hu : 0 < (⟨0, ![]⟩ : Shape).numel)
    (hinit : init (Shape.Idx.first hu) = ⊥) (u : Fin g) (r : Fin m) :
    Host.reduce (FloatOps.maximumf (F := Ideal) (φ := .f32)) y init h' hu (ix2 u r)
      = (Finset.univ : Finset (Fin n)).sup (fun k => y (ix3 u r k)) := by
  have red : Shape.Reduces (⟨3, ![g, m, n]⟩ : Shape) [2] (⟨2, ![g, m]⟩ : Shape) := ⟨h'.1, Nat.zero_lt_two, h'.2⟩
  refine (Host.reduce_eq_fold_single (a := (2 : Fin 3)) (FloatOps.maximumf (F := Ideal) (φ := .f32)) y init h' red hu (ix2 u r)).trans ?_
  rw [hinit]
  refine (fold_maximumf_eq_sup _ _).trans ?_
  exact Finset.sup_congr rfl fun k _ => congrArg y (lift_last red u r k)

end Cert.Rank3Ops

end
-- ==== Proof.FlashPay.lean ====
/-
  The attention body's arithmetic read at one entry, at the ideal values. With q, k, v the point's query, key and
  value tiles (512 rows of 1024 features each), m, l, acc the running maximum, denominator and numerator, the body
  computes, for query row r, key row j and feature d:
    s(r, j)   = (Σ_d q(r, d) · k(j, d)) · 2⁻⁵                     the scaled scores of the tile
    m'(r)     = max m(r) (max_j s(r, j))                           the new running maximum
    a(r)      = exp (m(r) − m'(r))                                  the rescaling factor
    p(r, j)   = exp (s(r, j) − m'(r))                               the tile's weights
    l'(r)     = a(r) · l(r) + Σ_j p(r, j)                           the new denominator
    acc'(r,d) = a(r) · acc(r, d) + Σ_j p(r, j) · v(j, d)            the new numerator
  and, at the last key tile, out(r, e) = Σ_d (acc(r, d) / l(r)) · W(e, d). A change of float format is the identity.
-/
import proofs.«164876_j87514253623735_2_alg».proof.Proof.Gen.KernelIdeal.Skeleton
import proofs.«164876_j87514253623735_2_alg».proof.Proof.LibTileOps
import proofs.«164876_j87514253623735_2_alg».proof.Proof.LibCasts3
import proofs.«164876_j87514253623735_2_alg».proof.Proof.LibRank3Ops
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.ValueIdx

namespace Cert.KernelIdeal.Pay

open Cert.KernelIdeal Cert.KernelIdeal.Gen Cert.Rank3Ops

/-! ## The payloads -/

theorem pay9_apply (q kk : Vec Ideal S1x512x1024 .bf16) (r j : Fin 512) :
    (k1_pay9 (F := Ideal) q kk : S1x512x512.Idx → EReal) (ix3 0 r j)
      = (∑ d : Fin 1024, q (ix3 0 r d) * kk (ix3 0 j d)) * Ideal.ofBits .f32 0x3D000000#32 := by
  unfold k1_pay9 dot_S1x512x1024_S1x512x1024_S1x512x512_2_2_1_1_0_0
  show (matmul _ none _ _ _ (ix3 0 r j)) * _ = _
  rw [bmm_nt_apply]
  simp only [shapeCast_self]
  rfl

theorem pay10_apply (q kk : Vec Ideal S1x512x1024 .bf16) (mo : Vec Ideal S1x512x1 .f32) (r : Fin 512) (z : Fin 1) :
    (k1_pay10 (F := Ideal) q kk mo : S1x512x1.Idx → EReal) (ix3 0 r z)
      = max (mo (ix3 0 r z)) ((Finset.univ : Finset (Fin 512)).fold max (Ideal.ofBits .f32 0xFF800000#32) (fun j => k1_pay9 (F := Ideal) q kk (ix3 0 r j))) := by
  unfold k1_pay10
  show max (mo (ix3 0 r z)) (shapeCast S1x512x1 _ _ (ix3 0 r z)) = _
  rw [castCol_apply]
  exact congrArg (max (mo (ix3 0 r z))) (laneMax3_apply _ _ _ _ 0 r)

theorem pay11_apply (q kk : Vec Ideal S1x512x1024 .bf16) (mo mo' : Vec Ideal S1x512x1 .f32) (r : Fin 512) (z : Fin 1) :
    (k1_pay11 (F := Ideal) q kk mo mo' : S1x512x1.Idx → EReal) (ix3 0 r z)
      = Ideal.exp (mo' (ix3 0 r z) - k1_pay10 (F := Ideal) q kk mo (ix3 0 r z)) := rfl

theorem pay12_apply (q kk : Vec Ideal S1x512x1024 .bf16) (mo : Vec Ideal S1x512x1 .f32) (r j : Fin 512) :
    (k1_pay12 (F := Ideal) q kk mo : S1x512x512.Idx → EReal) (ix3 0 r j)
      = Ideal.exp (k1_pay9 (F := Ideal) q kk (ix3 0 r j) - k1_pay10 (F := Ideal) q kk mo (ix3 0 r 0)) := by
  unfold k1_pay12
  show Ideal.exp (k1_pay9 q kk (ix3 0 r j) - broadcastTo S1x512x512 _ _ (ix3 0 r j)) = _
  rw [spreadLast_apply]

theorem pay13_apply (q kk : Vec Ideal S1x512x1024 .bf16) (mo mo' lo : Vec Ideal S1x512x1 .f32) (r : Fin 512) (z : Fin 1) :
    (k1_pay13 (F := Ideal) q kk mo mo' lo : S1x512x1.Idx → EReal) (ix3 0 r z)
      = k1_pay11 (F := Ideal) q kk mo mo' (ix3 0 r z) * lo (ix3 0 r z) + ∑ j : Fin 512, k1_pay12 (F := Ideal) q kk mo (ix3 0 r j) := by
  unfold k1_pay13
  show k1_pay11 q kk mo mo' (ix3 0 r z) * lo (ix3 0 r z) + shapeCast S1x512x1 _ _ (ix3 0 r z) = _
  rw [castCol_apply]
  exact congrArg (k1_pay11 (F := Ideal) q kk mo mo' (ix3 0 r z) * lo (ix3 0 r z) + ·) (laneSum3_apply _ _ _ _ 0 r)

theorem pay2_apply (v8 : FVec Ideal S1x512x1024 .bf16) (a : FVec Ideal S1x512x1 .f32) (p : FVec Ideal S1x512x512 .f32)
    (acc : Vec Ideal S1x512x1024 .f32) (r : Fin 512) (d : Fin 1024) :
    (k1_pay2 (F := Ideal) v8 a p acc : S1x512x1024.Idx → EReal) (ix3 0 r d)
      = a (ix3 0 r 0) * acc (ix3 0 r d) + ∑ j : Fin 512, p (ix3 0 r j) * v8 (ix3 0 j d) := by
  unfold k1_pay2 dot_S1x512x512_S1x512x1024_S1x512x1024_2_1_1_2_0_0
  simp only [shapeCast_self]
  show broadcastTo S1x512x1024 a _ (ix3 0 r d) * acc (ix3 0 r d) + matmul _ none _ _ _ (ix3 0 r d) = _
  rw [spreadLast_apply, bmm_nn_apply]
  rfl

theorem pay4_apply (acc : Vec Ideal S1x512x1024 .f32) (l : Vec Ideal S1x512x1 .f32) (wo : Vec Ideal S1024x1024 .bf16)
    (r : Fin 512) (e : Fin 1024) :
    (k1_pay4 (F := Ideal) acc l wo : S1x512x1024.Idx → EReal) (ix3 0 r e)
      = ∑ d : Fin 1024, Ideal.div (acc (ix3 0 r d)) (l (ix3 0 r 0)) * wo (ix2 e d) := by
  unfold k1_pay4 dot_S512x1024_S1024x1024_S512x1024_1_1_0_0_n_n
  rw [Cert.Casts3.split_apply _ _ (0 : Fin 1) r r (by simp) e]
  refine (Cert.TileOps.matmul_nt_apply _ _ _ r e).trans ?_
  refine Finset.sum_congr rfl fun d _ => ?_
  rw [Cert.Casts3.merge_apply _ _ (0 : Fin 1) r r (by simp) d]
  simp only [shapeCast_self]
  show Ideal.div (acc (ix3 0 r d)) (broadcastTo S1x512x1024 l _ (ix3 0 r d)) * _ = _
  rw [spreadLast_apply]

theorem pay5_apply (r : Fin 512) (z : Fin 1) : (k1_pay5 (F := Ideal) : S1x512x1.Idx → EReal) (ix3 0 r z) = Ideal.ofBits .f32 0xFF800000#32 := by
  unfold k1_pay5; simp only [shapeCast_self]; rfl
theorem pay6_apply (r : Fin 512) (z : Fin 1) : (k1_pay6 (F := Ideal) : S1x512x1.Idx → EReal) (ix3 0 r z) = Ideal.ofBits .f32 0x00000000#32 := by
  unfold k1_pay6; simp only [shapeCast_self]; rfl
theorem pay7_apply (r : Fin 512) (d : Fin 1024) : (k1_pay7 (F := Ideal) : S1x512x1024.Idx → EReal) (ix3 0 r d) = Ideal.ofBits .f32 0x00000000#32 := by
  unfold k1_pay7; simp only [shapeCast_self]; rfl

theorem pay1_eq {F : FTy → Type} [FloatOps F] (v : FVec F S1x512x1 .f32) : k1_pay1 v = v := by unfold k1_pay1; simp only [shapeCast_self]
theorem pay3_eq {F : FTy → Type} [FloatOps F] (v : FVec F S1x512x1 .f32) : k1_pay3 v = v := by unfold k1_pay3; simp only [shapeCast_self]
theorem pay8_eq {F : FTy → Type} [FloatOps F] (v : Vec F S1x512x1024 .bf16) : k1_pay8 v = v := by unfold k1_pay8; simp only [shapeCast_self]

end Cert.KernelIdeal.Pay

end
-- ==== Proof.FlashStep.lean ====
/-
  One grid point of the attention kernel, per query row, as a step of the running-maximum accumulation.

  The 4096 keys are cut into 8 tiles of 512 consecutive keys. If, before the point of key tile j, a row's running
  maximum, denominator and numerator describe the keys of the tiles below j (the maximum of their scores; the sum of
  `exp (score − maximum)`; the same sum weighted by the value column), and the point's tile holds the scores and values
  of the keys of tile j, then the body's new running values describe the keys of the tiles up to j. Before tile 0 the
  description is of no key at all: maximum −∞, both sums 0 — which is what the body writes there.
-/
import proofs.«164876_j87514253623735_2_alg».proof.Proof.FlashPay
import proofs.«164876_j87514253623735_2_alg».proof.Proof.LibAttnLaw

set_option maxRecDepth 16384

noncomputable section

open Idealize.ShloMosaic Idealize.ShloMosaic.ValueIdx OnlineSoftmax AttnLaw

namespace Cert.KernelIdeal.Step

open Cert.KernelIdeal Cert.KernelIdeal.Gen Cert.KernelIdeal.Pay

/-! ## The keys seen after each tile -/

/-- The keys of the tiles below `n`. -/
def seen (n : ℕ) : Finset (Fin 4096) := Finset.univ.filter fun κ => κ.val / 512 < n
/-- The keys of tile `j`. -/
def tile (j : ℕ) : Finset (Fin 4096) := Finset.univ.filter fun κ => κ.val / 512 = j
/-- Key `jj` of tile `j`. -/
def key (j : Fin 8) (jj : Fin 512) : Fin 4096 := ⟨j.val * 512 + jj.val, by have := j.isLt; have := jj.isLt; omega⟩

theorem seen_zero : seen 0 = ∅ := by
  unfold seen; exact Finset.filter_false_of_mem fun κ _ => Nat.not_lt_zero _
theorem seen_succ (n : ℕ) : seen (n + 1) = seen n ∪ tile n := by
  unfold seen tile; ext κ; simp only [Finset.mem_filter, Finset.mem_univ, true_and, Finset.mem_union]; omega
theorem seen_eight : seen 8 = Finset.univ := by
  unfold seen; ext κ; simp only [Finset.mem_filter, Finset.mem_univ, true_and, iff_true]; have := κ.isLt; omega
theorem seen_disjoint (n : ℕ) : Disjoint (seen n) (tile n) := by
  unfold seen tile; rw [Finset.disjoint_filter]; intro κ _ h1 h2; omega
theorem key_injective (j : Fin 8) : Function.Injective (key j) := by
  intro a b h; apply Fin.ext; have := congrArg Fin.val h; unfold key at this; simp only at this; omega
/-- Tile `j` is the image of its 512 positions. -/
theorem tile_eq_map (j : Fin 8) : tile j.val = Finset.univ.map ⟨key j, key_injective j⟩ := by
  unfold tile; ext κ
  simp only [Finset.mem_filter, Finset.mem_univ, true_and, Finset.mem_map, Function.Embedding.coeFn_mk]
  constructor
  · intro h
    refine ⟨⟨κ.val % 512, Nat.mod_lt _ (by norm_num)⟩, ?_⟩
    apply Fin.ext; unfold key; simp only; omega
  · rintro ⟨jj, rfl⟩
    unfold key; simp only; have := jj.isLt; omega
theorem tile_nonempty (j : Fin 8) : (tile j.val).Nonempty := by
  rw [tile_eq_map]; exact Finset.univ_nonempty.map

variable (x : Fin 4096 → ℝ)

/-- A sum over tile `j` as the sum over its 512 positions. -/
theorem sum_tile {M : Type} [AddCommMonoid M] (j : Fin 8) (f : Fin 4096 → M) : ∑ κ ∈ tile j.val, f κ = ∑ jj : Fin 512, f (key j jj) := by
  rw [tile_eq_map, Finset.sum_map]; rfl

theorem runSum_tile (j : Fin 8) (m : EReal) :
    runSum x (tile j.val) m = ∑ jj : Fin 512, Ideal.exp ((x (key j jj) : EReal) - m) := by
  unfold runSum; exact sum_tile j _
theorem runW_tile (w : Fin 4096 → ℝ) (j : Fin 8) (m : EReal) :
    runW x w (tile j.val) m = ∑ jj : Fin 512, Ideal.exp ((x (key j jj) : EReal) - m) * (w (key j jj) : EReal) := by
  unfold runW; exact sum_tile j _
/-- The maximum over tile `j` as the fold of `max` from −∞ over its 512 positions. -/
theorem runMax_tile (j : Fin 8) :
    runMax x (tile j.val) = (Finset.univ : Finset (Fin 512)).fold max (Ideal.ofBits .f32 0xFF800000#32) (fun jj => (x (key j jj) : EReal)) := by
  unfold runMax
  rw [tile_eq_map, Finset.sup_map, ofBits_neg_inf, fold_max_eq_sup]
  rfl

/-! ## The step, per row -/

/-- THE POINT STEP at key tile `j`, for the query row `r` of the point's tiles: from running values describing the
    keys below tile `j` to running values describing the keys up to it. `qb`, `kb`, `vb` are the point's query, key and
    value tiles; `hs` says the tile's scaled scores are the scores `x` of the tile's keys, `hv` that the value tile holds
    the value columns `w d` at the tile's keys. -/
theorem point_step (w : Fin 1024 → Fin 4096 → ℝ) (j : Fin 8) (r : Fin 512)
    (qb kb vb : Vec Ideal S1x512x1024 .bf16) (mo lo : Vec Ideal S1x512x1 .f32) (acc : Vec Ideal S1x512x1024 .f32)
    (hs : ∀ jj : Fin 512, (k1_pay9 (F := Ideal) qb kb : S1x512x512.Idx → EReal) (ix3 0 r jj) = (x (key j jj) : EReal))
    (hv : ∀ (jj : Fin 512) (d : Fin 1024), (vb : S1x512x1024.Idx → EReal) (ix3 0 jj d) = (w d (key j jj) : EReal))
    (hm : (mo : S1x512x1.Idx → EReal) (ix3 0 r 0) = runMax x (seen j.val))
    (hl : (lo : S1x512x1.Idx → EReal) (ix3 0 r 0) = runSum x (seen j.val) (runMax x (seen j.val)))
    (ha : ∀ d : Fin 1024, (acc : S1x512x1024.Idx → EReal) (ix3 0 r d) = runW x (w d) (seen j.val) (runMax x (seen j.val))) :
    (k1_pay3 (k1_pay10 (F := Ideal) qb kb mo) : S1x512x1.Idx → EReal) (ix3 0 r 0) = runMax x (seen (j.val + 1))
    ∧ (k1_pay1 (k1_pay13 (F := Ideal) qb kb mo mo lo) : S1x512x1.Idx → EReal) (ix3 0 r 0)
        = runSum x (seen (j.val + 1)) (runMax x (seen (j.val + 1)))
    ∧ ∀ d : Fin 1024, (k1_pay2 (F := Ideal) (k1_pay8 vb) (k1_pay11 qb kb mo mo) (k1_pay12 qb kb mo) acc : S1x512x1024.Idx → EReal) (ix3 0 r d)
        = runW x (w d) (seen (j.val + 1)) (runMax x (seen (j.val + 1))) := by
  have hmax : (k1_pay10 (F := Ideal) qb kb mo : S1x512x1.Idx → EReal) (ix3 0 r 0) = runMax x (seen (j.val + 1)) := by
    rw [pay10_apply, hm, seen_succ, ← runMax_union, runMax_tile]
    congr 2
    funext jj
    exact hs jj
  have hp : ∀ jj : Fin 512, (k1_pay12 (F := Ideal) qb kb mo : S1x512x512.Idx → EReal) (ix3 0 r jj)
      = Ideal.exp ((x (key j jj) : EReal) - runMax x (seen (j.val + 1))) := by
    intro jj; rw [pay12_apply, hs jj, hmax]
  have hfac : (k1_pay11 (F := Ideal) qb kb mo mo : S1x512x1.Idx → EReal) (ix3 0 r 0)
      = Ideal.exp (runMax x (seen j.val) - runMax x (seen (j.val + 1))) := by
    rw [pay11_apply, hm, hmax]
  refine ⟨?_, ?_, fun d => ?_⟩
  · rw [pay3_eq]; exact hmax
  · rw [pay1_eq, pay13_apply, hfac, hl, Finset.sum_congr rfl fun jj _ => hp jj, ← runSum_tile]
    rw [seen_succ]
    exact lstep x _ _ (seen_disjoint j.val) (tile_nonempty j)
  · rw [pay2_apply, hfac, ha d, pay8_eq,
      Finset.sum_congr rfl fun jj _ => (by rw [hp jj, hv jj d] :
        (k1_pay12 (F := Ideal) qb kb mo : S1x512x512.Idx → EReal) (ix3 0 r jj) * (vb : S1x512x1024.Idx → EReal) (ix3 0 jj d)
          = Ideal.exp ((x (key j jj) : EReal) - runMax x (seen (j.val + 1))) * (w d (key j jj) : EReal)),
      ← runW_tile]
    rw [seen_succ]
    exact wstep x (w d) _ _ (seen_disjoint j.val) (tile_nonempty j)

/-- What the body writes at a first key tile describes no key at all. -/
theorem init_m (r : Fin 512) : (k1_pay5 (F := Ideal) : S1x512x1.Idx → EReal) (ix3 0 r 0) = runMax x (seen (0 : Fin 8).val) := by
  rw [pay5_apply, ofBits_neg_inf]; show ⊥ = runMax x (seen 0); rw [seen_zero, runMax_empty]
theorem init_l (r : Fin 512) : (k1_pay6 (F := Ideal) : S1x512x1.Idx → EReal) (ix3 0 r 0) = runSum x (seen (0 : Fin 8).val) (runMax x (seen (0 : Fin 8).val)) := by
  rw [pay6_apply, ofBits_zero]; show 0 = runSum x (seen 0) _; rw [seen_zero, runSum_empty]
theorem init_a (w : Fin 4096 → ℝ) (r : Fin 512) (d : Fin 1024) :
    (k1_pay7 (F := Ideal) : S1x512x1024.Idx → EReal) (ix3 0 r d) = runW x w (seen (0 : Fin 8).val) (runMax x (seen (0 : Fin 8).val)) := by
  rw [pay7_apply, ofBits_zero]; show 0 = runW x w (seen 0) _; rw [seen_zero, runW_empty]

end Cert.KernelIdeal.Step

end
-- ==== Proof.FlashValue.lean ====
/-
  What the attention region leaves in the result array, at the ideal values, when the query, key and value arrays it
  finds hold real numbers. Along the eight points of one (batch, query tile) the three running buffers hold, for each
  query row, the maximum, the sum of exponentials and the value-weighted sum over the keys of the tiles seen so far
  (by induction on the point, each point one step of the accumulation); after the last key tile they describe all
  4096 keys, and the block written back is their quotient times the transposed output weights. The 4 x 8 written
  blocks tile the result array.
-/
import proofs.«164876_j87514253623735_2_alg».proof.Proof.FlashPieces
import proofs.«164876_j87514253623735_2_alg».proof.Proof.FlashStep
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx OnlineSoftmax AttnLaw
open Idealize.ShloMosaic.Pipeline (Dat)

namespace Cert.KernelIdeal.Val

open Cert.KernelIdeal Cert.KernelIdeal.Gen Cert.KernelIdeal.Frm Cert.KernelIdeal.Pay Cert.KernelIdeal.Step

/-! ## The specification -/

/-- The scaled score of query position `s` against key position `κ` in batch `b`. -/
def scoreR (q4 k4 : S4x4096x1024.Idx → ℝ) (b : Fin 4) (s κ : Fin 4096) : ℝ :=
  (∑ d : Fin 1024, q4 (ix3 b s d) * k4 (ix3 b κ d)) * (1 / 32)
/-- Feature `d` of the value rows of batch `b`, by key position. -/
def valR (v4 : S4x4096x1024.Idx → ℝ) (b : Fin 4) (d : Fin 1024) (κ : Fin 4096) : ℝ := v4 (ix3 b κ d)

/-- Attention followed by the output projection: for each query position the value-weighted sum of exponentials over
    all keys divided by their sum, both at the row's maximum, times the transposed output weights. -/
def Gattn (q4 k4 v4 : S4x4096x1024.Idx → ℝ) (Wo : S1024x1024.Idx → EReal) : S4x4096x1024.Idx → EReal := fun i =>
  ∑ d : Fin 1024,
    Ideal.div (runW (scoreR q4 k4 (i 0) (i 1)) (valR v4 (i 0) d) Finset.univ (runMax (scoreR q4 k4 (i 0) (i 1)) Finset.univ))
      (runSum (scoreR q4 k4 (i 0) (i 1)) Finset.univ (runMax (scoreR q4 k4 (i 0) (i 1)) Finset.univ)) * Wo (ix2 (i 2) d)

section
variable (V : (c : Dev nD) → (b : Ref sig .tc) → Buf (Elt Ideal) ((c : Thread nD τ).loc b)) (c : Dev nD)
variable (q4 k4 v4 : S4x4096x1024.Idx → ℝ)

/-- The printed index maps over the grid: a point `t` is batch `t / 64`, query tile `t / 8 % 8`, key tile `t % 8`. -/
theorem idx_facts1 : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = t.val % 8 ∧ win1_1.index t (2 : Fin 3) = 0
    ∧ win1_2.index t (0 : Fin 3) = t.val / 64 ∧ win1_2.index t (1 : Fin 3) = t.val % 8 ∧ win1_2.index t (2 : Fin 3) = 0
    ∧ win1_3.index t (0 : Fin 2) = 0 ∧ win1_3.index t (1 : Fin 2) = 0
    ∧ win1_4.index t (0 : Fin 3) = t.val / 64 ∧ win1_4.index t (1 : Fin 3) = t.val / 8 % 8 ∧ win1_4.index t (2 : Fin 3) = 0 :=
  (by decide +kernel : ∀ t : Fin grid1.N, _)

/-- The query window's block at point `t`. -/
theorem iblk1_0_apply (t : Fin cfg1.N) (r : Fin 512) (d : Fin 1024) (B : Fin 4) (S : Fin 4096)
    (hB : B.val = t.val / 64) (hS : S.val = t.val / 8 % 8 * 512 + r.val) :
    (iblk1 V c 0 t : Vec Ideal S1x512x1024 .bf16) (ix3 0 r d) = (V c main_v4 : S4x4096x1024.Idx → EReal) (ix3 B S d) := by
  obtain ⟨e0, e1, e2, -⟩ := idx_facts1 t
  unfold iblk1
  rw [View.read_apply]
  show V c main_v4 _ = V c main_v4 _
  congr 1
  funext a; apply Fin.ext
  match a with
  | ⟨0, _⟩ => show win1_0.index t (0 : Fin 3) * 1 + 1 * ((0 : Fin 1) : ℕ) = B.val; rw [e0, hB]; simp
  | ⟨1, _⟩ => show win1_0.index t (1 : Fin 3) * 512 + 1 * r.val = S.val; rw [e1, hS]; omega
  | ⟨2, _⟩ => show win1_0.index t (2 : Fin 3) * 1024 + 1 * d.val = d.val; rw [e2]; omega

/-- The key window's block at point `t`. -/
theorem iblk1_1_apply (t : Fin cfg1.N) (jj : Fin 512) (d : Fin 1024) (B : Fin 4) (K : Fin 4096)
    (hB : B.val = t.val / 64) (hK : K.val = t.val % 8 * 512 + jj.val) :
    (iblk1 V c 1 t : Vec Ideal S1x512x1024 .bf16) (ix3 0 jj d) = (V c main_v5 : S4x4096x1024.Idx → EReal) (ix3 B K d) := by
  obtain ⟨-, -, -, e0, e1, e2, -⟩ := idx_facts1 t
  unfold iblk1
  rw [View.read_apply]
  show V c main_v5 _ = V c main_v5 _
  congr 1
  funext a; apply Fin.ext
  match a with
  | ⟨0, _⟩ => show win1_1.index t (0 : Fin 3) * 1 + 1 * ((0 : Fin 1) : ℕ) = B.val; rw [e0, hB]; simp
  | ⟨1, _⟩ => show win1_1.index t (1 : Fin 3) * 512 + 1 * jj.val = K.val; rw [e1, hK]; omega
  | ⟨2, _⟩ => show win1_1.index t (2 : Fin 3) * 1024 + 1 * d.val = d.val; rw [e2]; omega

/-- The value window's block at point `t`. -/
theorem iblk1_2_apply (t : Fin cfg1.N) (jj : Fin 512) (d : Fin 1024) (B : Fin 4) (K : Fin 4096)
    (hB : B.val = t.val / 64) (hK : K.val = t.val % 8 * 512 + jj.val) :
    (iblk1 V c 2 t : Vec Ideal S1x512x1024 .bf16) (ix3 0 jj d) = (V c main_v6 : S4x4096x1024.Idx → EReal) (ix3 B K d) := by
  obtain ⟨-, -, -, -, -, -, e0, e1, e2, -⟩ := idx_facts1 t
  unfold iblk1
  rw [View.read_apply]
  show V c main_v6 _ = V c main_v6 _
  congr 1
  funext a; apply Fin.ext
  match a with
  | ⟨0, _⟩ => show win1_2.index t (0 : Fin 3) * 1 + 1 * ((0 : Fin 1) : ℕ) = B.val; rw [e0, hB]; simp
  | ⟨1, _⟩ => show win1_2.index t (1 : Fin 3) * 512 + 1 * jj.val = K.val; rw [e1, hK]; omega
  | ⟨2, _⟩ => show win1_2.index t (2 : Fin 3) * 1024 + 1 * d.val = d.val; rw [e2]; omega

/-- The output weights' window holds the whole matrix at every point. -/
theorem iblk1_3_apply (t : Fin cfg1.N) (e d : Fin 1024) :
    (iblk1 V c 3 t : Vec Ideal S1024x1024 .bf16) (ix2 e d) = (V c main_v1 : S1024x1024.Idx → EReal) (ix2 e d) := by
  obtain ⟨-, -, -, -, -, -, -, -, -, e0, e1, -⟩ := idx_facts1 t
  unfold iblk1
  rw [View.read_apply]
  show V c main_v1 _ = V c main_v1 _
  congr 1
  funext a; apply Fin.ext
  match a with
  | ⟨0, _⟩ => show win1_3.index t (0 : Fin 2) * 1024 + 1 * e.val = e.val; rw [e0]; omega
  | ⟨1, _⟩ => show win1_3.index t (1 : Fin 2) * 1024 + 1 * d.val = d.val; rw [e1]; omega

variable (hq : ∀ i, (V c main_v4 : S4x4096x1024.Idx → EReal) i = (q4 i : EReal))
  (hk : ∀ i, (V c main_v5 : S4x4096x1024.Idx → EReal) i = (k4 i : EReal))
  (hv : ∀ i, (V c main_v6 : S4x4096x1024.Idx → EReal) i = (v4 i : EReal))

include hq hk in
/-- The point's tile of scaled scores holds the scores of the tile's keys. -/
theorem tile_score (t : Fin cfg1.N) (r jj : Fin 512) (B : Fin 4) (S : Fin 4096) (j : Fin 8)
    (hB : B.val = t.val / 64) (hS : S.val = t.val / 8 % 8 * 512 + r.val) (hj : j.val = t.val % 8) :
    (k1_pay9 (F := Ideal) (iblk1 V c 0 t) (iblk1 V c 1 t) : S1x512x512.Idx → EReal) (ix3 0 r jj)
      = ((scoreR q4 k4 B S (key j jj) : ℝ) : EReal) := by
  rw [pay9_apply, ofBits_inv32]
  unfold scoreR
  rw [EReal.coe_mul, OnlineSoftmax.coe_sum]
  congr 1
  refine Finset.sum_congr rfl fun d _ => ?_
  rw [iblk1_0_apply V c t r d B S hB hS, iblk1_1_apply V c t jj d B (key j jj) hB (by unfold key; simp only; rw [hj]), hq, hk,
    EReal.coe_mul]

include hv in
/-- The point's value tile holds the value rows of the tile's keys. -/
theorem tile_val (t : Fin cfg1.N) (jj : Fin 512) (d : Fin 1024) (B : Fin 4) (j : Fin 8)
    (hB : B.val = t.val / 64) (hj : j.val = t.val % 8) :
    (iblk1 V c 2 t : Vec Ideal S1x512x1024 .bf16) (ix3 0 jj d) = ((valR v4 B d (key j jj) : ℝ) : EReal) := by
  rw [iblk1_2_apply V c t jj d B (key j jj) hB (by unfold key; simp only; rw [hj]), hv]
  rfl

set_option maxRecDepth 65536 in
include hq hk hv in
/-- THE INVARIANT: after the point at position `n` — batch `n / 64`, query tile `n / 8 % 8`, key tile `n % 8` — the
    three running buffers describe, for each query row, the keys of the tiles up to `n % 8`. -/
theorem inv : ∀ (n : ℕ) (hn : n < cfg1.N) (r : Fin 512) (B : Fin 4) (S : Fin 4096), B.val = n / 64 → S.val = n / 8 % 8 * 512 + r.val →
    ((outsAt1 V c n hn).2.1 : S1x512x1.Idx → EReal) (ix3 0 r 0) = runMax (scoreR q4 k4 B S) (seen (n % 8 + 1))
    ∧ ((outsAt1 V c n hn).2.2.1 : S1x512x1.Idx → EReal) (ix3 0 r 0)
        = runSum (scoreR q4 k4 B S) (seen (n % 8 + 1)) (runMax (scoreR q4 k4 B S) (seen (n % 8 + 1)))
    ∧ ∀ d : Fin 1024, ((outsAt1 V c n hn).2.2.2 : S1x512x1024.Idx → EReal) (ix3 0 r d)
        = runW (scoreR q4 k4 B S) (valR v4 B d) (seen (n % 8 + 1)) (runMax (scoreR q4 k4 B S) (seen (n % 8 + 1))) := by
  intro n
  induction n using Nat.strong_induction_on with
  | _ n ih =>
    intro hn r B S hB hS
    have hN : n < 256 := lt_of_lt_of_eq hn (show cfg1.N = 256 from N_1)
    by_cases h0 : n % 8 = 0
    · have h1 : ¬n % 8 = 7 := by omega
      rw [show outsAt1 V c n hn = stepA V c ⟨n, hn⟩ h0 h1 from outsAt1_A V c ⟨n, hn⟩ h0 h1]
      unfold stepA; dsimp only
      rw [soutA_0_eq (F := Ideal), soutA_1_eq (F := Ideal), soutA_2_eq (F := Ideal)]
      exact point_step (scoreR q4 k4 B S) (valR v4 B) ⟨n % 8, Nat.mod_lt _ (by norm_num)⟩ r
        (iblk1 V c 0 ⟨n, hn⟩) (iblk1 V c 1 ⟨n, hn⟩) (iblk1 V c 2 ⟨n, hn⟩) (k1_pay5 (F := Ideal)) (k1_pay6 (F := Ideal)) (k1_pay7 (F := Ideal))
        (fun jj => tile_score V c q4 k4 hq hk ⟨n, hn⟩ r jj B S _ hB hS rfl)
        (fun jj d => tile_val V c v4 hv ⟨n, hn⟩ jj d B _ hB rfl)
        (by show _ = runMax _ (seen (n % 8)); rw [h0]; exact init_m _ r)
        (by show _ = runSum _ (seen (n % 8)) (runMax _ (seen (n % 8))); rw [h0]; exact init_l _ r)
        (fun d => by show _ = runW _ _ (seen (n % 8)) (runMax _ (seen (n % 8))); rw [h0]; exact init_a _ _ r d)
    · have hpos : 0 < n := by omega
      have hlt : n - 1 < cfg1.N := lt_of_le_of_lt (Nat.sub_le _ _) hn
      obtain ⟨pm, pl, pa⟩ := ih (n - 1) (by omega) hlt r B S (by omega) (by omega)
      have e : (n - 1) % 8 + 1 = n % 8 := by omega
      rw [e] at pm pl pa
      by_cases h1 : n % 8 = 7
      · rw [show outsAt1 V c n hn = stepC V c ⟨n, hn⟩ h0 h1 (outsAt1 V c (n - 1) hlt) from outsAt1_C V c ⟨n, hn⟩ h0 h1]
        unfold stepC; dsimp only
        rw [soutC_0_eq (F := Ideal), soutC_1_eq (F := Ideal), soutC_2_eq (F := Ideal)]
        exact point_step (scoreR q4 k4 B S) (valR v4 B) ⟨n % 8, Nat.mod_lt _ (by norm_num)⟩ r
          (iblk1 V c 0 ⟨n, hn⟩) (iblk1 V c 1 ⟨n, hn⟩) (iblk1 V c 2 ⟨n, hn⟩) _ _ _
          (fun jj => tile_score V c q4 k4 hq hk ⟨n, hn⟩ r jj B S _ hB hS rfl)
          (fun jj d => tile_val V c v4 hv ⟨n, hn⟩ jj d B _ hB rfl) pm pl pa
      · rw [show outsAt1 V c n hn = stepB V c ⟨n, hn⟩ h0 h1 (outsAt1 V c (n - 1) hlt) from outsAt1_B V c ⟨n, hn⟩ h0 h1]
        unfold stepB; dsimp only
        rw [soutB_0_eq (F := Ideal), soutB_1_eq (F := Ideal), soutB_2_eq (F := Ideal)]
        exact point_step (scoreR q4 k4 B S) (valR v4 B) ⟨n % 8, Nat.mod_lt _ (by norm_num)⟩ r
          (iblk1 V c 0 ⟨n, hn⟩) (iblk1 V c 1 ⟨n, hn⟩) (iblk1 V c 2 ⟨n, hn⟩) _ _ _
          (fun jj => tile_score V c q4 k4 hq hk ⟨n, hn⟩ r jj B S _ hB hS rfl)
          (fun jj d => tile_val V c v4 hv ⟨n, hn⟩ jj d B _ hB rfl) pm pl pa

/-- At a last key tile the output block is the quotient of the just-stored numerator by the just-stored
    denominator, times the transposed output weights. -/
theorem out_last (t : Fin cfg1.N) (h7 : t.val % 8 = 7) :
    (outsAt1 V c t.val t.isLt).1
      = k1_pay4 (F := Ideal) (outsAt1 V c t.val t.isLt).2.2.2 (outsAt1 V c t.val t.isLt).2.2.1 (iblk1 V c 3 t) := by
  rw [outsAt1_C V c t (by omega) h7]
  unfold stepC; dsimp only
  rw [outC_4_eq (F := Ideal), soutC_2_eq (F := Ideal), soutC_1_eq (F := Ideal)]

/-- The output block of point `t`, read at (0, r, e), sits at batch `t / 64`, position `512 (t / 8 % 8) + r`. -/
theorem embO_eq (t : Fin cfg1.N) (r : Fin 512) (e : Fin 1024) (B : Fin 4) (S : Fin 4096)
    (hB : B.val = t.val / 64) (hS : S.val = t.val / 8 % 8 * 512 + r.val) :
    ((cfg1.win 4).blk t).view.emb (ix3 (0 : Fin 1) r e) = (ix3 B S e : S4x4096x1024.Idx) := by
  obtain ⟨-, -, -, -, -, -, -, -, -, -, -, e0, e1, e2⟩ := idx_facts1 t
  funext a; apply Fin.ext
  match a with
  | ⟨0, _⟩ => show win1_4.index t (0 : Fin 3) * 1 + 1 * ((0 : Fin 1) : ℕ) = B.val; rw [e0, hB]; simp
  | ⟨1, _⟩ => show win1_4.index t (1 : Fin 3) * 512 + 1 * r.val = S.val; rw [e1, hS]; omega
  | ⟨2, _⟩ => show win1_4.index t (2 : Fin 3) * 1024 + 1 * e.val = e.val; rw [e2]; omega

include hq hk hv in
/-- What a last-key-tile point writes back is its block of the specification. -/
theorem flushedO_eq (t : Fin cfg1.N) (hf : (cfg1.win 4).flush t = true) :
    (dat1 V c).flushed 4 t = ((cfg1.win 4).blk t).view.read (Elt Ideal) (Gattn q4 k4 v4 (V c main_v1)) := by
  have h7 : t.val % 8 = 7 := (flush1_4 t).mp hf
  have hN : t.val < 256 := lt_of_lt_of_eq t.isLt (show cfg1.N = 256 from N_1)
  show (cfg1.win 4).cut (grid1.coords t) ((dat1 V c).after 4 t) = _
  rw [after1_4, out_last V c t h7]
  funext jx
  obtain ⟨z, r, e, rfl⟩ : ∃ (z : Fin 1) (r : Fin 512) (e : Fin 1024), jx = ix3 z r e := ⟨jx 0, jx 1, jx 2, eq_ix3 jx⟩
  obtain rfl : z = 0 := Subsingleton.elim _ _
  have hr : r.val < 512 := r.isLt
  obtain ⟨-, hl', ha'⟩ := inv V c q4 k4 v4 hq hk hv t.val t.isLt r ⟨t.val / 64, by omega⟩ ⟨t.val / 8 % 8 * 512 + r.val, by omega⟩ rfl rfl
  rw [View.read_apply, embO_eq t r e ⟨t.val / 64, by omega⟩ ⟨t.val / 8 % 8 * 512 + r.val, by omega⟩ rfl rfl]
  show (k1_pay4 (F := Ideal) (outsAt1 V c t.val t.isLt).2.2.2 (outsAt1 V c t.val t.isLt).2.2.1 (iblk1 V c 3 t) : S1x512x1024.Idx → EReal) (ix3 0 r e) = _
  rw [pay4_apply]
  unfold Gattn
  refine Finset.sum_congr rfl fun d _ => ?_
  rw [ha' d, hl', h7, show (7 : ℕ) + 1 = 8 from rfl, seen_eight, iblk1_3_apply]

/-- An index is in point `t`'s output block iff each coordinate is in the block's range. -/
theorem mem_blkO (t : Fin cfg1.N) (i : S4x4096x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v7).slice (win1_4.rect t)).set ↔ _
  rw [View.set_slice_whole, Rect.mem_set_unit]
  exact Iff.rfl

/-- Every position of the result array is in the block some last-key-tile point writes back. -/
theorem coverO (i : S4x4096x1024.Idx) : ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 1024 := (i 2).isLt
  have hT : (i 0).val * 64 + (i 1).val / 512 * 8 + 7 < cfg1.N := by rw [show cfg1.N = 256 from N_1]; omega
  obtain ⟨-, -, -, -, -, -, -, -, -, -, -, e0, e1, e2⟩ := idx_facts1 ⟨(i 0).val * 64 + (i 1).val / 512 * 8 + 7, hT⟩
  have f0 : win1_4.index ⟨(i 0).val * 64 + (i 1).val / 512 * 8 + 7, hT⟩ (0 : Fin 3) = ((i 0).val * 64 + (i 1).val / 512 * 8 + 7) / 64 := e0
  have f1 : win1_4.index ⟨(i 0).val * 64 + (i 1).val / 512 * 8 + 7, hT⟩ (1 : Fin 3) = ((i 0).val * 64 + (i 1).val / 512 * 8 + 7) / 8 % 8 := e1
  have f2 : win1_4.index ⟨(i 0).val * 64 + (i 1).val / 512 * 8 + 7, hT⟩ (2 : Fin 3) = 0 := e2
  refine ⟨⟨(i 0).val * 64 + (i 1).val / 512 * 8 + 7, hT⟩, (flush1_4 _).mpr (by show ((i 0).val * 64 + (i 1).val / 512 * 8 + 7) % 8 = 7; omega), ?_⟩
  rw [mem_blkO]
  intro a
  match a with
  | ⟨0, _⟩ => show win1_4.index ⟨(i 0).val * 64 + (i 1).val / 512 * 8 + 7, hT⟩ (0 : Fin 3) * 1 ≤ (i 0).val ∧ (i 0).val < win1_4.index ⟨(i 0).val * 64 + (i 1).val / 512 * 8 + 7, hT⟩ (0 : Fin 3) * 1 + 1
              rw [f0]; omega
  | ⟨1, _⟩ => show win1_4.index ⟨(i 0).val * 64 + (i 1).val / 512 * 8 + 7, hT⟩ (1 : Fin 3) * 512 ≤ (i 1).val ∧ (i 1).val < win1_4.index ⟨(i 0).val * 64 + (i 1).val / 512 * 8 + 7, hT⟩ (1 : Fin 3) * 512 + 512
              rw [f1]; omega
  | ⟨2, _⟩ => show win1_4.index ⟨(i 0).val * 64 + (i 1).val / 512 * 8 + 7, hT⟩ (2 : Fin 3) * 1024 ≤ (i 2).val ∧ (i 2).val < win1_4.index ⟨(i 0).val * 64 + (i 1).val / 512 * 8 + 7, hT⟩ (2 : Fin 3) * 1024 + 1024
              rw [f2]; omega

include hq hk hv in
/-- THE RESULT ARRAY after the region: the specification of the arrays the region found. -/
theorem finalO : (dat1 V c).arrAt 4 cfg1.N = Gattn q4 k4 v4 (V c main_v1) :=
  (dat1 V c).arrAt_eq_of_cover 4 (Gattn q4 k4 v4 (V c main_v1)) (fun t hf => flushedO_eq V c q4 k4 v4 hq hk hv t hf) coverO

end

end Cert.KernelIdeal.Val

end
-- ==== Proof.KernelValue.lean ====
/-
  The kernel program's result as a function of its arguments, at the ideal values. The host operations around the
  regions only re-lay data: the input flattened to 16384 rows and the projections' outputs cut back to (batch,
  position, feature) keep every element at its row-major position, and the weights' change of format is the identity.
  So the arrays the attention region finds are the three projections of the input by the three thirds of the stacked
  weight matrix, and the output weights as given; when the arguments hold real numbers so do the projections, and the
  result array is the attention specification of them.
-/
import proofs.«164876_j87514253623735_2_alg».proof.Proof.FrameRun
import proofs.«164876_j87514253623735_2_alg».proof.Proof.QkvValue
import proofs.«164876_j87514253623735_2_alg».proof.Proof.FlashValue
import proofs.«164876_j87514253623735_2_alg».proof.Proof.LibCasts3
import Idealize.ShloMosaic.Lib.StableHlo.Run

set_option maxRecDepth 16384

noncomputable section

open Idealize.ShloMosaic Idealize.ShloMosaic.TcCoe Idealize.SL.Sem Idealize.ShloMosaic.ValueIdx OnlineSoftmax AttnLaw
open Idealize.ShloMosaic.StableHlo
open Idealize.ShloMosaic.Pipeline (Dat)

namespace Cert.KernelIdeal.Val

open Cert.KernelIdeal Cert.KernelIdeal.Gen Cert.KernelIdeal.Frm

/-- Projection `k` (query, key, value) of an input by the stacked weight matrix. -/
def projK (k : Fin 3) (X : S4x4096x1024.Idx → EReal) (W : S3072x1024.Idx → EReal) : S4x4096x1024.Idx → EReal :=
  fun i => ∑ d : Fin 1024, X (ix3 (i 0) (i 1) d) * W (ix2 (wrow k (i 2)) d)
/-- The same over the reals. -/
def projR (k : Fin 3) (x : S4x4096x1024.Idx → ℝ) (w : S3072x1024.Idx → ℝ) : S4x4096x1024.Idx → ℝ :=
  fun i => ∑ d : Fin 1024, x (ix3 (i 0) (i 1) d) * w (ix2 (wrow k (i 2)) d)

/-- A projection of real data is real. -/
theorem projK_coe (k : Fin 3) (x : S4x4096x1024.Idx → ℝ) (w : S3072x1024.Idx → ℝ) (i : S4x4096x1024.Idx) :
    projK k (fun j => (x j : EReal)) (fun j => (w j : EReal)) i = ((projR k x w i : ℝ) : EReal) := by
  unfold projK projR
  rw [OnlineSoftmax.coe_sum]
  exact Finset.sum_congr rfl fun d _ => (EReal.coe_mul _ _).symm

section
variable (m : (ℓ : Loc nD τ sig) → Buf (Elt Ideal) ℓ) (ρ : Dev nD → PrngReg) (c : Dev nD)

/-- The three arguments on core `c`. -/
abbrev argX : S4x4096x1024.Idx → EReal := m ((c : Thread nD τ).loc main_arg0)
abbrev argW : S3072x1024.Idx → EReal := m ((c : Thread nD τ).loc main_arg1)
abbrev argO : S1024x1024.Idx → EReal := m ((c : Thread nD τ).loc main_arg2)

/-! ## The host stages before the projection region -/

theorem V1_v2 : (V1 m ρ c main_v2 : S16384x1024.Idx → EReal) = shapeCast S16384x1024 (argX m c) shapeCasts_S4x4096x1024_S16384x1024 := by
  show StableHlo.after hostOps0 (W0 m ρ c) (Proc.devRef .tc main_v2) = _
  after_results
  rfl
theorem V1_v0 : (V1 m ρ c main_v0 : S3072x1024.Idx → EReal) = argW m c := by
  show StableHlo.after hostOps0 (W0 m ρ c) (Proc.devRef .tc main_v0) = _
  after_results
  rfl
theorem V1_v1 : (V1 m ρ c main_v1 : S1024x1024.Idx → EReal) = argO m c := by
  show StableHlo.after hostOps0 (W0 m ρ c) (Proc.devRef .tc main_v1) = _
  after_results
  rfl

/-! ## The host stages between the regions -/

theorem V3_main_v4 : (V3 m ρ c main_v4 : S4x4096x1024.Idx → EReal)
    = shapeCast S4x4096x1024 (W2 m ρ c (Proc.devRef .tc main_v3_0) : S16384x1024.Idx → EReal) shapeCasts_S16384x1024_S4x4096x1024 := by
  show StableHlo.after hostOps1 (W2 m ρ c) (Proc.devRef .tc main_v4) = _
  after_results
  rfl

/-- The array the attention region finds there is projection 0 of the arguments. -/
theorem V3_main_v4_eq : (V3 m ρ c main_v4 : S4x4096x1024.Idx → EReal) = projK 0 (argX m c) (argW m c) := by
  rw [V3_main_v4, show W2 m ρ c (Proc.devRef .tc main_v3_0) = (dat0 (V1 m ρ) c).arrAt 2 cfg0.N from W2_arr m ρ c 2, final2]
  show (shapeCast S4x4096x1024 (Gq 0 (V1 m ρ c main_v2) (V1 m ρ c main_v0)) shapeCasts_S16384x1024_S4x4096x1024 : S4x4096x1024.Idx → EReal) = projK 0 (argX m c) (argW m c)
  funext i
  obtain ⟨b, s, e, rfl⟩ : ∃ (b : Fin 4) (s : Fin 4096) (e : Fin 1024), i = ix3 b s e := ⟨i 0, i 1, i 2, eq_ix3 i⟩
  have hb := b.isLt
  have hs := s.isLt
  rw [Cert.Casts3.split_apply _ _ b s ⟨b.val * 4096 + s.val, by omega⟩ rfl e]
  unfold Gq projK
  refine Finset.sum_congr rfl fun d _ => ?_
  rw [V1_v2, V1_v0, Cert.Casts3.merge_apply _ _ b s ⟨b.val * 4096 + s.val, by omega⟩ rfl d]

theorem V3_main_v5 : (V3 m ρ c main_v5 : S4x4096x1024.Idx → EReal)
    = shapeCast S4x4096x1024 (W2 m ρ c (Proc.devRef .tc main_v3_1) : S16384x1024.Idx → EReal) shapeCasts_S16384x1024_S4x4096x1024 := by
  show StableHlo.after hostOps1 (W2 m ρ c) (Proc.devRef .tc main_v5) = _
  after_results
  rfl

/-- The array the attention region finds there is projection 1 of the arguments. -/
theorem V3_main_v5_eq : (V3 m ρ c main_v5 : S4x4096x1024.Idx → EReal) = projK 1 (argX m c) (argW m c) := by
  rw [V3_main_v5, show W2 m ρ c (Proc.devRef .tc main_v3_1) = (dat0 (V1 m ρ) c).arrAt 3 cfg0.N from W2_arr m ρ c 3, final3]
  show (shapeCast S4x4096x1024 (Gq 1 (V1 m ρ c main_v2) (V1 m ρ c main_v0)) shapeCasts_S16384x1024_S4x4096x1024 : S4x4096x1024.Idx → EReal) = projK 1 (argX m c) (argW m c)
  funext i
  obtain ⟨b, s, e, rfl⟩ : ∃ (b : Fin 4) (s : Fin 4096) (e : Fin 1024), i = ix3 b s e := ⟨i 0, i 1, i 2, eq_ix3 i⟩
  have hb := b.isLt
  have hs := s.isLt
  rw [Cert.Casts3.split_apply _ _ b s ⟨b.val * 4096 + s.val, by omega⟩ rfl e]
  unfold Gq projK
  refine Finset.sum_congr rfl fun d _ => ?_
  rw [V1_v2, V1_v0, Cert.Casts3.merge_apply _ _ b s ⟨b.val * 4096 + s.val, by omega⟩ rfl d]

theorem V3_main_v6 : (V3 m ρ c main_v6 : S4x4096x1024.Idx → EReal)
    = shapeCast S4x4096x1024 (W2 m ρ c (Proc.devRef .tc main_v3_2) : S16384x1024.Idx → EReal) shapeCasts_S16384x1024_S4x4096x1024 := by
  show StableHlo.after hostOps1 (W2 m ρ c) (Proc.devRef .tc main_v6) = _
  after_results
  rfl

/-- The array the attention region finds there is projection 2 of the arguments. -/
theorem V3_main_v6_eq : (V3 m ρ c main_v6 : S4x4096x1024.Idx → EReal) = projK 2 (argX m c) (argW m c) := by
  rw [V3_main_v6, show W2 m ρ c (Proc.devRef .tc main_v3_2) = (dat0 (V1 m ρ) c).arrAt 4 cfg0.N from W2_arr m ρ c 4, final4]
  show (shapeCast S4x4096x1024 (Gq 2 (V1 m ρ c main_v2) (V1 m ρ c main_v0)) shapeCasts_S16384x1024_S4x4096x1024 : S4x4096x1024.Idx → EReal) = projK 2 (argX m c) (argW m c)
  funext i
  obtain ⟨b, s, e, rfl⟩ : ∃ (b : Fin 4) (s : Fin 4096) (e : Fin 1024), i = ix3 b s e := ⟨i 0, i 1, i 2, eq_ix3 i⟩
  have hb := b.isLt
  have hs := s.isLt
  rw [Cert.Casts3.split_apply _ _ b s ⟨b.val * 4096 + s.val, by omega⟩ rfl e]
  unfold Gq projK
  refine Finset.sum_congr rfl fun d _ => ?_
  rw [V1_v2, V1_v0, Cert.Casts3.merge_apply _ _ b s ⟨b.val * 4096 + s.val, by omega⟩ rfl d]

/-- The output weights reach the attention region as given. -/
theorem V3_main_v1 : (V3 m ρ c main_v1 : S1024x1024.Idx → EReal) = argO m c := by
  have h : V3 m ρ c main_v1 = W2 m ρ c (Proc.devRef .tc main_v1) := by
    show StableHlo.after hostOps1 (W2 m ρ c) (Proc.devRef .tc main_v1) = _
    after_results
  rw [h, W2_of_ne m ρ c main_v1 (by decide)]
  exact V1_v1 m ρ c

/-! ## The result -/

/-- THE KERNEL'S RESULT: when the input and the stacked weights hold the real numbers `x`, `wq`, the result array is
    the attention specification of their three projections and the output weights. -/
theorem kernel_result (x : S4x4096x1024.Idx → ℝ) (wq : S3072x1024.Idx → ℝ)
    (hx : ∀ i, argX m c i = (x i : EReal)) (hw : ∀ i, argW m c i = (wq i : EReal)) :
    (dat1 (V3 m ρ) c).arrAt 4 cfg1.N = Gattn (projR 0 x wq) (projR 1 x wq) (projR 2 x wq) (argO m c) := by
  have hX : argX m c = fun j => (x j : EReal) := funext hx
  have hW : argW m c = fun j => (wq j : EReal) := funext hw
  rw [finalO (V3 m ρ) c (projR 0 x wq) (projR 1 x wq) (projR 2 x wq)
    (fun i => by rw [V3_main_v4_eq, hX, hW]; exact projK_coe 0 x wq i)
    (fun i => by rw [V3_main_v5_eq, hX, hW]; exact projK_coe 1 x wq i)
    (fun i => by rw [V3_main_v6_eq, hX, hW]; exact projK_coe 2 x wq i), V3_main_v1]

end

end Cert.KernelIdeal.Val

end
-- ==== Proof.RefValue.lean ====
/-
  The reference's result as a function of its arguments, at the ideal values, when the input and the stacked weights
  hold real numbers: stage by stage, its three slices are the three projections; its scale `1 / sqrt 1024` is `2⁻⁵`;
  its scores are the real scores; the row maximum it subtracts (joined with −∞, which changes nothing) is the maximum
  over all keys; the exponentials' row sum is the denominator; the normalised weights times the values sum — a positive
  real factor moved inside a finite real sum — to the value-weighted sum divided by the denominator; and the last
  product is the output projection. That is the attention specification the kernel program's result meets.
-/
import proofs.«164876_j87514253623735_2_alg».proof.Proof.KernelValue
import proofs.«164876_j87514253623735_2_alg».proof.Proof.Gen.ReferenceIdeal.Read
import Idealize.ShloMosaic.PureOps.Reduce

set_option maxRecDepth 16384

noncomputable section

open Idealize.ShloMosaic Idealize.ShloMosaic.ValueIdx OnlineSoftmax AttnLaw

namespace Cert.ReferenceIdeal.RefValue

open Cert.ReferenceIdeal Cert.ReferenceIdeal.Gen Cert.ReferenceIdeal.Read
open Cert.KernelIdeal.Val (projK projR scoreR valR Gattn wrow projK_coe)

section
variable (X : S4x4096x1024.Idx → EReal) (W : S3072x1024.Idx → EReal) (Wo : S1024x1024.Idx → EReal)

/-! ## The projections -/

theorem v1_at (b : Fin 4) (s : Fin 4096) (e : Fin 1024) :
    val_main_v1 (F := Ideal) X W (ix3 b s e) = projK 0 X W (ix3 b s e) := by
  rw [val_main_v1_apply, val_main_v0_apply]
  unfold projK
  refine Finset.sum_congr rfl fun d _ => ?_
  have hl : lidx_main_v0 (idx_main_v1 (ix3 b s e)) d = ix3 b s d := funext fun a => Fin.ext (by match a with | ⟨0, _⟩ => rfl | ⟨1, _⟩ => rfl | ⟨2, _⟩ => rfl)
  have hr : ridx_main_v0 (idx_main_v1 (ix3 b s e)) d = ix2 (wrow 0 e) d :=
    funext fun a => Fin.ext (by match a with | ⟨0, _⟩ => (show e.val = 0 * 1024 + e.val; omega) | ⟨1, _⟩ => rfl)
  rw [hl, hr]

theorem v2_at (b : Fin 4) (s : Fin 4096) (e : Fin 1024) :
    val_main_v2 (F := Ideal) X W (ix3 b s e) = projK 1 X W (ix3 b s e) := by
  rw [val_main_v2_apply, val_main_v0_apply]
  unfold projK
  refine Finset.sum_congr rfl fun d _ => ?_
  have hl : lidx_main_v0 (idx_main_v2 (ix3 b s e)) d = ix3 b s d := funext fun a => Fin.ext (by match a with | ⟨0, _⟩ => rfl | ⟨1, _⟩ => rfl | ⟨2, _⟩ => rfl)
  have hr : ridx_main_v0 (idx_main_v2 (ix3 b s e)) d = ix2 (wrow 1 e) d :=
    funext fun a => Fin.ext (by match a with | ⟨0, _⟩ => (show 1024 + e.val = 1 * 1024 + e.val; omega) | ⟨1, _⟩ => rfl)
  rw [hl, hr]

theorem v3_at (b : Fin 4) (s : Fin 4096) (e : Fin 1024) :
    val_main_v3 (F := Ideal) X W (ix3 b s e) = projK 2 X W (ix3 b s e) := by
  rw [val_main_v3_apply, val_main_v0_apply]
  unfold projK
  refine Finset.sum_congr rfl fun d _ => ?_
  have hl : lidx_main_v0 (idx_main_v3 (ix3 b s e)) d = ix3 b s d := funext fun a => Fin.ext (by match a with | ⟨0, _⟩ => rfl | ⟨1, _⟩ => rfl | ⟨2, _⟩ => rfl)
  have hr : ridx_main_v0 (idx_main_v3 (ix3 b s e)) d = ix2 (wrow 2 e) d :=
    funext fun a => Fin.ext (by match a with | ⟨0, _⟩ => (show 2048 + e.val = 2 * 1024 + e.val; omega) | ⟨1, _⟩ => rfl)
  rw [hl, hr]

/-- The scale is the power of two the kernel multiplies by. -/
theorem v7_at (i : S4x4096x4096.Idx) : val_main_v7 (F := Ideal) i = Ideal.ofBits .f32 0x3D000000#32 := by
  rw [val_main_v7_apply]
  show Ideal.div (Ideal.ofBits .f32 0x3F800000#32) (Ideal.sqrt (Ideal.ofBits .f32 0x44800000#32)) = _
  exact scale_eq

variable (x : S4x4096x1024.Idx → ℝ) (wq : S3072x1024.Idx → ℝ)
variable (hx : X = fun j => (x j : EReal)) (hw : W = fun j => (wq j : EReal))

include hx hw in
theorem v1_real (b : Fin 4) (s : Fin 4096) (e : Fin 1024) :
    val_main_v1 (F := Ideal) X W (ix3 b s e) = ((projR 0 x wq (ix3 b s e) : ℝ) : EReal) := by
  rw [v1_at, hx, hw]; exact projK_coe 0 x wq _
include hx hw in
theorem v2_real (b : Fin 4) (s : Fin 4096) (e : Fin 1024) :
    val_main_v2 (F := Ideal) X W (ix3 b s e) = ((projR 1 x wq (ix3 b s e) : ℝ) : EReal) := by
  rw [v2_at, hx, hw]; exact projK_coe 1 x wq _
include hx hw in
theorem v3_real (b : Fin 4) (s : Fin 4096) (e : Fin 1024) :
    val_main_v3 (F := Ideal) X W (ix3 b s e) = ((projR 2 x wq (ix3 b s e) : ℝ) : EReal) := by
  rw [v3_at, hx, hw]; exact projK_coe 2 x wq _

/-- The real scores of the projections. -/
abbrev sc (b : Fin 4) (s : Fin 4096) : Fin 4096 → ℝ := scoreR (projR 0 x wq) (projR 1 x wq) b s

include hx hw in
/-- The scaled scores. -/
theorem v8_at (b : Fin 4) (s κ : Fin 4096) :
    val_main_v8 (F := Ideal) X W (ix3 b s κ) = ((sc x wq b s κ : ℝ) : EReal) := by
  show val_main_v6 (F := Ideal) X W (ix3 b s κ) * val_main_v7 (F := Ideal) (ix3 b s κ) = _
  rw [v7_at, ofBits_inv32, val_main_v6_apply]
  unfold sc scoreR
  rw [EReal.coe_mul, OnlineSoftmax.coe_sum]
  congr 1
  refine Finset.sum_congr rfl fun d _ => ?_
  have hl : lidx_main_v6 (ix3 b s κ) d = ix3 b s d := funext fun a => Fin.ext (by match a with | ⟨0, _⟩ => rfl | ⟨1, _⟩ => rfl | ⟨2, _⟩ => rfl)
  have hr : ridx_main_v6 (ix3 b s κ) d = ix3 b κ d := funext fun a => Fin.ext (by match a with | ⟨0, _⟩ => rfl | ⟨1, _⟩ => rfl | ⟨2, _⟩ => rfl)
  rw [hl, hr, v1_real X W x wq hx hw, v2_real X W x wq hx hw, EReal.coe_mul]

include hx hw in
/-- The row maximum the reference subtracts is the maximum of the row's scores over all keys. -/
theorem v11_at (b : Fin 4) (s : Fin 4096) :
    val_main_v11 (F := Ideal) X W (ix2 b s) = runMax (sc x wq b s) Finset.univ := by
  rw [val_main_v11_apply, val_main_v10_apply, val_main_cst_2_apply, Ideal.maximumf_def, Ideal.ofBits_def, ofBits_neg_inf,
    max_eq_right bot_le]
  unfold val_main_v9
  rw [Cert.Rank3Ops.hostMax3_apply (val_main_v8 (F := Ideal) X W) (val_main_cst_1 (F := Ideal)) reducesTo_S4x4096x4096_S4x4096_d2 h_S_ ofBits_neg_inf b s]
  unfold runMax
  exact Finset.sup_congr rfl fun κ _ => v8_at X W x wq hx hw b s κ

include hx hw in
/-- The exponentials. -/
theorem v15_at (b : Fin 4) (s κ : Fin 4096) :
    val_main_v15 (F := Ideal) X W (ix3 b s κ) = Ideal.exp (((sc x wq b s κ : ℝ) : EReal) - runMax (sc x wq b s) Finset.univ) := by
  show Ideal.exp (val_main_v8 (F := Ideal) X W (ix3 b s κ) - val_main_v13 (F := Ideal) X W (ix3 b s κ)) = _
  rw [v8_at X W x wq hx hw, val_main_v13_apply, val_main_v12_apply]
  have hi : idx_main_v12 (idx_main_v13 (ix3 b s κ)) = ix2 b s := funext fun a => Fin.ext (by match a with | ⟨0, _⟩ => rfl | ⟨1, _⟩ => rfl)
  rw [hi, v11_at X W x wq hx hw]

include hx hw in
/-- The row sum of the exponentials. -/
theorem v16_at (b : Fin 4) (s : Fin 4096) :
    val_main_v16 (F := Ideal) X W (ix2 b s) = runSum (sc x wq b s) Finset.univ (runMax (sc x wq b s) Finset.univ) := by
  rw [val_main_v16_apply]
  show Ideal.ofBits .f32 0x00000000#32 + _ = _
  rw [ofBits_zero, zero_add]
  unfold runSum
  refine Finset.sum_congr rfl fun κ _ => ?_
  have hi : idx_main_v16 (ix2 b s) κ = ix3 b s κ := funext fun a => Fin.ext (by match a with | ⟨0, _⟩ => rfl | ⟨1, _⟩ => rfl | ⟨2, _⟩ => rfl)
  rw [hi, v15_at X W x wq hx hw]

include hx hw in
/-- The normalised weights. -/
theorem v19_at (b : Fin 4) (s κ : Fin 4096) :
    val_main_v19 (F := Ideal) X W (ix3 b s κ)
      = Ideal.div (Ideal.exp (((sc x wq b s κ : ℝ) : EReal) - runMax (sc x wq b s) Finset.univ))
          (runSum (sc x wq b s) Finset.univ (runMax (sc x wq b s) Finset.univ)) := by
  show Ideal.div (val_main_v15 (F := Ideal) X W (ix3 b s κ)) (val_main_v18 (F := Ideal) X W (ix3 b s κ)) = _
  rw [v15_at X W x wq hx hw, val_main_v18_apply, val_main_v17_apply]
  have hi : idx_main_v17 (idx_main_v18 (ix3 b s κ)) = ix2 b s := funext fun a => Fin.ext (by match a with | ⟨0, _⟩ => rfl | ⟨1, _⟩ => rfl)
  rw [hi, v16_at X W x wq hx hw]

include hx hw in
/-- The attention output before the projection: the value-weighted sum over the denominator. -/
theorem v20_at (b : Fin 4) (s : Fin 4096) (d : Fin 1024) :
    val_main_v20 (F := Ideal) X W (ix3 b s d)
      = Ideal.div (runW (sc x wq b s) (valR (projR 2 x wq) b d) Finset.univ (runMax (sc x wq b s) Finset.univ))
          (runSum (sc x wq b s) Finset.univ (runMax (sc x wq b s) Finset.univ)) := by
  rw [val_main_v20_apply, normalize (sc x wq b s) (valR (projR 2 x wq) b d) Finset.univ_nonempty]
  refine Finset.sum_congr rfl fun κ _ => ?_
  have hl : lidx_main_v20 (ix3 b s d) κ = ix3 b s κ := funext fun a => Fin.ext (by match a with | ⟨0, _⟩ => rfl | ⟨1, _⟩ => rfl | ⟨2, _⟩ => rfl)
  have hr : ridx_main_v20 (ix3 b s d) κ = ix3 b κ d := funext fun a => Fin.ext (by match a with | ⟨0, _⟩ => rfl | ⟨1, _⟩ => rfl | ⟨2, _⟩ => rfl)
  rw [hl, hr, v19_at X W x wq hx hw, v3_real X W x wq hx hw]
  rfl

include hx hw in
/-- THE REFERENCE'S RESULT is the attention specification of the three projections and the output weights. -/
theorem ref_result :
    (val_main_v21 (F := Ideal) X W Wo : S4x4096x1024.Idx → EReal) = Gattn (projR 0 x wq) (projR 1 x wq) (projR 2 x wq) Wo := by
  funext i
  obtain ⟨b, s, e, rfl⟩ : ∃ (b : Fin 4) (s : Fin 4096) (e : Fin 1024), i = ix3 b s e := ⟨i 0, i 1, i 2, eq_ix3 i⟩
  rw [val_main_v21_apply]
  unfold Gattn
  refine Finset.sum_congr rfl fun d _ => ?_
  have hl : lidx_main_v21 (ix3 b s e) d = ix3 b s d := funext fun a => Fin.ext (by match a with | ⟨0, _⟩ => rfl | ⟨1, _⟩ => rfl | ⟨2, _⟩ => rfl)
  have hr : ridx_main_v21 (ix3 b s e) d = ix2 e d := funext fun a => Fin.ext (by match a with | ⟨0, _⟩ => rfl | ⟨1, _⟩ => rfl)
  rw [hl, hr, v20_at X W x wq hx hw]

end

end Cert.ReferenceIdeal.RefValue

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.Finite.lean ====
/-
  From the precondition to real numbers: the precondition is the conjunction of three tests, one per argument, each
  "every entry has absolute value strictly below +∞". When it comes out 1 each test does, so every entry of the input
  and of the stacked weight matrix is a real number.
-/
import proofs.«164876_j87514253623735_2_alg».proof.Pre_finite_inputs
import proofs.«164876_j87514253623735_2_alg».proof.Proof.LibFiniteAll

noncomputable section

open Idealize.ShloMosaic Idealize.ShloMosaic.ValueIdx

namespace Cert.Pre_finite_inputs.Reals

open Cert.Pre_finite_inputs Cert.Lib.FiniteAll

/-- A conjunction of two one-bit words is 1 only when both are. -/
theorem and_one (c d : BitVec 1) : IntOp.andi c d = 1#1 → c = 1#1 ∧ d = 1#1 := by revert c d; decide

/-- Under the precondition the first two arguments hold real numbers. -/
theorem reals_of_pre [Facts] (a0 : FVec Ideal S4x4096x1024 .f32) (a1 : FVec Ideal S3072x1024 .f32) (a2 : FVec Ideal S1024x1024 .f32)
    (h : fn (F := Ideal) a0 a1 a2 = fun _ => 1#1) :
    (∀ i, ∃ r : ℝ, a0 i = (r : EReal)) ∧ (∀ i, ∃ r : ℝ, a1 i = (r : EReal)) := by
  have h0 := congrFun h ix0
  dsimp only [fn] at h0
  obtain ⟨h8, -⟩ := and_one _ _ h0
  obtain ⟨h3, h7⟩ := and_one _ _ h8
  exact ⟨real_of_all a0 _ _ _ h3, real_of_all a1 _ _ _ h7⟩

end Cert.Pre_finite_inputs.Reals

end
-- ==== Proof.lean ====
/-
  Self-attention computed two ways agrees on the extended reals, for finite inputs.

  The kernel program projects the input to queries, keys and values in one pass over 512-row blocks (the three thirds
  of the stacked weight matrix), then runs attention tile by tile: for each 512-row query tile it walks the eight
  512-row key tiles keeping a running maximum of the scaled scores, a running sum of exponentials and a running
  weighted sum of value rows, each rescaled by `exp (old maximum − new maximum)` when the maximum moves; after the last
  key tile it divides the weighted sum by the sum and multiplies by the transposed output weights. The reference
  computes all scores at once, subtracts each row's maximum, exponentiates, normalises by the row sum, multiplies by
  the values and projects.

  Read over the extended reals the two agree: a change of float format is the identity; the scale `1 / sqrt 1024` is
  the power of two `2⁻⁵` the kernel multiplies by; the running quantities after the last key tile are the two-pass
  maximum, sum and weighted sum (the rescaling identity `exp (m − m') · exp (x − m) = exp (x − m')`, summed); and a
  quotient of a finite real sum by a positive real is the sum of the quotients. The last two steps need every score
  and value to be a real number, which is where the inputs' finiteness is used.

  Each program also runs to the end without a fault and leaves its three argument arrays as launched: the kernel
  program's run is assembled from its two regions' runs over the buffer contents named at each boundary, the attention
  region's invariant carrying the three running buffers from each grid point to the next; the reference's run is its
  list of host operations. The kernel's idealization rewrote no operation.
-/
import proofs.«164876_j87514253623735_2_alg».proof.Defs
import proofs.«164876_j87514253623735_2_alg».proof.Proof.Gen.Kernel
import proofs.«164876_j87514253623735_2_alg».proof.Proof.Gen.KernelIdeal
import proofs.«164876_j87514253623735_2_alg».proof.Proof.Gen.ReferenceIdeal
import proofs.«164876_j87514253623735_2_alg».proof.Proof.Gen.Pre_finite_inputs
import proofs.«164876_j87514253623735_2_alg».proof.Proof.Gen.ReferenceIdeal.Run
import proofs.«164876_j87514253623735_2_alg».proof.Proof.Gen.ReferenceIdeal.Read
import proofs.«164876_j87514253623735_2_alg».proof.Proof.FrameRun
import proofs.«164876_j87514253623735_2_alg».proof.Proof.FrameRunK
import proofs.«164876_j87514253623735_2_alg».proof.Proof.KernelValue
import proofs.«164876_j87514253623735_2_alg».proof.Proof.RefValue
import proofs.«164876_j87514253623735_2_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Frm.frame m ρ
/-- So does the idealized kernel program. -/
theorem frame_ki : Cert.frame_KernelIdeal := fun m ρ _ => Cert.KernelIdeal.Frm.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- No operation was rewritten. -/
theorem preserves : Cert.preserves_Kernel_KernelIdeal := trivial

/-- Under the precondition the input and the stacked weights hold real numbers on every core; with those, the kernel
    program's result array and the reference's are both the attention specification of the three projections and the
    output weights, and each run keeps its arguments. -/
theorem algebraic : Cert.algebraic_KernelIdeal_ReferenceIdeal := by
  intro m ρ m' ρ' hpre hagree
  have hreal := fun c => Cert.Pre_finite_inputs.Reals.reals_of_pre _ _ _ (hpre c)
  let x : Dev Cert.KernelIdeal.nD → Cert.KernelIdeal.S4x4096x1024.Idx → ℝ := fun c i => Classical.choose ((hreal c).1 i)
  let wq : Dev Cert.KernelIdeal.nD → Cert.KernelIdeal.S3072x1024.Idx → ℝ := fun c i => Classical.choose ((hreal c).2 i)
  have hx : ∀ c i, Cert.KernelIdeal.Val.argX m c i = (x c i : EReal) := fun c i => Classical.choose_spec ((hreal c).1 i)
  have hw : ∀ c i, Cert.KernelIdeal.Val.argW m c i = (wq c i : EReal) := fun c i => Classical.choose_spec ((hreal c).2 i)
  refine ⟨fun c => Cert.KernelIdeal.Val.Gattn (Cert.KernelIdeal.Val.projR 0 (x c) (wq c)) (Cert.KernelIdeal.Val.projR 1 (x c) (wq c))
      (Cert.KernelIdeal.Val.projR 2 (x c) (wq c)) (Cert.KernelIdeal.Val.argO m c), ?_, ?_⟩
  · exact (θ_run Cert.KernelIdeal.defs _ _).mono
      (fun r h c => ⟨(h c).1.trans (Cert.KernelIdeal.Val.kernel_result m ρ c (x c) (wq c) (hx c) (hw c)), (h c).2⟩)
      (Cert.KernelIdeal.Frm.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v21_eq, (hagree c).1, (hagree c).2.1, (hagree c).2.2]
    exact Cert.ReferenceIdeal.RefValue.ref_result _ _ _ (x c) (wq c) (funext (hx c)) (funext (hw c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
